-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x64x10000 : Shape := ⟨4, ![16, 3, 64, 10000]⟩
abbrev S16 : Shape := ⟨1, ![16]⟩
abbrev S_ : Shape := ⟨0, ![]⟩

class Facts : Prop where
  bcast_S_S16x3x64x10000 : S_.BroadcastsInDim S16x3x64x10000 (![] : Fin 0 → Fin S16x3x64x10000.rank)
  reducesTo_S16x3x64x10000_S_d0_1_2_3 : S16x3x64x10000.ReducesTo [0, 1, 2, 3] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x3x64x10000 .f32) (main_arg1 : FVec F S16 .f32) : IVec S_ 1 :=
  let main_v0 : FVec F S16x3x64x10000 .f32 := Host.absf main_arg0
  let main_cst : FVec F S_ .f32 := constant S_ .f32 0x7F800000#32
  let main_v1 : FVec F S16x3x64x10000 .f32 := broadcastInDim S16x3x64x10000 ![] bcast_S_S16x3x64x10000 main_cst
  let main_v2 : IVec S16x3x64x10000 1 := cmpf .olt main_v0 main_v1
  let main_c : IVec S_ 1 := constantI S_ 1 1#1
  let main_v3 : IVec S_ 1 := (fun x v => Host.reduce IntOp.andi x v reducesTo_S16x3x64x10000_S_d0_1_2_3 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S16x3x64x10000 : Shape := ⟨4, ![16, 3, 64, 10000]⟩
abbrev S16 : Shape := ⟨1, ![16]⟩
abbrev S736x3x64x1000 : Shape := ⟨4, ![736, 3, 64, 1000]⟩
abbrev S1x3x16x10000 : Shape := ⟨4, ![1, 3, 16, 10000]⟩
abbrev S46x3x16x1000 : Shape := ⟨4, ![46, 3, 16, 1000]⟩
abbrev S46 : Shape := ⟨1, ![46]⟩
abbrev S1 : Shape := ⟨1, ![1]⟩
abbrev S_ : Shape := ⟨0, ![]⟩
abbrev S1x3x16x1000 : Shape := ⟨4, ![1, 3, 16, 1000]⟩
abbrev S3x16x1000 : Shape := ⟨3, ![3, 16, 1000]⟩
abbrev S16x46 : Shape := ⟨2, ![16, 46]⟩
abbrev S736 : Shape := ⟨1, ![736]⟩

abbrev nBuf : Space → Nat
  | .hbm => 5
  | .vmem => 4
  | .smem => 0
  | _ => 0

abbrev bufTy : (tb : Table) → Fin (tcTables nBuf tb) → BufTy
  | .hbm, ⟨0, _⟩ => ⟨S16x3x64x10000, .f32⟩
  | .hbm, ⟨1, _⟩ => ⟨S16, .f32⟩
  | .hbm, ⟨2, _⟩ => ⟨S736x3x64x1000, .f32⟩
  | .hbm, ⟨3, _⟩ => ⟨S16x46, .f32⟩
  | .hbm, ⟨4, _⟩ => ⟨S736, .f32⟩
  | .local _ .vmem, ⟨0, _⟩ => ⟨S1x3x16x10000, .f32⟩
  | .local _ .vmem, ⟨1, _⟩ => ⟨S1x3x16x10000, .f32⟩
  | .local _ .vmem, ⟨2, _⟩ => ⟨S46x3x16x1000, .f32⟩
  | .local _ .vmem, ⟨3, _⟩ => ⟨S46x3x16x1000, .f32⟩
  | _, _ => ⟨S16x3x64x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x16x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S46x3x16x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S46_S1_0 : ∀ a, (![0] : Fin 1 → Nat) a + S1.size a ≤ S46.size a
  squeezes_S1_S_ : S1.Squeezes S_
  inb_S46x3x16x1000_S1x3x16x1000_0_0_0_0 : ∀ a, (![0, 0, 0, 0] : Fin 4 → Nat) a + S1x3x16x1000.size a ≤ S46x3x16x1000.size a
  squeezes_S1x3x16x1000_S3x16x1000 : S1x3x16x1000.Squeezes S3x16x1000
  inb_S1x3x16x10000_S1x3x16x1000_0_0_0_0 : ∀ a, (![0, 0, 0, 0] : Fin 4 → Nat) a + S1x3x16x1000.size a ≤ S1x3x16x10000.size a
  inb_S46_S1_1 : ∀ a, (![1] : Fin 1 → Nat) a + S1.size a ≤ S46.size a
  inb_S46x3x16x1000_S1x3x16x1000_1_0_0_0 : ∀ a, (![1, 0, 0, 0] : Fin 4 → Nat) a + S1x3x16x1000.size a ≤ S46x3x16x1000.size a
  inb_S1x3x16x10000_S1x3x16x1000_0_0_0_200 : ∀ a, (![0, 0, 0, 200] : Fin 4 → Nat) a + S1x3x16x1000.size a ≤ S1x3x16x10000.size a
  inb_S46_S1_2 : ∀ a, (![2] : Fin 1 → Nat) a + S1.size a ≤ S46.size a
  inb_S46x3x16x1000_S1x3x16x1000_2_0_0_0 : ∀ a, (![2, 0, 0, 0] : Fin 4 → Nat) a + S1x3x16x1000.size a ≤ S46x3x16x1000.size a
  inb_S1x3x16x10000_S1x3x16x1000_0_0_0_400 : ∀ a, (![0, 0, 0, 400] : Fin 4 → Nat) a + S1x3x16x1000.size a ≤ S1x3x16x10000.size a
  inb_S46_S1_3 : ∀ a, (![3] : Fin 1 → Nat) a + S1.size a ≤ S46.size a
  inb_S46x3x16x1000_S1x3x16x1000_3_0_0_0 : ∀ a, (![3, 0, 0, 0] : Fin 4 → Nat) a + S1x3x16x1000.size a ≤ S46x3x16x1000.size a
  inb_S1x3x16x10000_S1x3x16x1000_0_0_0_600 : ∀ a, (![0, 0, 0, 600] : Fin 4 → Nat) a + S1x3x16x1000.size a ≤ S1x3x16x10000.size a
  inb_S46_S1_4 : ∀ a, (![4] : Fin 1 → Nat) a + S1.size a ≤ S46.size a
  inb_S46x3x16x1000_S1x3x16x1000_4_0_0_0 : ∀ a, (![4, 0, 0, 0] : Fin 4 → Nat) a + S1x3x16x1000.size a ≤ S46x3x16x1000.size a
  inb_S1x3x16x10000_S1x3x16x1000_0_0_0_800 : ∀ a, (![0, 0, 0, 800] : Fin 4 → Nat) a + S1x3x16x1000.size a ≤ S1x3x16x10000.size a
  inb_S46_S1_5 : ∀ a, (![5] : Fin 1 → Nat) a + S1.size a ≤ S46.size a
  inb_S46x3x16x1000_S1x3x16x1000_5_0_0_0 : ∀ a, (![5, 0, 0, 0] : Fin 4 → Nat) a + S1x3x16x1000.size a ≤ S46x3x16x1000.size a
  inb_S1x3x16x10000_S1x3x16x1000_0_0_0_1000 : ∀ a, (![0, 0, 0, 1000] : Fin 4 → Nat) a + S1x3x16x1000.size a ≤ S1x3x16x10000.size a
  inb_S46_S1_6 : ∀ a, (![6] : Fin 1 → Nat) a + S1.size a ≤ S46.size a
  inb_S46x3x16x1000_S1x3x16x1000_6_0_0_0 : ∀ a, (![6, 0, 0, 0] : Fin 4 → Nat) a + S1x3x16x1000.size a ≤ S46x3x16x1000.size a
  inb_S1x3x16x10000_S1x3x16x1000_0_0_0_1200 : ∀ a, (![0, 0, 0, 1200] : Fin 4 → Nat) a + S1x3x16x1000.size a ≤ S1x3x16x10000.size a
  inb_S46_S1_7 : ∀ a, (![7] : Fin 1 → Nat) a + S1.size a ≤ S46.size a
  inb_S46x3x16x1000_S1x3x16x1000_7_0_0_0 : ∀ a, (![7, 0, 0, 0] : Fin 4 → Nat) a + S1x3x16x1000.size a ≤ S46x3x16x1000.size a
  inb_S1x3x16x10000_S1x3x16x1000_0_0_0_1400 : ∀ a, (![0, 0, 0, 1400] : Fin 4 → Nat) a + S1x3x16x1000.size a ≤ S1x3x16x10000.size a
  inb_S46_S1_8 : ∀ a, (![8] : Fin 1 → Nat) a + S1.size a ≤ S46.size a
  inb_S46x3x16x1000_S1x3x16x1000_8_0_0_0 : ∀ a, (![8, 0, 0, 0] : Fin 4 → Nat) a + S1x3x16x1000.size a ≤ S46x3x16x1000.size a
  inb_S1x3x16x10000_S1x3x16x1000_0_0_0_1600 : ∀ a, (![0, 0, 0, 1600] : Fin 4 → Nat) a + S1x3x16x1000.size a ≤ S1x3x16x10000.size a
  inb_S46_S1_9 : ∀ a, (![9] : Fin 1 → Nat) a + S1.size a ≤ S46.size a
  inb_S46x3x16x1000_S1x3x16x1000_9_0_0_0 : ∀ a, (![9, 0, 0, 0] : Fin 4 → Nat) a + S1x3x16x1000.size a ≤ S46x3x16x1000.size a
  inb_S1x3x16x10000_S1x3x16x1000_0_0_0_1800 : ∀ a, (![0, 0, 0, 1800] : Fin 4 → Nat) a + S1x3x16x1000.size a ≤ S1x3x16x10000.size a
  inb_S46_S1_10 : ∀ a, (![10] : Fin 1 → Nat) a + S1.size a ≤ S46.size a
  inb_S46x3x16x1000_S1x3x16x1000_10_0_0_0 : ∀ a, (![10, 0, 0, 0] : Fin 4 → Nat) a + S1x3x16x1000.size a ≤ S46x3x16x1000.size a
  inb_S1x3x16x10000_S1x3x16x1000_0_0_0_2000 : ∀ a, (![0, 0, 0, 2000] : Fin 4 → Nat) a + S1x3x16x1000.size a ≤ S1x3x16x10000.size a
  inb_S46_S1_11 : ∀ a, (![11] : Fin 1 → Nat) a + S1.size a ≤ S46.size a
  inb_S46x3x16x1000_S1x3x16x1000_11_0_0_0 : ∀ a, (![11, 0, 0, 0] : Fin 4 → Nat) a + S1x3x16x1000.size a ≤ S46x3x16x1000.size a
  inb_S1x3x16x10000_S1x3x16x1000_0_0_0_2200 : ∀ a, (![0, 0, 0, 2200] : Fin 4 → Nat) a + S1x3x16x1000.size a ≤ S1x3x16x10000.size a
  inb_S46_S1_12 : ∀ a, (![12] : Fin 1 → Nat) a + S1.size a ≤ S46.size a
  inb_S46x3x16x1000_S1x3x16x1000_12_0_0_0 : ∀ a, (![12, 0, 0, 0] : Fin 4 → Nat) a + S1x3x16x1000.size a ≤ S46x3x16x1000.size a
  inb_S1x3x16x10000_S1x3x16x1000_0_0_0_2400 : ∀ a, (![0, 0, 0, 2400] : Fin 4 → Nat) a + S1x3x16x1000.size a ≤ S1x3x16x10000.size a
  inb_S46_S1_13 : ∀ a, (![13] : Fin 1 → Nat) a + S1.size a ≤ S46.size a
  inb_S46x3x16x1000_S1x3x16x1000_13_0_0_0 : ∀ a, (![13, 0, 0, 0] : Fin 4 → Nat) a + S1x3x16x1000.size a ≤ S46x3x16x1000.size a
  inb_S1x3x16x10000_S1x3x16x1000_0_0_0_2600 : ∀ a, (![0, 0, 0, 2600] : Fin 4 → Nat) a + S1x3x16x1000.size a ≤ S1x3x16x10000.size a
  inb_S46_S1_14 : ∀ a, (![14] : Fin 1 → Nat) a + S1.size a ≤ S46.size a
  inb_S46x3x16x1000_S1x3x16x1000_14_0_0_0 : ∀ a, (![14, 0, 0, 0] : Fin 4 → Nat) a + S1x3x16x1000.size a ≤ S46x3x16x1000.size a
  inb_S1x3x16x10000_S1x3x16x1000_0_0_0_2800 : ∀ a, (![0, 0, 0, 2800] : Fin 4 → Nat) a + S1x3x16x1000.size a ≤ S1x3x16x10000.size a
  inb_S46_S1_15 : ∀ a, (![15] : Fin 1 → Nat) a + S1.size a ≤ S46.size a
  inb_S46x3x16x1000_S1x3x16x1000_15_0_0_0 : ∀ a, (![15, 0, 0, 0] : Fin 4 → Nat) a + S1x3x16x1000.size a ≤ S46x3x16x1000.size a
  inb_S1x3x16x10000_S1x3x16x1000_0_0_0_3000 : ∀ a, (![0, 0, 0, 3000] : Fin 4 → Nat) a + S1x3x16x1000.size a ≤ S1x3x16x10000.size a
  inb_S46_S1_16 : ∀ a, (![16] : Fin 1 → Nat) a + S1.size a ≤ S46.size a
  inb_S46x3x16x1000_S1x3x16x1000_16_0_0_0 : ∀ a, (![16, 0, 0, 0] : Fin 4 → Nat) a + S1x3x16x1000.size a ≤ S46x3x16x1000.size a
  inb_S1x3x16x10000_S1x3x16x1000_0_0_0_3200 : ∀ a, (![0, 0, 0, 3200] : Fin 4 → Nat) a + S1x3x16x1000.size a ≤ S1x3x16x10000.size a
  inb_S46_S1_17 : ∀ a, (![17] : Fin 1 → Nat) a + S1.size a ≤ S46.size a
  inb_S46x3x16x1000_S1x3x16x1000_17_0_0_0 : ∀ a, (![17, 0, 0, 0] : Fin 4 → Nat) a + S1x3x16x1000.size a ≤ S46x3x16x1000.size a
  inb_S1x3x16x10000_S1x3x16x1000_0_0_0_3400 : ∀ a, (![0, 0, 0, 3400] : Fin 4 → Nat) a + S1x3x16x1000.size a ≤ S1x3x16x10000.size a
  inb_S46_S1_18 : ∀ a, (![18] : Fin 1 → Nat) a + S1.size a ≤ S46.size a
  inb_S46x3x16x1000_S1x3x16x1000_18_0_0_0 : ∀ a, (![18, 0, 0, 0] : Fin 4 → Nat) a + S1x3x16x1000.size a ≤ S46x3x16x1000.size a
  inb_S1x3x16x10000_S1x3x16x1000_0_0_0_3600 : ∀ a, (![0, 0, 0, 3600] : Fin 4 → Nat) a + S1x3x16x1000.size a ≤ S1x3x16x10000.size a
  inb_S46_S1_19 : ∀ a, (![19] : Fin 1 → Nat) a + S1.size a ≤ S46.size a
  inb_S46x3x16x1000_S1x3x16x1000_19_0_0_0 : ∀ a, (![19, 0, 0, 0] : Fin 4 → Nat) a + S1x3x16x1000.size a ≤ S46x3x16x1000.size a
  inb_S1x3x16x10000_S1x3x16x1000_0_0_0_3800 : ∀ a, (![0, 0, 0, 3800] : Fin 4 → Nat) a + S1x3x16x1000.size a ≤ S1x3x16x10000.size a
  inb_S46_S1_20 : ∀ a, (![20] : Fin 1 → Nat) a + S1.size a ≤ S46.size a
  inb_S46x3x16x1000_S1x3x16x1000_20_0_0_0 : ∀ a, (![20, 0, 0, 0] : Fin 4 → Nat) a + S1x3x16x1000.size a ≤ S46x3x16x1000.size a
  inb_S1x3x16x10000_S1x3x16x1000_0_0_0_4000 : ∀ a, (![0, 0, 0, 4000] : Fin 4 → Nat) a + S1x3x16x1000.size a ≤ S1x3x16x10000.size a
  inb_S46_S1_21 : ∀ a, (![21] : Fin 1 → Nat) a + S1.size a ≤ S46.size a
  inb_S46x3x16x1000_S1x3x16x1000_21_0_0_0 : ∀ a, (![21, 0, 0, 0] : Fin 4 → Nat) a + S1x3x16x1000.size a ≤ S46x3x16x1000.size a
  inb_S1x3x16x10000_S1x3x16x1000_0_0_0_4200 : ∀ a, (![0, 0, 0, 4200] : Fin 4 → Nat) a + S1x3x16x1000.size a ≤ S1x3x16x10000.size a
  inb_S46_S1_22 : ∀ a, (![22] : Fin 1 → Nat) a + S1.size a ≤ S46.size a
  inb_S46x3x16x1000_S1x3x16x1000_22_0_0_0 : ∀ a, (![22, 0, 0, 0] : Fin 4 → Nat) a + S1x3x16x1000.size a ≤ S46x3x16x1000.size a
  inb_S1x3x16x10000_S1x3x16x1000_0_0_0_4400 : ∀ a, (![0, 0, 0, 4400] : Fin 4 → Nat) a + S1x3x16x1000.size a ≤ S1x3x16x10000.size a
  inb_S46_S1_23 : ∀ a, (![23] : Fin 1 → Nat) a + S1.size a ≤ S46.size a
  inb_S46x3x16x1000_S1x3x16x1000_23_0_0_0 : ∀ a, (![23, 0, 0, 0] : Fin 4 → Nat) a + S1x3x16x1000.size a ≤ S46x3x16x1000.size a
  inb_S1x3x16x10000_S1x3x16x1000_0_0_0_4600 : ∀ a, (![0, 0, 0, 4600] : Fin 4 → Nat) a + S1x3x16x1000.size a ≤ S1x3x16x10000.size a
  inb_S46_S1_24 : ∀ a, (![24] : Fin 1 → Nat) a + S1.size a ≤ S46.size a
  inb_S46x3x16x1000_S1x3x16x1000_24_0_0_0 : ∀ a, (![24, 0, 0, 0] : Fin 4 → Nat) a + S1x3x16x1000.size a ≤ S46x3x16x1000.size a
  inb_S1x3x16x10000_S1x3x16x1000_0_0_0_4800 : ∀ a, (![0, 0, 0, 4800] : Fin 4 → Nat) a + S1x3x16x1000.size a ≤ S1x3x16x10000.size a
  inb_S46_S1_25 : ∀ a, (![25] : Fin 1 → Nat) a + S1.size a ≤ S46.size a
  inb_S46x3x16x1000_S1x3x16x1000_25_0_0_0 : ∀ a, (![25, 0, 0, 0] : Fin 4 → Nat) a + S1x3x16x1000.size a ≤ S46x3x16x1000.size a
  inb_S1x3x16x10000_S1x3x16x1000_0_0_0_5000 : ∀ a, (![0, 0, 0, 5000] : Fin 4 → Nat) a + S1x3x16x1000.size a ≤ S1x3x16x10000.size a
  inb_S46_S1_26 : ∀ a, (![26] : Fin 1 → Nat) a + S1.size a ≤ S46.size a
  inb_S46x3x16x1000_S1x3x16x1000_26_0_0_0 : ∀ a, (![26, 0, 0, 0] : Fin 4 → Nat) a + S1x3x16x1000.size a ≤ S46x3x16x1000.size a
  inb_S1x3x16x10000_S1x3x16x1000_0_0_0_5200 : ∀ a, (![0, 0, 0, 5200] : Fin 4 → Nat) a + S1x3x16x1000.size a ≤ S1x3x16x10000.size a
  inb_S46_S1_27 : ∀ a, (![27] : Fin 1 → Nat) a + S1.size a ≤ S46.size a
  inb_S46x3x16x1000_S1x3x16x1000_27_0_0_0 : ∀ a, (![27, 0, 0, 0] : Fin 4 → Nat) a + S1x3x16x1000.size a ≤ S46x3x16x1000.size a
  inb_S1x3x16x10000_S1x3x16x1000_0_0_0_5400 : ∀ a, (![0, 0, 0, 5400] : Fin 4 → Nat) a + S1x3x16x1000.size a ≤ S1x3x16x10000.size a
  inb_S46_S1_28 : ∀ a, (![28] : Fin 1 → Nat) a + S1.size a ≤ S46.size a
  inb_S46x3x16x1000_S1x3x16x1000_28_0_0_0 : ∀ a, (![28, 0, 0, 0] : Fin 4 → Nat) a + S1x3x16x1000.size a ≤ S46x3x16x1000.size a
  inb_S1x3x16x10000_S1x3x16x1000_0_0_0_5600 : ∀ a, (![0, 0, 0, 5600] : Fin 4 → Nat) a + S1x3x16x1000.size a ≤ S1x3x16x10000.size a
  inb_S46_S1_29 : ∀ a, (![29] : Fin 1 → Nat) a + S1.size a ≤ S46.size a
  inb_S46x3x16x1000_S1x3x16x1000_29_0_0_0 : ∀ a, (![29, 0, 0, 0] : Fin 4 → Nat) a + S1x3x16x1000.size a ≤ S46x3x16x1000.size a
  inb_S1x3x16x10000_S1x3x16x1000_0_0_0_5800 : ∀ a, (![0, 0, 0, 5800] : Fin 4 → Nat) a + S1x3x16x1000.size a ≤ S1x3x16x10000.size a
  inb_S46_S1_30 : ∀ a, (![30] : Fin 1 → Nat) a + S1.size a ≤ S46.size a
  inb_S46x3x16x1000_S1x3x16x1000_30_0_0_0 : ∀ a, (![30, 0, 0, 0] : Fin 4 → Nat) a + S1x3x16x1000.size a ≤ S46x3x16x1000.size a
  inb_S1x3x16x10000_S1x3x16x1000_0_0_0_6000 : ∀ a, (![0, 0, 0, 6000] : Fin 4 → Nat) a + S1x3x16x1000.size a ≤ S1x3x16x10000.size a
  inb_S46_S1_31 : ∀ a, (![31] : Fin 1 → Nat) a + S1.size a ≤ S46.size a
  inb_S46x3x16x1000_S1x3x16x1000_31_0_0_0 : ∀ a, (![31, 0, 0, 0] : Fin 4 → Nat) a + S1x3x16x1000.size a ≤ S46x3x16x1000.size a
  inb_S1x3x16x10000_S1x3x16x1000_0_0_0_6200 : ∀ a, (![0, 0, 0, 6200] : Fin 4 → Nat) a + S1x3x16x1000.size a ≤ S1x3x16x10000.size a
  inb_S46_S1_32 : ∀ a, (![32] : Fin 1 → Nat) a + S1.size a ≤ S46.size a
  inb_S46x3x16x1000_S1x3x16x1000_32_0_0_0 : ∀ a, (![32, 0, 0, 0] : Fin 4 → Nat) a + S1x3x16x1000.size a ≤ S46x3x16x1000.size a
  inb_S1x3x16x10000_S1x3x16x1000_0_0_0_6400 : ∀ a, (![0, 0, 0, 6400] : Fin 4 → Nat) a + S1x3x16x1000.size a ≤ S1x3x16x10000.size a
  inb_S46_S1_33 : ∀ a, (![33] : Fin 1 → Nat) a + S1.size a ≤ S46.size a
  inb_S46x3x16x1000_S1x3x16x1000_33_0_0_0 : ∀ a, (![33, 0, 0, 0] : Fin 4 → Nat) a + S1x3x16x1000.size a ≤ S46x3x16x1000.size a
  inb_S1x3x16x10000_S1x3x16x1000_0_0_0_6600 : ∀ a, (![0, 0, 0, 6600] : Fin 4 → Nat) a + S1x3x16x1000.size a ≤ S1x3x16x10000.size a
  inb_S46_S1_34 : ∀ a, (![34] : Fin 1 → Nat) a + S1.size a ≤ S46.size a
  inb_S46x3x16x1000_S1x3x16x1000_34_0_0_0 : ∀ a, (![34, 0, 0, 0] : Fin 4 → Nat) a + S1x3x16x1000.size a ≤ S46x3x16x1000.size a
  inb_S1x3x16x10000_S1x3x16x1000_0_0_0_6800 : ∀ a, (![0, 0, 0, 6800] : Fin 4 → Nat) a + S1x3x16x1000.size a ≤ S1x3x16x10000.size a
  inb_S46_S1_35 : ∀ a, (![35] : Fin 1 → Nat) a + S1.size a ≤ S46.size a
  inb_S46x3x16x1000_S1x3x16x1000_35_0_0_0 : ∀ a, (![35, 0, 0, 0] : Fin 4 → Nat) a + S1x3x16x1000.size a ≤ S46x3x16x1000.size a
  inb_S1x3x16x10000_S1x3x16x1000_0_0_0_7000 : ∀ a, (![0, 0, 0, 7000] : Fin 4 → Nat) a + S1x3x16x1000.size a ≤ S1x3x16x10000.size a
  inb_S46_S1_36 : ∀ a, (![36] : Fin 1 → Nat) a + S1.size a ≤ S46.size a
  inb_S46x3x16x1000_S1x3x16x1000_36_0_0_0 : ∀ a, (![36, 0, 0, 0] : Fin 4 → Nat) a + S1x3x16x1000.size a ≤ S46x3x16x1000.size a
  inb_S1x3x16x10000_S1x3x16x1000_0_0_0_7200 : ∀ a, (![0, 0, 0, 7200] : Fin 4 → Nat) a + S1x3x16x1000.size a ≤ S1x3x16x10000.size a
  inb_S46_S1_37 : ∀ a, (![37] : Fin 1 → Nat) a + S1.size a ≤ S46.size a
  inb_S46x3x16x1000_S1x3x16x1000_37_0_0_0 : ∀ a, (![37, 0, 0, 0] : Fin 4 → Nat) a + S1x3x16x1000.size a ≤ S46x3x16x1000.size a
  inb_S1x3x16x10000_S1x3x16x1000_0_0_0_7400 : ∀ a, (![0, 0, 0, 7400] : Fin 4 → Nat) a + S1x3x16x1000.size a ≤ S1x3x16x10000.size a
  inb_S46_S1_38 : ∀ a, (![38] : Fin 1 → Nat) a + S1.size a ≤ S46.size a
  inb_S46x3x16x1000_S1x3x16x1000_38_0_0_0 : ∀ a, (![38, 0, 0, 0] : Fin 4 → Nat) a + S1x3x16x1000.size a ≤ S46x3x16x1000.size a
  inb_S1x3x16x10000_S1x3x16x1000_0_0_0_7600 : ∀ a, (![0, 0, 0, 7600] : Fin 4 → Nat) a + S1x3x16x1000.size a ≤ S1x3x16x10000.size a
  inb_S46_S1_39 : ∀ a, (![39] : Fin 1 → Nat) a + S1.size a ≤ S46.size a
  inb_S46x3x16x1000_S1x3x16x1000_39_0_0_0 : ∀ a, (![39, 0, 0, 0] : Fin 4 → Nat) a + S1x3x16x1000.size a ≤ S46x3x16x1000.size a
  inb_S1x3x16x10000_S1x3x16x1000_0_0_0_7800 : ∀ a, (![0, 0, 0, 7800] : Fin 4 → Nat) a + S1x3x16x1000.size a ≤ S1x3x16x10000.size a
  inb_S46_S1_40 : ∀ a, (![40] : Fin 1 → Nat) a + S1.size a ≤ S46.size a
  inb_S46x3x16x1000_S1x3x16x1000_40_0_0_0 : ∀ a, (![40, 0, 0, 0] : Fin 4 → Nat) a + S1x3x16x1000.size a ≤ S46x3x16x1000.size a
  inb_S1x3x16x10000_S1x3x16x1000_0_0_0_8000 : ∀ a, (![0, 0, 0, 8000] : Fin 4 → Nat) a + S1x3x16x1000.size a ≤ S1x3x16x10000.size a
  inb_S46_S1_41 : ∀ a, (![41] : Fin 1 → Nat) a + S1.size a ≤ S46.size a
  inb_S46x3x16x1000_S1x3x16x1000_41_0_0_0 : ∀ a, (![41, 0, 0, 0] : Fin 4 → Nat) a + S1x3x16x1000.size a ≤ S46x3x16x1000.size a
  inb_S1x3x16x10000_S1x3x16x1000_0_0_0_8200 : ∀ a, (![0, 0, 0, 8200] : Fin 4 → Nat) a + S1x3x16x1000.size a ≤ S1x3x16x10000.size a
  inb_S46_S1_42 : ∀ a, (![42] : Fin 1 → Nat) a + S1.size a ≤ S46.size a
  inb_S46x3x16x1000_S1x3x16x1000_42_0_0_0 : ∀ a, (![42, 0, 0, 0] : Fin 4 → Nat) a + S1x3x16x1000.size a ≤ S46x3x16x1000.size a
  inb_S1x3x16x10000_S1x3x16x1000_0_0_0_8400 : ∀ a, (![0, 0, 0, 8400] : Fin 4 → Nat) a + S1x3x16x1000.size a ≤ S1x3x16x10000.size a
  inb_S46_S1_43 : ∀ a, (![43] : Fin 1 → Nat) a + S1.size a ≤ S46.size a
  inb_S46x3x16x1000_S1x3x16x1000_43_0_0_0 : ∀ a, (![43, 0, 0, 0] : Fin 4 → Nat) a + S1x3x16x1000.size a ≤ S46x3x16x1000.size a
  inb_S1x3x16x10000_S1x3x16x1000_0_0_0_8600 : ∀ a, (![0, 0, 0, 8600] : Fin 4 → Nat) a + S1x3x16x1000.size a ≤ S1x3x16x10000.size a
  inb_S46_S1_44 : ∀ a, (![44] : Fin 1 → Nat) a + S1.size a ≤ S46.size a
  inb_S46x3x16x1000_S1x3x16x1000_44_0_0_0 : ∀ a, (![44, 0, 0, 0] : Fin 4 → Nat) a + S1x3x16x1000.size a ≤ S46x3x16x1000.size a
  inb_S1x3x16x10000_S1x3x16x1000_0_0_0_8800 : ∀ a, (![0, 0, 0, 8800] : Fin 4 → Nat) a + S1x3x16x1000.size a ≤ S1x3x16x10000.size a
  inb_S46_S1_45 : ∀ a, (![45] : Fin 1 → Nat) a + S1.size a ≤ S46.size a
  inb_S46x3x16x1000_S1x3x16x1000_45_0_0_0 : ∀ a, (![45, 0, 0, 0] : Fin 4 → Nat) a + S1x3x16x1000.size a ≤ S46x3x16x1000.size a
  inb_S1x3x16x10000_S1x3x16x1000_0_0_0_9000 : ∀ a, (![0, 0, 0, 9000] : Fin 4 → Nat) a + S1x3x16x1000.size a ≤ S1x3x16x10000.size a
  bcast_S16_S16x46_0 : S16.BroadcastsInDim S16x46 (![0] : Fin 1 → Fin S16x46.rank)
  shapeCasts_S16x46_S736 : S16x46.ShapeCasts S736
  hcc0_scratch0 : 4 + S46.numel ≤ 50
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x16x10000.size a ≤ S16x3x64x10000.size a
  hwx0_0 : ∀ i : grid0.Coords, EltTy.bits .f32 = 32 ∨ (Rect.block (s := S16x3x64x10000) S1x3x16x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S46x3x16x1000.size a ≤ S736x3x64x1000.size a
  hwx0_1 : ∀ i : grid0.Coords, EltTy.bits .f32 = 32 ∨ (Rect.block (s := S736x3x64x1000) S46x3x16x1000.size (cc0_transform_1 i) (hinb0_1 i)).WholeWords (EltTy.packing .f32)

variable [Facts₀]

abbrev cc0_scratch0 : DmaSems sig S46 := SemArray.consecutive 4 S46 hcc0_scratch0

abbrev win0_0 : Pipeline.Window sig grid0 :=
  Pipeline.Window.ofSpec (Memref.whole main_arg0) S1x3x16x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S46x3x16x1000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x3x64x10000 : Shape := ⟨4, ![16, 3, 64, 10000]⟩
abbrev S16 : Shape := ⟨1, ![16]⟩
abbrev S46 : Shape := ⟨1, ![46]⟩
abbrev S46x1 : Shape := ⟨2, ![46, 1]⟩
abbrev S_ : Shape := ⟨0, ![]⟩
abbrev S1000 : Shape := ⟨1, ![1000]⟩
abbrev S1x1000 : Shape := ⟨2, ![1, 1000]⟩
abbrev S46x1000 : Shape := ⟨2, ![46, 1000]⟩
abbrev S46x1000x1 : Shape := ⟨3, ![46, 1000, 1]⟩
abbrev S16x3x64x46x1000 : Shape := ⟨5, ![16, 3, 64, 46, 1000]⟩
abbrev S16x46x3x64x1000 : Shape := ⟨5, ![16, 46, 3, 64, 1000]⟩
abbrev S736x3x64x1000 : Shape := ⟨4, ![736, 3, 64, 1000]⟩
abbrev S16x46 : Shape := ⟨2, ![16, 46]⟩
abbrev S736 : Shape := ⟨1, ![736]⟩

abbrev nBuf : Space → Nat
  | .hbm => 25
  | .vmem => 0
  | .smem => 0
  | _ => 0

abbrev bufTy : (tb : Table) → Fin (tcTables nBuf tb) → BufTy
  | .hbm, ⟨0, _⟩ => ⟨S16x3x64x10000, .f32⟩
  | .hbm, ⟨1, _⟩ => ⟨S16, .f32⟩
  | .hbm, ⟨2, _⟩ => ⟨S46, .i32⟩
  | .hbm, ⟨3, _⟩ => ⟨S46x1, .i32⟩
  | .hbm, ⟨4, _⟩ => ⟨S_, .i32⟩
  | .hbm, ⟨5, _⟩ => ⟨S46x1, .i32⟩
  | .hbm, ⟨6, _⟩ => ⟨S46x1, .i32⟩
  | .hbm, ⟨7, _⟩ => ⟨S1000, .i32⟩
  | .hbm, ⟨8, _⟩ => ⟨S1x1000, .i32⟩
  | .hbm, ⟨9, _⟩ => ⟨S46x1000, .i32⟩
  | .hbm, ⟨10, _⟩ => ⟨S46x1000, .i32⟩
  | .hbm, ⟨11, _⟩ => ⟨S46x1000, .i32⟩
  | .hbm, ⟨12, _⟩ => ⟨S_, .i32⟩
  | .hbm, ⟨13, _⟩ => ⟨S46x1000, .i32⟩
  | .hbm, ⟨14, _⟩ => ⟨S46x1000, .i1⟩
  | .hbm, ⟨15, _⟩ => ⟨S_, .i32⟩
  | .hbm, ⟨16, _⟩ => ⟨S46x1000, .i32⟩
  | .hbm, ⟨17, _⟩ => ⟨S46x1000, .i32⟩
  | .hbm, ⟨18, _⟩ => ⟨S46x1000, .i32⟩
  | .hbm, ⟨19, _⟩ => ⟨S46x1000x1, .i32⟩
  | .hbm, ⟨20, _⟩ => ⟨S16x3x64x46x1000, .f32⟩
  | .hbm, ⟨21, _⟩ => ⟨S16x46x3x64x1000, .f32⟩
  | .hbm, ⟨22, _⟩ => ⟨S736x3x64x1000, .f32⟩
  | .hbm, ⟨23, _⟩ => ⟨S16x46, .f32⟩
  | .hbm, ⟨24, _⟩ => ⟨S736, .f32⟩
  | _, _ => ⟨S16x3x64x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  bcast_S46_S46x1_0 : S46.BroadcastsInDim S46x1 (![0] : Fin 1 → Fin S46x1.rank)
  bcast_S_S46x1 : S_.BroadcastsInDim S46x1 (![] : Fin 0 → Fin S46x1.rank)
  bcast_S1000_S1x1000_1 : S1000.BroadcastsInDim S1x1000 (![1] : Fin 1 → Fin S1x1000.rank)
  bcast_S46x1_S46x1000_0_1 : S46x1.BroadcastsInDim S46x1000 (![0, 1] : Fin 2 → Fin S46x1000.rank)
  bcast_S1x1000_S46x1000_0_1 : S1x1000.BroadcastsInDim S46x1000 (![0, 1] : Fin 2 → Fin S46x1000.rank)
  bcast_S_S46x1000 : S_.BroadcastsInDim S46x1000 (![] : Fin 0 → Fin S46x1000.rank)
  bcast_S46x1000_S46x1000x1_0_1 : S46x1000.BroadcastsInDim S46x1000x1 (![0, 1] : Fin 2 → Fin S46x1000x1.rank)
  transposes_S16x3x64x46x1000_S16x46x3x64x1000_0_3_1_2_4 : S16x3x64x46x1000.Transposes [0, 3, 1, 2, 4] S16x46x3x64x1000
  shapeCasts_S16x46x3x64x1000_S736x3x64x1000 : S16x46x3x64x1000.ShapeCasts S736x3x64x1000
  bcast_S16_S16x46_0 : S16.BroadcastsInDim S16x46 (![0] : Fin 1 → Fin S16x46.rank)
  shapeCasts_S16x46_S736 : S16x46.ShapeCasts S736
  gather_S16x3x64x10000_S46x1000x1_S16x3x64x46x1000_012_3_n_n_3_2_163641_wf : GatherDims.WF S16x3x64x10000 S46x1000x1 S16x3x64x46x1000 [0, 1, 2] [3] [] [3] [] 2 ![16, 3, 64, 1]

variable [Facts₀]

def gather_S16x3x64x10000_S46x1000x1_S16x3x64x46x1000_012_3_n_n_3_2_163641 : GatherDims S16x3x64x10000 S46x1000x1 S16x3x64x46x1000 where
  offsetDims := [0, 1, 2]
  collapsedSliceDims := [3]
  operandBatchingDims := []
  startIndicesBatchingDims := []
  startIndexMap := [3]
  indexVectorDim := 2
  sliceSizes := ![16, 3, 64, 1]
  wf := gather_S16x3x64x10000_S46x1000x1_S16x3x64x46x1000_012_3_n_n_3_2_163641_wf

class Facts : Prop extends Facts₀ where

variable [Facts]
-- ==== Proof.WindowRowsBits.lean ====
/-
  The kernel copies forty-six overlapping windows of one input row into the forty-six rows of its output block, each
  copy a transfer of its own on a semaphore of its own, all in flight at once. Two facts about how the buffers may
  be held make that a sequence of independent steps. The output block `[46, 3, 16, 1000]` is the disjoint union of
  its rows `w = 0 … 45` (row `w` is the rectangle at `(w, 0, 0, 0)` of extent `[1, 3, 16, 1000]`), so the block held
  whole is held row by row, each transfer writes the row it owns, and rows held at contents of their own join to the
  block held whole at contents whose row `w` reads window `w`'s payload. The input row is only read, by windows that
  overlap (window `w` starts at `200·w` and is `1000` long), so it is held as fifty read shares of the whole row —
  one per semaphore cell number — and a remainder; the shares join back to the full share.
-/
import proofs.«108043_j57037165691079_2_alg».proof.Proof.Gen.Kernel.Frame
import proofs.«108043_j57037165691079_2_alg».proof.Proof.Gen.Kernel.Skeleton
import Idealize.ShloMosaic.Lib.Pipeline.Frame
import Idealize.ShloMosaic.Lib.Transfers
import Idealize.ShloMosaic.Lib.Ring

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The forty-six windows of the output block

The output block of a grid point is `[46, 3, 16, 1000]`: row `w` of its leading axis is window `w`. The rows are
pairwise disjoint and together they are the whole block, so a buffer of that shape held whole is held row by row,
and rows held at contents of their own join to the buffer held whole at contents that agree with each row's. -/

/-- Row `w` of the block starts at `(w, 0, 0, 0`). -/
def rowOff (w : Fin 46) : Fin 4 → ℕ := ![w.val, 0, 0, 0]

theorem rowOff_inb (w : Fin 46) : ∀ a, rowOff w a + S1x3x16x1000.size a ≤ S46x3x16x1000.size a := by
  intro a
  have hw := w.isLt
  fin_cases a <;> simp [rowOff] <;> omega

/-- Row `w` as a rectangle of the block. -/
abbrev rowRect (w : Fin 46) : Rect S46x3x16x1000 := Rect.unit (rowOff w) S1x3x16x1000.size (rowOff_inb w)

/-- Two different rows share no element. -/
theorem rowRect_disjoint (w w' : Fin 46) (h : w ≠ w') : Disjoint (rowRect w).set (rowRect w').set :=
  Ring.lead_disjoint (s := S46x3x16x1000) (0 : Fin 4) 1 rowOff S1x3x16x1000.size rowOff_inb
    (fun b => by simp [rowOff]) (by rfl) w w' h

/-- Every element of the block lies in some row. -/
theorem rowRect_cover : Finset.univ.biUnion (fun w : Fin 46 => (rowRect w).set) = Finset.univ :=
  Ring.lead_cover (s := S46x3x16x1000) (0 : Fin 4) 1 rowOff S1x3x16x1000.size rowOff_inb
    (fun b => by simp [rowOff]) (fun b a ha => by fin_cases a <;> simp_all [rowOff])
    (by rfl) (fun a ha => by fin_cases a <;> simp_all) (by decide)

/-- The window memref of row `w` of a block memref: the row sliced out and its unit axis dropped. -/
def rowM (arg3 : Memref sig .tc .vmem S46x3x16x1000 .f32) (w : Fin 46) : Memref sig .tc .vmem S3x16x1000 .f32 :=
  (arg3.slice (Rect.unit (s := S46x3x16x1000) (rowOff w) S1x3x16x1000.size (rowOff_inb w)) (fun _ => rfl)).squeeze S3x16x1000 squeezes_S1x3x16x1000_S3x16x1000

theorem rowM_set (arg3 : Memref sig .tc .vmem S46x3x16x1000 .f32) (w : Fin 46) :
    (rowM arg3 w).view.set = (rowRect w).set.map arg3.view.emb :=
  (View.set_reshape (v := arg3.view.slice (rowRect w)) _).trans (arg3.view.set_slice (rowRect w))

theorem rowM_disjoint (arg3 : Memref sig .tc .vmem S46x3x16x1000 .f32) (w w' : Fin 46) (h : w ≠ w') :
    Disjoint (rowM arg3 w).view.set (rowM arg3 w').view.set := by
  rw [rowM_set, rowM_set]
  exact (Finset.disjoint_map _).mpr (rowRect_disjoint w w' h)

theorem rowM_cover (arg3 : Memref sig .tc .vmem S46x3x16x1000 .f32) :
    Finset.univ.biUnion (fun w : Fin 46 => (rowM arg3 w).view.set) = arg3.view.set := by
  ext i
  constructor
  · intro hi
    obtain ⟨w, -, hw⟩ := Finset.mem_biUnion.mp hi
    rw [rowM_set] at hw
    obtain ⟨z, -, rfl⟩ := Finset.mem_map.mp hw
    exact arg3.view.emb_mem_set z
  · intro hi
    obtain ⟨z, -, rfl⟩ := Finset.mem_map.mp hi
    have hz : z ∈ Finset.univ.biUnion (fun w : Fin 46 => (rowRect w).set) := by rw [rowRect_cover]; exact Finset.mem_univ z
    obtain ⟨w, -, hw⟩ := Finset.mem_biUnion.mp hz
    exact Finset.mem_biUnion.mpr ⟨w, Finset.mem_univ _, by rw [rowM_set]; exact Finset.mem_map_of_mem _ hw⟩

/-- The elements of row `w`, as elements of the block's buffer on core `c`. -/
def rowSet (c : Dev nD) (arg3 : Memref sig .tc .vmem S46x3x16x1000 .f32) (w : Fin 46) : Finset (Idx (arg3.view.loc (c : Thread nD τ))) :=
  (rowM arg3 w).view.set

theorem rowSet_disjoint (c : Dev nD) (arg3 : Memref sig .tc .vmem S46x3x16x1000 .f32) (w w' : Fin 46) (h : w ≠ w') :
    Disjoint (rowSet c arg3 w) (rowSet c arg3 w') := rowM_disjoint arg3 w w' h

theorem rowSet_cover (c : Dev nD) (arg3 : Memref sig .tc .vmem S46x3x16x1000 .f32) :
    Finset.univ.biUnion (rowSet c arg3) = (arg3.view.set : Finset (Idx (arg3.view.loc (c : Thread nD τ)))) := by
  ext i
  constructor
  · intro hi
    obtain ⟨w, -, hw⟩ := Finset.mem_biUnion.mp hi
    have hw' : i ∈ (rowRect w).set.map arg3.view.emb := (rowM_set arg3 w) ▸ hw
    obtain ⟨z, -, rfl⟩ := Finset.mem_map.mp hw'
    exact arg3.view.emb_mem_set z
  · intro hi
    obtain ⟨z, -, rfl⟩ := Finset.mem_map.mp hi
    have hz : z ∈ Finset.univ.biUnion (fun w : Fin 46 => (rowRect w).set) := by rw [rowRect_cover]; exact Finset.mem_univ z
    obtain ⟨w, -, hw⟩ := Finset.mem_biUnion.mp hz
    refine Finset.mem_biUnion.mpr ⟨w, Finset.mem_univ _, ?_⟩
    unfold rowSet; rw [rowM_set]; exact Finset.mem_map_of_mem _ hw

/-- A buffer held on a set that forty-six pairwise disjoint sets make up is held on each of them. -/
theorem pointsTo_family {ℓ : Loc nD τ sig} {S : Finset (Idx ℓ)} (K : Fin 46 → Finset (Idx ℓ))
    (hd : ∀ w w', w ≠ w' → Disjoint (K w) (K w')) (hc : Finset.univ.biUnion K = S) (f : Buf (Elt F) ℓ) :
    (ℓ ↦[S]{fullShare} f : sProp 𝕄) = bigSep Finset.univ (fun w => ℓ ↦[K w]{fullShare} f) := by
  subst hc; exact pointsTo_biUnion Finset.univ K (fun w _ w' _ h => hd w w' h)

/-- And sets held at contents of their own join to the whole, at contents that agree with each on its set. -/
theorem pointsTo_family_join {ℓ : Loc nD τ sig} {S : Finset (Idx ℓ)} (K : Fin 46 → Finset (Idx ℓ))
    (hd : ∀ w w', w ≠ w' → Disjoint (K w) (K w')) (hc : Finset.univ.biUnion K = S) (fs : Fin 46 → Buf (Elt F) ℓ) (f₀ : Buf (Elt F) ℓ) :
    (bigSep Finset.univ (fun w => ℓ ↦[K w]{fullShare} fs w) : sProp 𝕄)
      ⊢ iprop(∃ g, ⌜∀ w, ∀ i ∈ K w, g i = fs w i⌝ ∗ ℓ ↦[S]{fullShare} g) := by
  subst hc
  refine (pointsTo_biUnion_join Finset.univ K fs f₀ (fun w _ w' _ h => hd w w' h)).trans ?_
  iintro ⟨%g, %hg, H⟩
  iexists g
  isplitr
  · ipureintro; exact fun w i hi => hg w (Finset.mem_univ _) i hi
  · iexact H

/-- What row `w` holds once a whole window `p w` has been written through its memref, over prior contents `f1`. -/
def rowFill (c : Dev nD) (arg3 : Memref sig .tc .vmem S46x3x16x1000 .f32) (f1 : Buf (Elt F) (arg3.view.loc (c : Thread nD τ)))
    (p : Fin 46 → S3x16x1000.Idx → Elt F .f32) (w : Fin 46) : Buf (Elt F) (arg3.view.loc (c : Thread nD τ)) :=
  (rowM arg3 w).view.writes (Elt F) f1 [⟨Rect.whole S3x16x1000, p w⟩]

/-- A block buffer held whole is held window by window (the rows are disjoint and cover it). -/
theorem rows_split (c : Dev nD) (arg3 : Memref sig .tc .vmem S46x3x16x1000 .f32) (f1 : Buf (Elt F) (arg3.view.loc (c : Thread nD τ))) :
    (arg3.view.loc (c : Thread nD τ) ↦[arg3.view.set]{fullShare} f1 : sProp 𝕄)
      ⊢ iprop((((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.loc (c : Thread nD τ) ↦[((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.set]{fullShare} f1)
        ∗ (((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.loc (c : Thread nD τ) ↦[((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.set]{fullShare} f1)
        ∗ (((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.loc (c : Thread nD τ) ↦[((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.set]{fullShare} f1)
        ∗ (((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.loc (c : Thread nD τ) ↦[((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.set]{fullShare} f1)
        ∗ (((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.loc (c : Thread nD τ) ↦[((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.set]{fullShare} f1)
        ∗ (((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.loc (c : Thread nD τ) ↦[((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.set]{fullShare} f1)
        ∗ (((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.loc (c : Thread nD τ) ↦[((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.set]{fullShare} f1)
        ∗ (((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.loc (c : Thread nD τ) ↦[((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.set]{fullShare} f1)
        ∗ (((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.loc (c : Thread nD τ) ↦[((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.set]{fullShare} f1)
        ∗ (((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.loc (c : Thread nD τ) ↦[((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.set]{fullShare} f1)
        ∗ (((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.loc (c : Thread nD τ) ↦[((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.set]{fullShare} f1)
        ∗ (((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.loc (c : Thread nD τ) ↦[((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.set]{fullShare} f1)
        ∗ (((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.loc (c : Thread nD τ) ↦[((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.set]{fullShare} f1)
        ∗ (((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.loc (c : Thread nD τ) ↦[((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.set]{fullShare} f1)
        ∗ (((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.loc (c : Thread nD τ) ↦[((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.set]{fullShare} f1)
        ∗ (((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.loc (c : Thread nD τ) ↦[((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.set]{fullShare} f1)
        ∗ (((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.loc (c : Thread nD τ) ↦[((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.set]{fullShare} f1)
        ∗ (((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.loc (c : Thread nD τ) ↦[((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.set]{fullShare} f1)
        ∗ (((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.loc (c : Thread nD τ) ↦[((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.set]{fullShare} f1)
        ∗ (((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.loc (c : Thread nD τ) ↦[((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.set]{fullShare} f1)
        ∗ (((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.loc (c : Thread nD τ) ↦[((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.set]{fullShare} f1)
        ∗ (((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.loc (c : Thread nD τ) ↦[((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.set]{fullShare} f1)
        ∗ (((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.loc (c : Thread nD τ) ↦[((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.set]{fullShare} f1)
        ∗ (((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.loc (c : Thread nD τ) ↦[((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.set]{fullShare} f1)
        ∗ (((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.loc (c : Thread nD τ) ↦[((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.set]{fullShare} f1)
        ∗ (((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.loc (c : Thread nD τ) ↦[((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.set]{fullShare} f1)
        ∗ (((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.loc (c : Thread nD τ) ↦[((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.set]{fullShare} f1)
        ∗ (((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.loc (c : Thread nD τ) ↦[((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.set]{fullShare} f1)
        ∗ (((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.loc (c : Thread nD τ) ↦[((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.set]{fullShare} f1)
        ∗ (((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.loc (c : Thread nD τ) ↦[((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.set]{fullShare} f1)
        ∗ (((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.loc (c : Thread nD τ) ↦[((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.set]{fullShare} f1)
        ∗ (((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.loc (c : Thread nD τ) ↦[((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.set]{fullShare} f1)
        ∗ (((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.loc (c : Thread nD τ) ↦[((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.set]{fullShare} f1)
        ∗ (((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.loc (c : Thread nD τ) ↦[((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.set]{fullShare} f1)
        ∗ (((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.loc (c : Thread nD τ) ↦[((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.set]{fullShare} f1)
        ∗ (((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.loc (c : Thread nD τ) ↦[((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.set]{fullShare} f1)
        ∗ (((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.loc (c : Thread nD τ) ↦[((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.set]{fullShare} f1)
        ∗ (((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.loc (c : Thread nD τ) ↦[((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.set]{fullShare} f1)
        ∗ (((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.loc (c : Thread nD τ) ↦[((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.set]{fullShare} f1)
        ∗ (((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.loc (c : Thread nD τ) ↦[((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.set]{fullShare} f1)
        ∗ (((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.loc (c : Thread nD τ) ↦[((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.set]{fullShare} f1)
        ∗ (((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.loc (c : Thread nD τ) ↦[((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.set]{fullShare} f1)
        ∗ (((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.loc (c : Thread nD τ) ↦[((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.set]{fullShare} f1)
        ∗ (((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.loc (c : Thread nD τ) ↦[((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.set]{fullShare} f1)
        ∗ (((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.loc (c : Thread nD τ) ↦[((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.set]{fullShare} f1)
        ∗ (((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.loc (c : Thread nD τ) ↦[((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.set]{fullShare} f1)) :=
  (Entails.of_eq (pointsTo_family (rowSet c arg3) (rowSet_disjoint c arg3) (rowSet_cover c arg3) f1)).trans
    (Entails.of_eq (by rw [BI.bigSep_univ_eq_bigSepL (List.finRange 46) (by decide) (by decide)]; rfl))

/-- Windows written one by one join to the block held whole, at contents that are window `w`'s payload on row `w`. -/
theorem rows_join (c : Dev nD) (arg3 : Memref sig .tc .vmem S46x3x16x1000 .f32) (f1 : Buf (Elt F) (arg3.view.loc (c : Thread nD τ)))
    (p : Fin 46 → S3x16x1000.Idx → Elt F .f32) :
    (iprop((((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.loc (c : Thread nD τ) ↦[((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.set]{fullShare} ((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.writes (Elt F) f1 [⟨Rect.whole S3x16x1000, p 0⟩])
        ∗ (((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.loc (c : Thread nD τ) ↦[((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.set]{fullShare} ((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.writes (Elt F) f1 [⟨Rect.whole S3x16x1000, p 1⟩])
        ∗ (((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.loc (c : Thread nD τ) ↦[((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.set]{fullShare} ((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.writes (Elt F) f1 [⟨Rect.whole S3x16x1000, p 2⟩])
        ∗ (((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.loc (c : Thread nD τ) ↦[((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.set]{fullShare} ((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.writes (Elt F) f1 [⟨Rect.whole S3x16x1000, p 3⟩])
        ∗ (((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.loc (c : Thread nD τ) ↦[((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.set]{fullShare} ((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.writes (Elt F) f1 [⟨Rect.whole S3x16x1000, p 4⟩])
        ∗ (((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.loc (c : Thread nD τ) ↦[((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.set]{fullShare} ((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.writes (Elt F) f1 [⟨Rect.whole S3x16x1000, p 5⟩])
        ∗ (((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.loc (c : Thread nD τ) ↦[((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.set]{fullShare} ((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.writes (Elt F) f1 [⟨Rect.whole S3x16x1000, p 6⟩])
        ∗ (((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.loc (c : Thread nD τ) ↦[((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.set]{fullShare} ((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.writes (Elt F) f1 [⟨Rect.whole S3x16x1000, p 7⟩])
        ∗ (((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.loc (c : Thread nD τ) ↦[((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.set]{fullShare} ((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.writes (Elt F) f1 [⟨Rect.whole S3x16x1000, p 8⟩])
        ∗ (((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.loc (c : Thread nD τ) ↦[((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.set]{fullShare} ((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.writes (Elt F) f1 [⟨Rect.whole S3x16x1000, p 9⟩])
        ∗ (((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.loc (c : Thread nD τ) ↦[((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.set]{fullShare} ((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.writes (Elt F) f1 [⟨Rect.whole S3x16x1000, p 10⟩])
        ∗ (((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.loc (c : Thread nD τ) ↦[((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.set]{fullShare} ((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.writes (Elt F) f1 [⟨Rect.whole S3x16x1000, p 11⟩])
        ∗ (((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.loc (c : Thread nD τ) ↦[((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.set]{fullShare} ((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.writes (Elt F) f1 [⟨Rect.whole S3x16x1000, p 12⟩])
        ∗ (((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.loc (c : Thread nD τ) ↦[((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.set]{fullShare} ((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.writes (Elt F) f1 [⟨Rect.whole S3x16x1000, p 13⟩])
        ∗ (((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.loc (c : Thread nD τ) ↦[((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.set]{fullShare} ((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.writes (Elt F) f1 [⟨Rect.whole S3x16x1000, p 14⟩])
        ∗ (((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.loc (c : Thread nD τ) ↦[((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.set]{fullShare} ((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.writes (Elt F) f1 [⟨Rect.whole S3x16x1000, p 15⟩])
        ∗ (((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.loc (c : Thread nD τ) ↦[((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.set]{fullShare} ((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.writes (Elt F) f1 [⟨Rect.whole S3x16x1000, p 16⟩])
        ∗ (((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.loc (c : Thread nD τ) ↦[((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.set]{fullShare} ((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.writes (Elt F) f1 [⟨Rect.whole S3x16x1000, p 17⟩])
        ∗ (((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.loc (c : Thread nD τ) ↦[((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.set]{fullShare} ((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.writes (Elt F) f1 [⟨Rect.whole S3x16x1000, p 18⟩])
        ∗ (((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.loc (c : Thread nD τ) ↦[((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.set]{fullShare} ((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.writes (Elt F) f1 [⟨Rect.whole S3x16x1000, p 19⟩])
        ∗ (((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.loc (c : Thread nD τ) ↦[((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.set]{fullShare} ((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.writes (Elt F) f1 [⟨Rect.whole S3x16x1000, p 20⟩])
        ∗ (((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.loc (c : Thread nD τ) ↦[((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.set]{fullShare} ((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.writes (Elt F) f1 [⟨Rect.whole S3x16x1000, p 21⟩])
        ∗ (((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.loc (c : Thread nD τ) ↦[((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.set]{fullShare} ((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.writes (Elt F) f1 [⟨Rect.whole S3x16x1000, p 22⟩])
        ∗ (((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.loc (c : Thread nD τ) ↦[((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.set]{fullShare} ((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.writes (Elt F) f1 [⟨Rect.whole S3x16x1000, p 23⟩])
        ∗ (((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.loc (c : Thread nD τ) ↦[((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.set]{fullShare} ((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.writes (Elt F) f1 [⟨Rect.whole S3x16x1000, p 24⟩])
        ∗ (((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.loc (c : Thread nD τ) ↦[((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.set]{fullShare} ((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.writes (Elt F) f1 [⟨Rect.whole S3x16x1000, p 25⟩])
        ∗ (((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.loc (c : Thread nD τ) ↦[((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.set]{fullShare} ((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.writes (Elt F) f1 [⟨Rect.whole S3x16x1000, p 26⟩])
        ∗ (((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.loc (c : Thread nD τ) ↦[((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.set]{fullShare} ((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.writes (Elt F) f1 [⟨Rect.whole S3x16x1000, p 27⟩])
        ∗ (((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.loc (c : Thread nD τ) ↦[((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.set]{fullShare} ((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.writes (Elt F) f1 [⟨Rect.whole S3x16x1000, p 28⟩])
        ∗ (((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.loc (c : Thread nD τ) ↦[((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.set]{fullShare} ((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.writes (Elt F) f1 [⟨Rect.whole S3x16x1000, p 29⟩])
        ∗ (((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.loc (c : Thread nD τ) ↦[((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.set]{fullShare} ((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.writes (Elt F) f1 [⟨Rect.whole S3x16x1000, p 30⟩])
        ∗ (((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.loc (c : Thread nD τ) ↦[((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.set]{fullShare} ((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.writes (Elt F) f1 [⟨Rect.whole S3x16x1000, p 31⟩])
        ∗ (((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.loc (c : Thread nD τ) ↦[((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.set]{fullShare} ((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.writes (Elt F) f1 [⟨Rect.whole S3x16x1000, p 32⟩])
        ∗ (((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.loc (c : Thread nD τ) ↦[((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.set]{fullShare} ((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.writes (Elt F) f1 [⟨Rect.whole S3x16x1000, p 33⟩])
        ∗ (((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.loc (c : Thread nD τ) ↦[((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.set]{fullShare} ((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.writes (Elt F) f1 [⟨Rect.whole S3x16x1000, p 34⟩])
        ∗ (((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.loc (c : Thread nD τ) ↦[((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.set]{fullShare} ((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.writes (Elt F) f1 [⟨Rect.whole S3x16x1000, p 35⟩])
        ∗ (((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.loc (c : Thread nD τ) ↦[((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.set]{fullShare} ((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.writes (Elt F) f1 [⟨Rect.whole S3x16x1000, p 36⟩])
        ∗ (((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.loc (c : Thread nD τ) ↦[((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.set]{fullShare} ((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.writes (Elt F) f1 [⟨Rect.whole S3x16x1000, p 37⟩])
        ∗ (((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.loc (c : Thread nD τ) ↦[((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.set]{fullShare} ((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.writes (Elt F) f1 [⟨Rect.whole S3x16x1000, p 38⟩])
        ∗ (((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.loc (c : Thread nD τ) ↦[((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.set]{fullShare} ((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.writes (Elt F) f1 [⟨Rect.whole S3x16x1000, p 39⟩])
        ∗ (((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.loc (c : Thread nD τ) ↦[((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.set]{fullShare} ((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.writes (Elt F) f1 [⟨Rect.whole S3x16x1000, p 40⟩])
        ∗ (((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.loc (c : Thread nD τ) ↦[((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.set]{fullShare} ((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.writes (Elt F) f1 [⟨Rect.whole S3x16x1000, p 41⟩])
        ∗ (((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.loc (c : Thread nD τ) ↦[((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.set]{fullShare} ((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.writes (Elt F) f1 [⟨Rect.whole S3x16x1000, p 42⟩])
        ∗ (((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.loc (c : Thread nD τ) ↦[((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.set]{fullShare} ((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.writes (Elt F) f1 [⟨Rect.whole S3x16x1000, p 43⟩])
        ∗ (((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.loc (c : Thread nD τ) ↦[((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.set]{fullShare} ((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.writes (Elt F) f1 [⟨Rect.whole S3x16x1000, p 44⟩])
        ∗ (((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.loc (c : Thread nD τ) ↦[((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.set]{fullShare} ((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.writes (Elt F) f1 [⟨Rect.whole S3x16x1000, p 45⟩])) : sProp 𝕄)
      ⊢ iprop(∃ g : Buf (Elt F) (arg3.view.loc (c : Thread nD τ)), ⌜∀ w : Fin 46, (rowM arg3 w).view.read (Elt F) g = p w⌝
          ∗ arg3.view.loc (c : Thread nD τ) ↦[arg3.view.set]{fullShare} g) := by
  refine (show _ ⊢ (bigSep Finset.univ (fun w : Fin 46 => arg3.view.loc (c : Thread nD τ) ↦[rowSet c arg3 w]{fullShare} rowFill c arg3 f1 p w) : sProp 𝕄)
    from Entails.of_eq (by rw [BI.bigSep_univ_eq_bigSepL (List.finRange 46) (by decide) (by decide)]; rfl)).trans ?_
  refine (pointsTo_family_join (rowSet c arg3) (rowSet_disjoint c arg3) (rowSet_cover c arg3) (rowFill c arg3 f1 p) f1).trans ?_
  iintro ⟨%g, %hg, H⟩
  iexists g
  isplitr
  · ipureintro; intro w
    refine (View.read_congr (v := (rowM arg3 w).view) (f := g) (g := rowFill c arg3 f1 p w) (fun i hi => hg w i hi)).trans ?_
    unfold rowFill
    exact View.read_writes_whole _ _ _
  · iexact H

/-- The input row held whole is held as one remainder and fifty read shares, and back. -/
theorem toks_split (c : Dev nD) (arg2 : Memref sig .tc .vmem S1x3x16x10000 .f32) (f : Buf (Elt F) (arg2.view.loc (c : Thread nD τ))) :
    (arg2.view.loc (c : Thread nD τ) ↦[arg2.view.set]{fullShare} f : sProp 𝕄) ⊢ iprop((arg2.view.loc (c : Thread nD τ) ↦[arg2.view.set]{Transfers.shareDrop fullShare 50} f) ∗ (arg2.view.loc (c : Thread nD τ) ↦[arg2.view.set]{Transfers.shareTokN fullShare 0} f) ∗ (arg2.view.loc (c : Thread nD τ) ↦[arg2.view.set]{Transfers.shareTokN fullShare 1} f) ∗ (arg2.view.loc (c : Thread nD τ) ↦[arg2.view.set]{Transfers.shareTokN fullShare 2} f) ∗ (arg2.view.loc (c : Thread nD τ) ↦[arg2.view.set]{Transfers.shareTokN fullShare 3} f) ∗ (arg2.view.loc (c : Thread nD τ) ↦[arg2.view.set]{Transfers.shareTokN fullShare 4} f) ∗ (arg2.view.loc (c : Thread nD τ) ↦[arg2.view.set]{Transfers.shareTokN fullShare 5} f) ∗ (arg2.view.loc (c : Thread nD τ) ↦[arg2.view.set]{Transfers.shareTokN fullShare 6} f) ∗ (arg2.view.loc (c : Thread nD τ) ↦[arg2.view.set]{Transfers.shareTokN fullShare 7} f) ∗ (arg2.view.loc (c : Thread nD τ) ↦[arg2.view.set]{Transfers.shareTokN fullShare 8} f) ∗ (arg2.view.loc (c : Thread nD τ) ↦[arg2.view.set]{Transfers.shareTokN fullShare 9} f) ∗ (arg2.view.loc (c : Thread nD τ) ↦[arg2.view.set]{Transfers.shareTokN fullShare 10} f) ∗ (arg2.view.loc (c : Thread nD τ) ↦[arg2.view.set]{Transfers.shareTokN fullShare 11} f) ∗ (arg2.view.loc (c : Thread nD τ) ↦[arg2.view.set]{Transfers.shareTokN fullShare 12} f) ∗ (arg2.view.loc (c : Thread nD τ) ↦[arg2.view.set]{Transfers.shareTokN fullShare 13} f) ∗ (arg2.view.loc (c : Thread nD τ) ↦[arg2.view.set]{Transfers.shareTokN fullShare 14} f) ∗ (arg2.view.loc (c : Thread nD τ) ↦[arg2.view.set]{Transfers.shareTokN fullShare 15} f) ∗ (arg2.view.loc (c : Thread nD τ) ↦[arg2.view.set]{Transfers.shareTokN fullShare 16} f) ∗ (arg2.view.loc (c : Thread nD τ) ↦[arg2.view.set]{Transfers.shareTokN fullShare 17} f) ∗ (arg2.view.loc (c : Thread nD τ) ↦[arg2.view.set]{Transfers.shareTokN fullShare 18} f) ∗ (arg2.view.loc (c : Thread nD τ) ↦[arg2.view.set]{Transfers.shareTokN fullShare 19} f) ∗ (arg2.view.loc (c : Thread nD τ) ↦[arg2.view.set]{Transfers.shareTokN fullShare 20} f) ∗ (arg2.view.loc (c : Thread nD τ) ↦[arg2.view.set]{Transfers.shareTokN fullShare 21} f) ∗ (arg2.view.loc (c : Thread nD τ) ↦[arg2.view.set]{Transfers.shareTokN fullShare 22} f) ∗ (arg2.view.loc (c : Thread nD τ) ↦[arg2.view.set]{Transfers.shareTokN fullShare 23} f) ∗ (arg2.view.loc (c : Thread nD τ) ↦[arg2.view.set]{Transfers.shareTokN fullShare 24} f) ∗ (arg2.view.loc (c : Thread nD τ) ↦[arg2.view.set]{Transfers.shareTokN fullShare 25} f) ∗ (arg2.view.loc (c : Thread nD τ) ↦[arg2.view.set]{Transfers.shareTokN fullShare 26} f) ∗ (arg2.view.loc (c : Thread nD τ) ↦[arg2.view.set]{Transfers.shareTokN fullShare 27} f) ∗ (arg2.view.loc (c : Thread nD τ) ↦[arg2.view.set]{Transfers.shareTokN fullShare 28} f) ∗ (arg2.view.loc (c : Thread nD τ) ↦[arg2.view.set]{Transfers.shareTokN fullShare 29} f) ∗ (arg2.view.loc (c : Thread nD τ) ↦[arg2.view.set]{Transfers.shareTokN fullShare 30} f) ∗ (arg2.view.loc (c : Thread nD τ) ↦[arg2.view.set]{Transfers.shareTokN fullShare 31} f) ∗ (arg2.view.loc (c : Thread nD τ) ↦[arg2.view.set]{Transfers.shareTokN fullShare 32} f) ∗ (arg2.view.loc (c : Thread nD τ) ↦[arg2.view.set]{Transfers.shareTokN fullShare 33} f) ∗ (arg2.view.loc (c : Thread nD τ) ↦[arg2.view.set]{Transfers.shareTokN fullShare 34} f) ∗ (arg2.view.loc (c : Thread nD τ) ↦[arg2.view.set]{Transfers.shareTokN fullShare 35} f) ∗ (arg2.view.loc (c : Thread nD τ) ↦[arg2.view.set]{Transfers.shareTokN fullShare 36} f) ∗ (arg2.view.loc (c : Thread nD τ) ↦[arg2.view.set]{Transfers.shareTokN fullShare 37} f) ∗ (arg2.view.loc (c : Thread nD τ) ↦[arg2.view.set]{Transfers.shareTokN fullShare 38} f) ∗ (arg2.view.loc (c : Thread nD τ) ↦[arg2.view.set]{Transfers.shareTokN fullShare 39} f) ∗ (arg2.view.loc (c : Thread nD τ) ↦[arg2.view.set]{Transfers.shareTokN fullShare 40} f) ∗ (arg2.view.loc (c : Thread nD τ) ↦[arg2.view.set]{Transfers.shareTokN fullShare 41} f) ∗ (arg2.view.loc (c : Thread nD τ) ↦[arg2.view.set]{Transfers.shareTokN fullShare 42} f) ∗ (arg2.view.loc (c : Thread nD τ) ↦[arg2.view.set]{Transfers.shareTokN fullShare 43} f) ∗ (arg2.view.loc (c : Thread nD τ) ↦[arg2.view.set]{Transfers.shareTokN fullShare 44} f) ∗ (arg2.view.loc (c : Thread nD τ) ↦[arg2.view.set]{Transfers.shareTokN fullShare 45} f) ∗ (arg2.view.loc (c : Thread nD τ) ↦[arg2.view.set]{Transfers.shareTokN fullShare 46} f) ∗ (arg2.view.loc (c : Thread nD τ) ↦[arg2.view.set]{Transfers.shareTokN fullShare 47} f) ∗ (arg2.view.loc (c : Thread nD τ) ↦[arg2.view.set]{Transfers.shareTokN fullShare 48} f) ∗ (arg2.view.loc (c : Thread nD τ) ↦[arg2.view.set]{Transfers.shareTokN fullShare 49} f)) :=
  (Transfers.pointsTo_toks_range (Ix := Unit) (Name := ℕ) (U := Pipeline.UD sig nD τ) (Lvl := ℕ) fullShare 50).1.trans
    (Entails.of_eq (by rw [BI.bigSep_eq_bigSepL_of_eq (List.range 50) (by decide) (by decide)]; rfl))

theorem toks_join (c : Dev nD) (arg2 : Memref sig .tc .vmem S1x3x16x10000 .f32) (f : Buf (Elt F) (arg2.view.loc (c : Thread nD τ))) :
    (iprop((arg2.view.loc (c : Thread nD τ) ↦[arg2.view.set]{Transfers.shareDrop fullShare 50} f) ∗ (arg2.view.loc (c : Thread nD τ) ↦[arg2.view.set]{Transfers.shareTokN fullShare 0} f) ∗ (arg2.view.loc (c : Thread nD τ) ↦[arg2.view.set]{Transfers.shareTokN fullShare 1} f) ∗ (arg2.view.loc (c : Thread nD τ) ↦[arg2.view.set]{Transfers.shareTokN fullShare 2} f) ∗ (arg2.view.loc (c : Thread nD τ) ↦[arg2.view.set]{Transfers.shareTokN fullShare 3} f) ∗ (arg2.view.loc (c : Thread nD τ) ↦[arg2.view.set]{Transfers.shareTokN fullShare 4} f) ∗ (arg2.view.loc (c : Thread nD τ) ↦[arg2.view.set]{Transfers.shareTokN fullShare 5} f) ∗ (arg2.view.loc (c : Thread nD τ) ↦[arg2.view.set]{Transfers.shareTokN fullShare 6} f) ∗ (arg2.view.loc (c : Thread nD τ) ↦[arg2.view.set]{Transfers.shareTokN fullShare 7} f) ∗ (arg2.view.loc (c : Thread nD τ) ↦[arg2.view.set]{Transfers.shareTokN fullShare 8} f) ∗ (arg2.view.loc (c : Thread nD τ) ↦[arg2.view.set]{Transfers.shareTokN fullShare 9} f) ∗ (arg2.view.loc (c : Thread nD τ) ↦[arg2.view.set]{Transfers.shareTokN fullShare 10} f) ∗ (arg2.view.loc (c : Thread nD τ) ↦[arg2.view.set]{Transfers.shareTokN fullShare 11} f) ∗ (arg2.view.loc (c : Thread nD τ) ↦[arg2.view.set]{Transfers.shareTokN fullShare 12} f) ∗ (arg2.view.loc (c : Thread nD τ) ↦[arg2.view.set]{Transfers.shareTokN fullShare 13} f) ∗ (arg2.view.loc (c : Thread nD τ) ↦[arg2.view.set]{Transfers.shareTokN fullShare 14} f) ∗ (arg2.view.loc (c : Thread nD τ) ↦[arg2.view.set]{Transfers.shareTokN fullShare 15} f) ∗ (arg2.view.loc (c : Thread nD τ) ↦[arg2.view.set]{Transfers.shareTokN fullShare 16} f) ∗ (arg2.view.loc (c : Thread nD τ) ↦[arg2.view.set]{Transfers.shareTokN fullShare 17} f) ∗ (arg2.view.loc (c : Thread nD τ) ↦[arg2.view.set]{Transfers.shareTokN fullShare 18} f) ∗ (arg2.view.loc (c : Thread nD τ) ↦[arg2.view.set]{Transfers.shareTokN fullShare 19} f) ∗ (arg2.view.loc (c : Thread nD τ) ↦[arg2.view.set]{Transfers.shareTokN fullShare 20} f) ∗ (arg2.view.loc (c : Thread nD τ) ↦[arg2.view.set]{Transfers.shareTokN fullShare 21} f) ∗ (arg2.view.loc (c : Thread nD τ) ↦[arg2.view.set]{Transfers.shareTokN fullShare 22} f) ∗ (arg2.view.loc (c : Thread nD τ) ↦[arg2.view.set]{Transfers.shareTokN fullShare 23} f) ∗ (arg2.view.loc (c : Thread nD τ) ↦[arg2.view.set]{Transfers.shareTokN fullShare 24} f) ∗ (arg2.view.loc (c : Thread nD τ) ↦[arg2.view.set]{Transfers.shareTokN fullShare 25} f) ∗ (arg2.view.loc (c : Thread nD τ) ↦[arg2.view.set]{Transfers.shareTokN fullShare 26} f) ∗ (arg2.view.loc (c : Thread nD τ) ↦[arg2.view.set]{Transfers.shareTokN fullShare 27} f) ∗ (arg2.view.loc (c : Thread nD τ) ↦[arg2.view.set]{Transfers.shareTokN fullShare 28} f) ∗ (arg2.view.loc (c : Thread nD τ) ↦[arg2.view.set]{Transfers.shareTokN fullShare 29} f) ∗ (arg2.view.loc (c : Thread nD τ) ↦[arg2.view.set]{Transfers.shareTokN fullShare 30} f) ∗ (arg2.view.loc (c : Thread nD τ) ↦[arg2.view.set]{Transfers.shareTokN fullShare 31} f) ∗ (arg2.view.loc (c : Thread nD τ) ↦[arg2.view.set]{Transfers.shareTokN fullShare 32} f) ∗ (arg2.view.loc (c : Thread nD τ) ↦[arg2.view.set]{Transfers.shareTokN fullShare 33} f) ∗ (arg2.view.loc (c : Thread nD τ) ↦[arg2.view.set]{Transfers.shareTokN fullShare 34} f) ∗ (arg2.view.loc (c : Thread nD τ) ↦[arg2.view.set]{Transfers.shareTokN fullShare 35} f) ∗ (arg2.view.loc (c : Thread nD τ) ↦[arg2.view.set]{Transfers.shareTokN fullShare 36} f) ∗ (arg2.view.loc (c : Thread nD τ) ↦[arg2.view.set]{Transfers.shareTokN fullShare 37} f) ∗ (arg2.view.loc (c : Thread nD τ) ↦[arg2.view.set]{Transfers.shareTokN fullShare 38} f) ∗ (arg2.view.loc (c : Thread nD τ) ↦[arg2.view.set]{Transfers.shareTokN fullShare 39} f) ∗ (arg2.view.loc (c : Thread nD τ) ↦[arg2.view.set]{Transfers.shareTokN fullShare 40} f) ∗ (arg2.view.loc (c : Thread nD τ) ↦[arg2.view.set]{Transfers.shareTokN fullShare 41} f) ∗ (arg2.view.loc (c : Thread nD τ) ↦[arg2.view.set]{Transfers.shareTokN fullShare 42} f) ∗ (arg2.view.loc (c : Thread nD τ) ↦[arg2.view.set]{Transfers.shareTokN fullShare 43} f) ∗ (arg2.view.loc (c : Thread nD τ) ↦[arg2.view.set]{Transfers.shareTokN fullShare 44} f) ∗ (arg2.view.loc (c : Thread nD τ) ↦[arg2.view.set]{Transfers.shareTokN fullShare 45} f) ∗ (arg2.view.loc (c : Thread nD τ) ↦[arg2.view.set]{Transfers.shareTokN fullShare 46} f) ∗ (arg2.view.loc (c : Thread nD τ) ↦[arg2.view.set]{Transfers.shareTokN fullShare 47} f) ∗ (arg2.view.loc (c : Thread nD τ) ↦[arg2.view.set]{Transfers.shareTokN fullShare 48} f) ∗ (arg2.view.loc (c : Thread nD τ) ↦[arg2.view.set]{Transfers.shareTokN fullShare 49} f)) : sProp 𝕄) ⊢ (arg2.view.loc (c : Thread nD τ) ↦[arg2.view.set]{fullShare} f) :=
  (show _ ⊢ _ from Entails.of_eq (by rw [BI.bigSep_eq_bigSepL_of_eq (List.range 50) (by decide) (by decide)]; rfl)).trans
    (Transfers.pointsTo_toks_range (Ix := Unit) (Name := ℕ) (U := Pipeline.UD sig nD τ) (Lvl := ℕ) fullShare 50).2

end Cert.Kernel.Gen

end
-- ==== Proof.WindowBlockBits.lean ====
/-
  The output block read whole, from its rows.

  The kernel's output block is [46, 3, 16, 1000]; row w of its leading axis is written by the transfer of window w,
  whose source is the rectangle of the input row [1, 3, 16, 10000] at (0, 0, 0, 200·w) of extent [1, 3, 16, 1000],
  its unit axis dropped. A rectangle of unit strides at offset o, its leading unit axis dropped, places its index
  (a, b, j) at the parent's index o + (0, a, b, j). So row w of the block at (a, b, j) is the block at (w, a, b, j), and
  window w of the input row at (a, b, j) is the input row at (0, a, b, 200·w + j). Hence a block whose row w reads
  window w of the input row, for every w, reads at (w, a, b, j) the input row's element (0, a, b, 200·w + j).
-/
import proofs.«108043_j57037165691079_2_alg».proof.Proof.WindowRowsBits
import Idealize.ShloMosaic.Lib.ValueIdx
import Idealize.ShloMosaic.Lib.ValueLayout

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-- Window `w` of the input row starts at `(0, 0, 0, 200·w)`. -/
def winOff (w : Fin 46) : Fin 4 → ℕ := ![0, 0, 0, 200 * w.val]

theorem winOff_inb (w : Fin 46) : ∀ a, winOff w a + S1x3x16x1000.size a ≤ S1x3x16x10000.size a := by
  intro a
  have hw := w.isLt
  fin_cases a <;> simp [winOff] <;> omega

/-- The source memref of window `w`: the window sliced out of the input row and its unit axis dropped. -/
def srcM (arg2 : Memref sig .tc .vmem S1x3x16x10000 .f32) (w : Fin 46) : Memref sig .tc .vmem S3x16x1000 .f32 :=
  (arg2.slice (Rect.unit (s := S1x3x16x10000) (winOff w) S1x3x16x1000.size (winOff_inb w)) (fun _ => rfl)).squeeze S3x16x1000 squeezes_S1x3x16x1000_S3x16x1000

/-- What the transfer of window `w` moves: the window read off the input row's contents. -/
def winPay (arg2 : Memref sig .tc .vmem S1x3x16x10000 .f32) (harg2 : arg2.IsWhole) (x0 : Vec F S1x3x16x10000 .f32) (w : Fin 46) :
    S3x16x1000.Idx → Elt F .f32 :=
  (ReadAs.same : ReadAs (Elt F) S3x16x1000 .f32 S3x16x1000 .f32).apply ((srcM arg2 w).view.read (Elt F) (harg2.unread x0))

/-- Element `(w, a, b, j)` of the output block comes from element `(0, a, b, 200·w + j)` of the input row. -/
def blockIdx (y : S46x3x16x1000.Idx) : S1x3x16x10000.Idx := fun a => match a with
  | ⟨0, _⟩ => ⟨0, Nat.one_pos⟩
  | ⟨1, _⟩ => ⟨(y 1).val, (y 1).isLt⟩
  | ⟨2, _⟩ => ⟨(y 2).val, (y 2).isLt⟩
  | ⟨3, _⟩ => ⟨200 * (y 0).val + (y 3).val, by
      have h0 : (y 0).val < 46 := (y 0).isLt
      have h3 : (y 3).val < 1000 := (y 3).isLt
      show 200 * (y 0).val + (y 3).val < 10000; omega⟩

/-- The block the forty-six windows of the input row `x0` make up. -/
def blockOf (x0 : Vec F S1x3x16x10000 .f32) : Vec F S46x3x16x1000 .f32 := fun y => x0 (blockIdx y)

/-- Row `w` of the block places `(a, b, j)` at the block's `(w, a, b, j)`. -/
theorem rowM_emb (arg3 : Memref sig .tc .vmem S46x3x16x1000 .f32) (w : Fin 46) (a : Fin 3) (b : Fin 16) (j : Fin 1000) :
    (rowM arg3 w).view.emb (ix3 a b j) = arg3.view.emb (ix4 w a b j) := by
  show arg3.view.emb ((rowRect w).emb (Shape.reshapeEquiv _ (ix3 a b j))) = _
  refine congrArg arg3.view.emb ?_
  refine (congrArg (rowRect w).emb (reshapeEquiv_ix3_1abc _ a b j)).trans ?_
  funext q
  refine Fin.ext ?_
  match q with
  | ⟨0, _⟩ => show rowOff w 0 + 1 * 0 = w.val; simp [rowOff]
  | ⟨1, _⟩ => show rowOff w 1 + 1 * a.val = a.val; simp [rowOff]
  | ⟨2, _⟩ => show rowOff w 2 + 1 * b.val = b.val; simp [rowOff]
  | ⟨3, _⟩ => show rowOff w 3 + 1 * j.val = j.val; simp [rowOff]

/-- Window `w` of the input row places `(a, b, j)` at the row's `(0, a, b, 200·w + j)`. -/
theorem srcM_emb (arg2 : Memref sig .tc .vmem S1x3x16x10000 .f32) (w : Fin 46) (a : Fin 3) (b : Fin 16) (j : Fin 1000)
    (hj : 200 * w.val + j.val < 10000) :
    (srcM arg2 w).view.emb (ix3 a b j)
      = arg2.view.emb (ix4 (⟨0, Nat.one_pos⟩ : Fin 1) a b (⟨200 * w.val + j.val, hj⟩ : Fin 10000)) := by
  show arg2.view.emb ((Rect.unit (s := S1x3x16x10000) (winOff w) S1x3x16x1000.size (winOff_inb w)).emb
    (Shape.reshapeEquiv _ (ix3 a b j))) = _
  refine congrArg arg2.view.emb ?_
  refine (congrArg (Rect.unit (s := S1x3x16x10000) (winOff w) S1x3x16x1000.size (winOff_inb w)).emb
    (reshapeEquiv_ix3_1abc _ a b j)).trans ?_
  funext q
  refine Fin.ext ?_
  match q with
  | ⟨0, _⟩ => show winOff w 0 + 1 * 0 = 0; simp [winOff]
  | ⟨1, _⟩ => show winOff w 1 + 1 * a.val = a.val; simp [winOff]
  | ⟨2, _⟩ => show winOff w 2 + 1 * b.val = b.val; simp [winOff]
  | ⟨3, _⟩ => show winOff w 3 + 1 * j.val = 200 * w.val + j.val; simp [winOff]

/-- Row `w` of the block reads at `(a, b, j)` what the block reads at `(w, a, b, j)`. -/
theorem rowM_read (arg3 : Memref sig .tc .vmem S46x3x16x1000 .f32) (g : arg3.view.ty.Contents (Elt F))
    (w : Fin 46) (a : Fin 3) (b : Fin 16) (j : Fin 1000) :
    (rowM arg3 w).view.read (Elt F) g (ix3 a b j) = arg3.view.read (Elt F) g (ix4 w a b j) := by
  exact congrArg (fun z : arg3.view.ty.Idx => _root_.cast (congrArg (Elt F) arg3.view.elt_eq) (g z))
    (rowM_emb arg3 w a b j)

/-- Window `w` of the input row reads at `(a, b, j)` what the row reads at `(0, a, b, 200·w + j)`. -/
theorem srcM_read (arg2 : Memref sig .tc .vmem S1x3x16x10000 .f32) (f : arg2.view.ty.Contents (Elt F))
    (w : Fin 46) (a : Fin 3) (b : Fin 16) (j : Fin 1000) (hj : 200 * w.val + j.val < 10000) :
    (srcM arg2 w).view.read (Elt F) f (ix3 a b j)
      = arg2.view.read (Elt F) f (ix4 (⟨0, Nat.one_pos⟩ : Fin 1) a b (⟨200 * w.val + j.val, hj⟩ : Fin 10000)) := by
  exact congrArg (fun z : arg2.view.ty.Idx => _root_.cast (congrArg (Elt F) arg2.view.elt_eq) (f z))
    (srcM_emb arg2 w a b j hj)

/-- A block whose every row `w` reads window `w` of the input row reads the block the windows make up. -/
theorem block_read (arg2 : Memref sig .tc .vmem S1x3x16x10000 .f32) (harg2 : arg2.IsWhole)
    (arg3 : Memref sig .tc .vmem S46x3x16x1000 .f32)
    (x0 : Vec F S1x3x16x10000 .f32) (g : arg3.view.ty.Contents (Elt F))
    (hg : ∀ w : Fin 46, (rowM arg3 w).view.read (Elt F) g = winPay arg2 harg2 x0 w) :
    arg3.view.read (Elt F) g = blockOf x0 := by
  funext y
  have h0 : (y 0).val < 46 := (y 0).isLt
  have h3 : (y 3).val < 1000 := (y 3).isLt
  have hj : 200 * (y 0).val + (y 3).val < 10000 := by omega
  rw [show arg3.view.read (Elt F) g y = arg3.view.read (Elt F) g (ix4 (y 0) (y 1) (y 2) (y 3))
    from congrArg _ (eq_ix4 y)]
  rw [← rowM_read arg3 g (y 0) (y 1) (y 2) (y 3), hg (y 0)]
  unfold winPay
  rw [ReadAs.apply_same, srcM_read arg2 _ (y 0) (y 1) (y 2) (y 3) hj, Memref.IsWhole.read_unread]
  unfold blockOf
  refine congrArg x0 ?_
  funext q
  match q with
  | ⟨0, _⟩ => rfl
  | ⟨1, _⟩ => rfl
  | ⟨2, _⟩ => rfl
  | ⟨3, _⟩ => rfl

end Cert.Kernel.Gen

end
-- ==== Proof.WindowCopiesBits.lean ====
/-
  The kernel body, run. At a grid point the body starts forty-six copies — copy `w` from window `w` of the input
  row's staging buffer (positions `200·w … 200·w + 999` of its last axis) to row `w` of the output block's staging
  buffer, completing on cell `w` of the kernel's own semaphore array — and then waits for each in turn. The windows
  overlap, so the input row is lent to the copies as read shares, one per cell; the rows are disjoint, so each copy is
  lent the row it writes. After the last wait every share and every row is back: the input row is as it was and the
  output block reads, at `(w, a, b, j)`, the input row's `(0, a, b, 200·w + j)`.
-/
import proofs.«108043_j57037165691079_2_alg».proof.Proof.WindowBlockBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The forty-six rows, each written with its window, are the block held whole at the windows of the input row. -/
theorem rows_owns (c : Dev nD) (arg2 : Memref sig .tc .vmem S1x3x16x10000 .f32) (harg2 : arg2.IsWhole) (arg3 : Memref sig .tc .vmem S46x3x16x1000 .f32)
    (x0 : Vec F S1x3x16x10000 .f32) (f1 : Buf (Elt F) (arg3.view.loc (c : Thread nD τ))) :
    (iprop((((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.loc (c : Thread nD τ) ↦[((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.set]{fullShare} ((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.writes (Elt F) f1 [⟨Rect.whole S3x16x1000, winPay arg2 harg2 x0 0⟩])
        ∗ (((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.loc (c : Thread nD τ) ↦[((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.set]{fullShare} ((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.writes (Elt F) f1 [⟨Rect.whole S3x16x1000, winPay arg2 harg2 x0 1⟩])
        ∗ (((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.loc (c : Thread nD τ) ↦[((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.set]{fullShare} ((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.writes (Elt F) f1 [⟨Rect.whole S3x16x1000, winPay arg2 harg2 x0 2⟩])
        ∗ (((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.loc (c : Thread nD τ) ↦[((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.set]{fullShare} ((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.writes (Elt F) f1 [⟨Rect.whole S3x16x1000, winPay arg2 harg2 x0 3⟩])
        ∗ (((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.loc (c : Thread nD τ) ↦[((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.set]{fullShare} ((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.writes (Elt F) f1 [⟨Rect.whole S3x16x1000, winPay arg2 harg2 x0 4⟩])
        ∗ (((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.loc (c : Thread nD τ) ↦[((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.set]{fullShare} ((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.writes (Elt F) f1 [⟨Rect.whole S3x16x1000, winPay arg2 harg2 x0 5⟩])
        ∗ (((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.loc (c : Thread nD τ) ↦[((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.set]{fullShare} ((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.writes (Elt F) f1 [⟨Rect.whole S3x16x1000, winPay arg2 harg2 x0 6⟩])
        ∗ (((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.loc (c : Thread nD τ) ↦[((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.set]{fullShare} ((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.writes (Elt F) f1 [⟨Rect.whole S3x16x1000, winPay arg2 harg2 x0 7⟩])
        ∗ (((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.loc (c : Thread nD τ) ↦[((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.set]{fullShare} ((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.writes (Elt F) f1 [⟨Rect.whole S3x16x1000, winPay arg2 harg2 x0 8⟩])
        ∗ (((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.loc (c : Thread nD τ) ↦[((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.set]{fullShare} ((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.writes (Elt F) f1 [⟨Rect.whole S3x16x1000, winPay arg2 harg2 x0 9⟩])
        ∗ (((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.loc (c : Thread nD τ) ↦[((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.set]{fullShare} ((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.writes (Elt F) f1 [⟨Rect.whole S3x16x1000, winPay arg2 harg2 x0 10⟩])
        ∗ (((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.loc (c : Thread nD τ) ↦[((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.set]{fullShare} ((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.writes (Elt F) f1 [⟨Rect.whole S3x16x1000, winPay arg2 harg2 x0 11⟩])
        ∗ (((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.loc (c : Thread nD τ) ↦[((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.set]{fullShare} ((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.writes (Elt F) f1 [⟨Rect.whole S3x16x1000, winPay arg2 harg2 x0 12⟩])
        ∗ (((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.loc (c : Thread nD τ) ↦[((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.set]{fullShare} ((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.writes (Elt F) f1 [⟨Rect.whole S3x16x1000, winPay arg2 harg2 x0 13⟩])
        ∗ (((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.loc (c : Thread nD τ) ↦[((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.set]{fullShare} ((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.writes (Elt F) f1 [⟨Rect.whole S3x16x1000, winPay arg2 harg2 x0 14⟩])
        ∗ (((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.loc (c : Thread nD τ) ↦[((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.set]{fullShare} ((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.writes (Elt F) f1 [⟨Rect.whole S3x16x1000, winPay arg2 harg2 x0 15⟩])
        ∗ (((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.loc (c : Thread nD τ) ↦[((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.set]{fullShare} ((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.writes (Elt F) f1 [⟨Rect.whole S3x16x1000, winPay arg2 harg2 x0 16⟩])
        ∗ (((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.loc (c : Thread nD τ) ↦[((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.set]{fullShare} ((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.writes (Elt F) f1 [⟨Rect.whole S3x16x1000, winPay arg2 harg2 x0 17⟩])
        ∗ (((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.loc (c : Thread nD τ) ↦[((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.set]{fullShare} ((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.writes (Elt F) f1 [⟨Rect.whole S3x16x1000, winPay arg2 harg2 x0 18⟩])
        ∗ (((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.loc (c : Thread nD τ) ↦[((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.set]{fullShare} ((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.writes (Elt F) f1 [⟨Rect.whole S3x16x1000, winPay arg2 harg2 x0 19⟩])
        ∗ (((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.loc (c : Thread nD τ) ↦[((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.set]{fullShare} ((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.writes (Elt F) f1 [⟨Rect.whole S3x16x1000, winPay arg2 harg2 x0 20⟩])
        ∗ (((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.loc (c : Thread nD τ) ↦[((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.set]{fullShare} ((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.writes (Elt F) f1 [⟨Rect.whole S3x16x1000, winPay arg2 harg2 x0 21⟩])
        ∗ (((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.loc (c : Thread nD τ) ↦[((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.set]{fullShare} ((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.writes (Elt F) f1 [⟨Rect.whole S3x16x1000, winPay arg2 harg2 x0 22⟩])
        ∗ (((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.loc (c : Thread nD τ) ↦[((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.set]{fullShare} ((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.writes (Elt F) f1 [⟨Rect.whole S3x16x1000, winPay arg2 harg2 x0 23⟩])
        ∗ (((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.loc (c : Thread nD τ) ↦[((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.set]{fullShare} ((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.writes (Elt F) f1 [⟨Rect.whole S3x16x1000, winPay arg2 harg2 x0 24⟩])
        ∗ (((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.loc (c : Thread nD τ) ↦[((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.set]{fullShare} ((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.writes (Elt F) f1 [⟨Rect.whole S3x16x1000, winPay arg2 harg2 x0 25⟩])
        ∗ (((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.loc (c : Thread nD τ) ↦[((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.set]{fullShare} ((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.writes (Elt F) f1 [⟨Rect.whole S3x16x1000, winPay arg2 harg2 x0 26⟩])
        ∗ (((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.loc (c : Thread nD τ) ↦[((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.set]{fullShare} ((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.writes (Elt F) f1 [⟨Rect.whole S3x16x1000, winPay arg2 harg2 x0 27⟩])
        ∗ (((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.loc (c : Thread nD τ) ↦[((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.set]{fullShare} ((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.writes (Elt F) f1 [⟨Rect.whole S3x16x1000, winPay arg2 harg2 x0 28⟩])
        ∗ (((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.loc (c : Thread nD τ) ↦[((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.set]{fullShare} ((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.writes (Elt F) f1 [⟨Rect.whole S3x16x1000, winPay arg2 harg2 x0 29⟩])
        ∗ (((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.loc (c : Thread nD τ) ↦[((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.set]{fullShare} ((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.writes (Elt F) f1 [⟨Rect.whole S3x16x1000, winPay arg2 harg2 x0 30⟩])
        ∗ (((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.loc (c : Thread nD τ) ↦[((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.set]{fullShare} ((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.writes (Elt F) f1 [⟨Rect.whole S3x16x1000, winPay arg2 harg2 x0 31⟩])
        ∗ (((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.loc (c : Thread nD τ) ↦[((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.set]{fullShare} ((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.writes (Elt F) f1 [⟨Rect.whole S3x16x1000, winPay arg2 harg2 x0 32⟩])
        ∗ (((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.loc (c : Thread nD τ) ↦[((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.set]{fullShare} ((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.writes (Elt F) f1 [⟨Rect.whole S3x16x1000, winPay arg2 harg2 x0 33⟩])
        ∗ (((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.loc (c : Thread nD τ) ↦[((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.set]{fullShare} ((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.writes (Elt F) f1 [⟨Rect.whole S3x16x1000, winPay arg2 harg2 x0 34⟩])
        ∗ (((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.loc (c : Thread nD τ) ↦[((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.set]{fullShare} ((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.writes (Elt F) f1 [⟨Rect.whole S3x16x1000, winPay arg2 harg2 x0 35⟩])
        ∗ (((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.loc (c : Thread nD τ) ↦[((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.set]{fullShare} ((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.writes (Elt F) f1 [⟨Rect.whole S3x16x1000, winPay arg2 harg2 x0 36⟩])
        ∗ (((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.loc (c : Thread nD τ) ↦[((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.set]{fullShare} ((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.writes (Elt F) f1 [⟨Rect.whole S3x16x1000, winPay arg2 harg2 x0 37⟩])
        ∗ (((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.loc (c : Thread nD τ) ↦[((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.set]{fullShare} ((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.writes (Elt F) f1 [⟨Rect.whole S3x16x1000, winPay arg2 harg2 x0 38⟩])
        ∗ (((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.loc (c : Thread nD τ) ↦[((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.set]{fullShare} ((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.writes (Elt F) f1 [⟨Rect.whole S3x16x1000, winPay arg2 harg2 x0 39⟩])
        ∗ (((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.loc (c : Thread nD τ) ↦[((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.set]{fullShare} ((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.writes (Elt F) f1 [⟨Rect.whole S3x16x1000, winPay arg2 harg2 x0 40⟩])
        ∗ (((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.loc (c : Thread nD τ) ↦[((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.set]{fullShare} ((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.writes (Elt F) f1 [⟨Rect.whole S3x16x1000, winPay arg2 harg2 x0 41⟩])
        ∗ (((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.loc (c : Thread nD τ) ↦[((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.set]{fullShare} ((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.writes (Elt F) f1 [⟨Rect.whole S3x16x1000, winPay arg2 harg2 x0 42⟩])
        ∗ (((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.loc (c : Thread nD τ) ↦[((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.set]{fullShare} ((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.writes (Elt F) f1 [⟨Rect.whole S3x16x1000, winPay arg2 harg2 x0 43⟩])
        ∗ (((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.loc (c : Thread nD τ) ↦[((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.set]{fullShare} ((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.writes (Elt F) f1 [⟨Rect.whole S3x16x1000, winPay arg2 harg2 x0 44⟩])
        ∗ (((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.loc (c : Thread nD τ) ↦[((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.set]{fullShare} ((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.writes (Elt F) f1 [⟨Rect.whole S3x16x1000, winPay arg2 harg2 x0 45⟩])) : sProp 𝕄)
      ⊢ iprop(∃ f, ⌜arg3.view.read (Elt F) f = blockOf x0⌝ ∗ arg3.view.loc (c : Thread nD τ) ↦[arg3.view.set]{fullShare} f) := by
  refine (rows_join c arg3 f1 (winPay arg2 harg2 x0)).trans ?_
  iintro ⟨%g, %hg, H⟩
  iexists g
  isplitr
  · ipureintro; exact block_read arg2 harg2 arg3 x0 g hg
  · iexact H

set_option maxHeartbeats 4000000 in
/-- The kernel body on whole staging memrefs: from the input row at `x0`, the output block at anything, the forty-six
    cells at zero and the core's record of waits, it runs to the end with the input row as it was, the output block
    at the forty-six windows of `x0`, the cells at zero again and the waits recorded. Each transfer borrows the read
    share its cell's number names and the row of the block it writes; its wait gives both back. -/
theorem windows_run (c : Dev nD) (i : grid0.Coords) (arg2 : Memref sig .tc .vmem S1x3x16x10000 .f32) (harg2 : arg2.IsWhole) (arg3 : Memref sig .tc .vmem S46x3x16x1000 .f32) (harg3 : arg3.IsWhole)
    (x0 : Vec F S1x3x16x10000 .f32) (W : Waits sig Unit) (K : PUnit → sProp 𝕄) :
        iprop(owns (c : Thread nD τ) arg2 fullShare x0 ∗ (∃ d, owns (c : Thread nD τ) arg3 fullShare d) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ owes (c : Thread nD τ) 0 W
            ∗ (iprop(owns (c : Thread nD τ) arg2 fullShare x0 ∗ owns (c : Thread nD τ) arg3 fullShare (blockOf x0) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ (∃ W', owes (c : Thread nD τ) 0 W')) -∗ K ⟨⟩))
          ⊢ wp frame (wpE (defs₀ (F := F)) Variants.none c none) Set.univ (cc0__windows_kernel i arg2 harg2 arg3 harg3 cc0_scratch0) K := by
    simp only [cc0__windows_kernel_eq_skeleton]; unfold cc0__windows_kernel_skel
    unfold owns
    iintro ⟨⟨%f0, %hf0, H0⟩, ⟨%d1, %f1, -, H1⟩, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, HW, Hk⟩
    obtain rfl := harg2.eq_unread hf0
    ihave HT := (toks_split c arg2 (harg2.unread x0)) $$ H0
    icases HT with ⟨HR, T0, T1, T2, T3, T4, T5, T6, T7, T8, T9, T10, T11, T12, T13, T14, T15, T16, T17, T18, T19, T20, T21, T22, T23, T24, T25, T26, T27, T28, T29, T30, T31, T32, T33, T34, T35, T36, T37, T38, T39, T40, T41, T42, T43, T44, T45, T46, T47, T48, T49⟩
    ihave HD := (rows_split c arg3 f1) $$ H1
    icases HD with ⟨D0, D1, D2, D3, D4, D5, D6, D7, D8, D9, D10, D11, D12, D13, D14, D15, D16, D17, D18, D19, D20, D21, D22, D23, D24, D25, D26, D27, D28, D29, D30, D31, D32, D33, D34, D35, D36, D37, D38, D39, D40, D41, D42, D43, D44, D45⟩
    sl_exec
    sl_step
    iapply Hk
    isplitl [HR T0 T1 T2 T3 T4 T5 T6 T7 T8 T9 T10 T11 T12 T13 T14 T15 T16 T17 T18 T19 T20 T21 T22 T23 T24 T25 T26 T27 T28 T29 T30 T31 T32 T33 T34 T35 T36 T37 T38 T39 T40 T41 T42 T43 T44 T45 T46 T47 T48 T49]
    · iexists _; isplitr; · ipureintro; exact harg2.read_unread _
      iapply (toks_join c arg2 (harg2.unread x0))
      isplitl [HR]; · iexact HR
      isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      isplitl [T8]; · iexact T8
      isplitl [T9]; · iexact T9
      isplitl [T10]; · iexact T10
      isplitl [T11]; · iexact T11
      isplitl [T12]; · iexact T12
      isplitl [T13]; · iexact T13
      isplitl [T14]; · iexact T14
      isplitl [T15]; · iexact T15
      isplitl [T16]; · iexact T16
      isplitl [T17]; · iexact T17
      isplitl [T18]; · iexact T18
      isplitl [T19]; · iexact T19
      isplitl [T20]; · iexact T20
      isplitl [T21]; · iexact T21
      isplitl [T22]; · iexact T22
      isplitl [T23]; · iexact T23
      isplitl [T24]; · iexact T24
      isplitl [T25]; · iexact T25
      isplitl [T26]; · iexact T26
      isplitl [T27]; · iexact T27
      isplitl [T28]; · iexact T28
      isplitl [T29]; · iexact T29
      isplitl [T30]; · iexact T30
      isplitl [T31]; · iexact T31
      isplitl [T32]; · iexact T32
      isplitl [T33]; · iexact T33
      isplitl [T34]; · iexact T34
      isplitl [T35]; · iexact T35
      isplitl [T36]; · iexact T36
      isplitl [T37]; · iexact T37
      isplitl [T38]; · iexact T38
      isplitl [T39]; · iexact T39
      isplitl [T40]; · iexact T40
      isplitl [T41]; · iexact T41
      isplitl [T42]; · iexact T42
      isplitl [T43]; · iexact T43
      isplitl [T44]; · iexact T44
      isplitl [T45]; · iexact T45
      isplitl [T46]; · iexact T46
      isplitl [T47]; · iexact T47
      isplitl [T48]; · iexact T48
      iexact T49
    isplitl [D0 D1 D2 D3 D4 D5 D6 D7 D8 D9 D10 D11 D12 D13 D14 D15 D16 D17 D18 D19 D20 D21 D22 D23 D24 D25 D26 D27 D28 D29 D30 D31 D32 D33 D34 D35 D36 D37 D38 D39 D40 D41 D42 D43 D44 D45]
    · iapply (rows_owns c arg2 harg2 arg3 x0 f1)
      isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      isplitl [D11]; · iexact D11
      isplitl [D12]; · iexact D12
      isplitl [D13]; · iexact D13
      isplitl [D14]; · iexact D14
      isplitl [D15]; · iexact D15
      isplitl [D16]; · iexact D16
      isplitl [D17]; · iexact D17
      isplitl [D18]; · iexact D18
      isplitl [D19]; · iexact D19
      isplitl [D20]; · iexact D20
      isplitl [D21]; · iexact D21
      isplitl [D22]; · iexact D22
      isplitl [D23]; · iexact D23
      isplitl [D24]; · iexact D24
      isplitl [D25]; · iexact D25
      isplitl [D26]; · iexact D26
      isplitl [D27]; · iexact D27
      isplitl [D28]; · iexact D28
      isplitl [D29]; · iexact D29
      isplitl [D30]; · iexact D30
      isplitl [D31]; · iexact D31
      isplitl [D32]; · iexact D32
      isplitl [D33]; · iexact D33
      isplitl [D34]; · iexact D34
      isplitl [D35]; · iexact D35
      isplitl [D36]; · iexact D36
      isplitl [D37]; · iexact D37
      isplitl [D38]; · iexact D38
      isplitl [D39]; · iexact D39
      isplitl [D40]; · iexact D40
      isplitl [D41]; · iexact D41
      isplitl [D42]; · iexact D42
      isplitl [D43]; · iexact D43
      isplitl [D44]; · iexact D44
      iexact D45
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    iexists _; iexact HW

end Cert.Kernel.Gen

end
-- ==== Proof.WindowFrameBits.lean ====
/-
  The frame of the program: every weakly fair execution terminates without a fault and leaves the argument arrays
  unchanged. The pipeline stages one input row `[1, 3, 16, 10000]` and one output block `[46, 3, 16, 1000]` per grid
  point `(n, h)` of the `16 × 4` grid; the body (run elsewhere) leaves the input's staging buffer at its block and the
  output's at the forty-six windows of that block. The region's invariant is the same at every point: the kernel's
  forty-six semaphore cells at zero (every copy a point starts it also waits for), the generator register, nothing
  else. After the region two host operations repeat the labels; they write no array of the pipeline.
-/
import proofs.«108043_j57037165691079_2_alg».proof.Proof.WindowCopiesBits
import Idealize.ShloMosaic.Lib.Pipeline.FrameSuffix

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own semaphore cells -/

/-- The forty-six cells of the kernel's semaphore array: numbers 4 … 49 of the core's DMA semaphores (the four before
    them are the staging buffers'). -/
abbrev osem0 : Fin 46 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49] : Fin 46 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0) := by
  rw [Pipeline.ownSems0_eq_of_list c osem0 (List.finRange 46) (by decide) (by decide)]; rfl

/-- The region invariant, conjunct by conjunct: no scoped buffer besides the staging buffers, the generator register,
    the forty-six cells at zero, and no array the kernel moves itself. -/
theorem PhiD0_eq (c : Dev nD) :
    (Pipeline.ΦD osem0 spec0 ∅ (V m) c : sProp 𝕄)
      = iprop((BI.emp : sProp 𝕄) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0) ∗ (BI.emp : sProp 𝕄)) := by
  rw [Pipeline.ΦD_eq, scopedRest0_eq, ownSems00_eq, BI.bigSep_empty]

/-! ## @main around the region, with the transfers' counters beside the pipeline's algebra -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines after the region touch the pipeline's arrays and the bypassing buffers only. -/
theorem sfx_subD : ∀ ops ∈ ([hostOps1] : List (List (HloOp τ sig (Elt F)))), ∀ op ∈ ops,
    op.bufs ⊆ Pipeline.tailRefsBut sig Pipeline.Prefetch.none spec0 ∅ := by
  rw [Pipeline.tailRefsBut_empty]; exact sfx_sub

/-- No host operation after the region writes `main_arg1`: it ends as launched. -/
theorem W_main_arg1D (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The input window's staging buffer holds its block at every point. -/
theorem before0_0D {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run's: the input array by the library's `Dat.arrAt_in`, the labels by the
    run's second clause. -/
theorem frame_ofD (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1D m dats c))⟩) h

/-! ## The proof data -/

/-- Each window's current staging memref at point `t`, as the pipeline passes it, and its wholeness. -/
abbrev ms0_0 (t : Fin cfg0.N) : Memref sig .tc .vmem S1x3x16x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S46x3x16x1000 .f32 := win0_1.stage (cfg0.slots t 1)
abbrev hs0_1 (t : Fin cfg0.N) : (ms0_1 t).IsWhole := hstage0_1 ((cfg0.slots t 1).cast nbuf0_1)

/-- What the output's staging buffer holds after the body at point `t`: the forty-six windows of the point's input
    row. -/
def outsAt0 (c : Dev nD) (t : Fin cfg0.N) : Vec F S46x3x16x1000 .f32 := blockOf (iblk m c 0 t)

/-- The proof data of the pipeline on core `c`: the arrays as the region finds them; after the body at point `t` the
    input's buffer at its block and the output's at the block's windows; the invariant above; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outsAt0 m c t
  Φ _ := Pipeline.ΦD osem0 spec0 ∅ (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outsAt0 m c t := by dsimp only [dats]
theorem before0_0 (c : Dev nD) (t : Fin cfg0.N) (d) : (dats m 0 c).before 0 t d = iblk m c 0 t :=
  before0_0D m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the invariant hands it the cells at zero and takes them back at zero; the input's buffer
    goes in and comes back at its block; the output's buffer comes back at the block's windows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl, after0_0, after0_1]
  rw [show (dats m 0 c).Φ t.castSucc = Pipeline.ΦD osem0 spec0 ∅ (V m) c from rfl, PhiD0_eq]
  unfold Dat.owesAt Pipeline.owesWithin
  rw [show (dats m 0 c).owed t.castSucc = 0 from rfl, show (dats m 0 c).owed t.succ = 0 from rfl]
  unfold outsAt0
  iintro ⟨⟨HE0, Hg, ⟨Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49⟩, HE1⟩, ⟨%W, -, HW⟩, ⟨%d0, H0⟩, ⟨%d1, H1⟩⟩
  iapply (windows_run c (grid0.coords t) _ _ _ _ (iblk m c 0 t) W _)
  isplitl [H0]; · iexact H0
  isplitl [H1]; · iexists _; iexact H1
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  isplitl [Hq45]; · iexact Hq45
  isplitl [Hq46]; · iexact Hq46
  isplitl [Hq47]; · iexact Hq47
  isplitl [Hq48]; · iexact Hq48
  isplitl [Hq49]; · iexact Hq49
  isplitl [HW]; · iexact HW
  iintro ⟨H0, H1, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, ⟨%W', HW'⟩⟩
  isplitl [HE0 Hg Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 HE1]
  · isplitl [HE0]; · iexact HE0
    isplitl [Hg]; · iexact Hg
    isplitl [Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49]
    · isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      isplitl [Hq40]; · iexact Hq40
      isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      iexact Hq49
    iexact HE1
  isplitl [HW']
  · iexists W'; isplitr; · ipureintro; exact fun _ _ => Or.inl trivial
    iexact HW'
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the pipeline's arrays end at what the library computes from the
    proof data, and every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 ∅ (Finset.empty_subset _) m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m Variants.none) (hA := A_eq m)
    (hin := fun _ => .rfl) (hout := fun _ => .rfl)

/-- The frame: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_ofD m ρ (dats m) (A_eq m) (run_main m ρ)

end Cert.Kernel.Gen

end
-- ==== Proof.WindowRows.lean ====
/-
  The kernel copies forty-six overlapping windows of one input row into the forty-six rows of its output block, each
  copy a transfer of its own on a semaphore of its own, all in flight at once. Two facts about how the buffers may
  be held make that a sequence of independent steps. The output block `[46, 3, 16, 1000]` is the disjoint union of
  its rows `w = 0 … 45` (row `w` is the rectangle at `(w, 0, 0, 0)` of extent `[1, 3, 16, 1000]`), so the block held
  whole is held row by row, each transfer writes the row it owns, and rows held at contents of their own join to the
  block held whole at contents whose row `w` reads window `w`'s payload. The input row is only read, by windows that
  overlap (window `w` starts at `200·w` and is `1000` long), so it is held as fifty read shares of the whole row —
  one per semaphore cell number — and a remainder; the shares join back to the full share.
-/
import proofs.«108043_j57037165691079_2_alg».proof.Proof.Gen.KernelIdeal.Frame
import proofs.«108043_j57037165691079_2_alg».proof.Proof.Gen.KernelIdeal.Skeleton
import Idealize.ShloMosaic.Lib.Pipeline.Frame
import Idealize.ShloMosaic.Lib.Transfers
import Idealize.ShloMosaic.Lib.Ring

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The forty-six windows of the output block

The output block of a grid point is `[46, 3, 16, 1000]`: row `w` of its leading axis is window `w`. The rows are
pairwise disjoint and together they are the whole block, so a buffer of that shape held whole is held row by row,
and rows held at contents of their own join to the buffer held whole at contents that agree with each row's. -/

/-- Row `w` of the block starts at `(w, 0, 0, 0`). -/
def rowOff (w : Fin 46) : Fin 4 → ℕ := ![w.val, 0, 0, 0]

theorem rowOff_inb (w : Fin 46) : ∀ a, rowOff w a + S1x3x16x1000.size a ≤ S46x3x16x1000.size a := by
  intro a
  have hw := w.isLt
  fin_cases a <;> simp [rowOff] <;> omega

/-- Row `w` as a rectangle of the block. -/
abbrev rowRect (w : Fin 46) : Rect S46x3x16x1000 := Rect.unit (rowOff w) S1x3x16x1000.size (rowOff_inb w)

/-- Two different rows share no element. -/
theorem rowRect_disjoint (w w' : Fin 46) (h : w ≠ w') : Disjoint (rowRect w).set (rowRect w').set :=
  Ring.lead_disjoint (s := S46x3x16x1000) (0 : Fin 4) 1 rowOff S1x3x16x1000.size rowOff_inb
    (fun b => by simp [rowOff]) (by rfl) w w' h

/-- Every element of the block lies in some row. -/
theorem rowRect_cover : Finset.univ.biUnion (fun w : Fin 46 => (rowRect w).set) = Finset.univ :=
  Ring.lead_cover (s := S46x3x16x1000) (0 : Fin 4) 1 rowOff S1x3x16x1000.size rowOff_inb
    (fun b => by simp [rowOff]) (fun b a ha => by fin_cases a <;> simp_all [rowOff])
    (by rfl) (fun a ha => by fin_cases a <;> simp_all) (by decide)

/-- The window memref of row `w` of a block memref: the row sliced out and its unit axis dropped. -/
def rowM (arg3 : Memref sig .tc .vmem S46x3x16x1000 .f32) (w : Fin 46) : Memref sig .tc .vmem S3x16x1000 .f32 :=
  (arg3.slice (Rect.unit (s := S46x3x16x1000) (rowOff w) S1x3x16x1000.size (rowOff_inb w)) (fun _ => rfl)).squeeze S3x16x1000 squeezes_S1x3x16x1000_S3x16x1000

theorem rowM_set (arg3 : Memref sig .tc .vmem S46x3x16x1000 .f32) (w : Fin 46) :
    (rowM arg3 w).view.set = (rowRect w).set.map arg3.view.emb :=
  (View.set_reshape (v := arg3.view.slice (rowRect w)) _).trans (arg3.view.set_slice (rowRect w))

theorem rowM_disjoint (arg3 : Memref sig .tc .vmem S46x3x16x1000 .f32) (w w' : Fin 46) (h : w ≠ w') :
    Disjoint (rowM arg3 w).view.set (rowM arg3 w').view.set := by
  rw [rowM_set, rowM_set]
  exact (Finset.disjoint_map _).mpr (rowRect_disjoint w w' h)

theorem rowM_cover (arg3 : Memref sig .tc .vmem S46x3x16x1000 .f32) :
    Finset.univ.biUnion (fun w : Fin 46 => (rowM arg3 w).view.set) = arg3.view.set := by
  ext i
  constructor
  · intro hi
    obtain ⟨w, -, hw⟩ := Finset.mem_biUnion.mp hi
    rw [rowM_set] at hw
    obtain ⟨z, -, rfl⟩ := Finset.mem_map.mp hw
    exact arg3.view.emb_mem_set z
  · intro hi
    obtain ⟨z, -, rfl⟩ := Finset.mem_map.mp hi
    have hz : z ∈ Finset.univ.biUnion (fun w : Fin 46 => (rowRect w).set) := by rw [rowRect_cover]; exact Finset.mem_univ z
    obtain ⟨w, -, hw⟩ := Finset.mem_biUnion.mp hz
    exact Finset.mem_biUnion.mpr ⟨w, Finset.mem_univ _, by rw [rowM_set]; exact Finset.mem_map_of_mem _ hw⟩

/-- The elements of row `w`, as elements of the block's buffer on core `c`. -/
def rowSet (c : Dev nD) (arg3 : Memref sig .tc .vmem S46x3x16x1000 .f32) (w : Fin 46) : Finset (Idx (arg3.view.loc (c : Thread nD τ))) :=
  (rowM arg3 w).view.set

theorem rowSet_disjoint (c : Dev nD) (arg3 : Memref sig .tc .vmem S46x3x16x1000 .f32) (w w' : Fin 46) (h : w ≠ w') :
    Disjoint (rowSet c arg3 w) (rowSet c arg3 w') := rowM_disjoint arg3 w w' h

theorem rowSet_cover (c : Dev nD) (arg3 : Memref sig .tc .vmem S46x3x16x1000 .f32) :
    Finset.univ.biUnion (rowSet c arg3) = (arg3.view.set : Finset (Idx (arg3.view.loc (c : Thread nD τ)))) := by
  ext i
  constructor
  · intro hi
    obtain ⟨w, -, hw⟩ := Finset.mem_biUnion.mp hi
    have hw' : i ∈ (rowRect w).set.map arg3.view.emb := (rowM_set arg3 w) ▸ hw
    obtain ⟨z, -, rfl⟩ := Finset.mem_map.mp hw'
    exact arg3.view.emb_mem_set z
  · intro hi
    obtain ⟨z, -, rfl⟩ := Finset.mem_map.mp hi
    have hz : z ∈ Finset.univ.biUnion (fun w : Fin 46 => (rowRect w).set) := by rw [rowRect_cover]; exact Finset.mem_univ z
    obtain ⟨w, -, hw⟩ := Finset.mem_biUnion.mp hz
    refine Finset.mem_biUnion.mpr ⟨w, Finset.mem_univ _, ?_⟩
    unfold rowSet; rw [rowM_set]; exact Finset.mem_map_of_mem _ hw

/-- A buffer held on a set that forty-six pairwise disjoint sets make up is held on each of them. -/
theorem pointsTo_family {ℓ : Loc nD τ sig} {S : Finset (Idx ℓ)} (K : Fin 46 → Finset (Idx ℓ))
    (hd : ∀ w w', w ≠ w' → Disjoint (K w) (K w')) (hc : Finset.univ.biUnion K = S) (f : Buf (Elt F) ℓ) :
    (ℓ ↦[S]{fullShare} f : sProp 𝕄) = bigSep Finset.univ (fun w => ℓ ↦[K w]{fullShare} f) := by
  subst hc; exact pointsTo_biUnion Finset.univ K (fun w _ w' _ h => hd w w' h)

/-- And sets held at contents of their own join to the whole, at contents that agree with each on its set. -/
theorem pointsTo_family_join {ℓ : Loc nD τ sig} {S : Finset (Idx ℓ)} (K : Fin 46 → Finset (Idx ℓ))
    (hd : ∀ w w', w ≠ w' → Disjoint (K w) (K w')) (hc : Finset.univ.biUnion K = S) (fs : Fin 46 → Buf (Elt F) ℓ) (f₀ : Buf (Elt F) ℓ) :
    (bigSep Finset.univ (fun w => ℓ ↦[K w]{fullShare} fs w) : sProp 𝕄)
      ⊢ iprop(∃ g, ⌜∀ w, ∀ i ∈ K w, g i = fs w i⌝ ∗ ℓ ↦[S]{fullShare} g) := by
  subst hc
  refine (pointsTo_biUnion_join Finset.univ K fs f₀ (fun w _ w' _ h => hd w w' h)).trans ?_
  iintro ⟨%g, %hg, H⟩
  iexists g
  isplitr
  · ipureintro; exact fun w i hi => hg w (Finset.mem_univ _) i hi
  · iexact H

/-- What row `w` holds once a whole window `p w` has been written through its memref, over prior contents `f1`. -/
def rowFill (c : Dev nD) (arg3 : Memref sig .tc .vmem S46x3x16x1000 .f32) (f1 : Buf (Elt F) (arg3.view.loc (c : Thread nD τ)))
    (p : Fin 46 → S3x16x1000.Idx → Elt F .f32) (w : Fin 46) : Buf (Elt F) (arg3.view.loc (c : Thread nD τ)) :=
  (rowM arg3 w).view.writes (Elt F) f1 [⟨Rect.whole S3x16x1000, p w⟩]

/-- A block buffer held whole is held window by window (the rows are disjoint and cover it). -/
theorem rows_split (c : Dev nD) (arg3 : Memref sig .tc .vmem S46x3x16x1000 .f32) (f1 : Buf (Elt F) (arg3.view.loc (c : Thread nD τ))) :
    (arg3.view.loc (c : Thread nD τ) ↦[arg3.view.set]{fullShare} f1 : sProp 𝕄)
      ⊢ iprop((((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.loc (c : Thread nD τ) ↦[((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.set]{fullShare} f1)
        ∗ (((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.loc (c : Thread nD τ) ↦[((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.set]{fullShare} f1)
        ∗ (((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.loc (c : Thread nD τ) ↦[((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.set]{fullShare} f1)
        ∗ (((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.loc (c : Thread nD τ) ↦[((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.set]{fullShare} f1)
        ∗ (((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.loc (c : Thread nD τ) ↦[((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.set]{fullShare} f1)
        ∗ (((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.loc (c : Thread nD τ) ↦[((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.set]{fullShare} f1)
        ∗ (((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.loc (c : Thread nD τ) ↦[((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.set]{fullShare} f1)
        ∗ (((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.loc (c : Thread nD τ) ↦[((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.set]{fullShare} f1)
        ∗ (((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.loc (c : Thread nD τ) ↦[((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.set]{fullShare} f1)
        ∗ (((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.loc (c : Thread nD τ) ↦[((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.set]{fullShare} f1)
        ∗ (((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.loc (c : Thread nD τ) ↦[((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.set]{fullShare} f1)
        ∗ (((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.loc (c : Thread nD τ) ↦[((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.set]{fullShare} f1)
        ∗ (((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.loc (c : Thread nD τ) ↦[((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.set]{fullShare} f1)
        ∗ (((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.loc (c : Thread nD τ) ↦[((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.set]{fullShare} f1)
        ∗ (((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.loc (c : Thread nD τ) ↦[((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.set]{fullShare} f1)
        ∗ (((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.loc (c : Thread nD τ) ↦[((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.set]{fullShare} f1)
        ∗ (((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.loc (c : Thread nD τ) ↦[((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.set]{fullShare} f1)
        ∗ (((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.loc (c : Thread nD τ) ↦[((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.set]{fullShare} f1)
        ∗ (((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.loc (c : Thread nD τ) ↦[((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.set]{fullShare} f1)
        ∗ (((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.loc (c : Thread nD τ) ↦[((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.set]{fullShare} f1)
        ∗ (((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.loc (c : Thread nD τ) ↦[((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.set]{fullShare} f1)
        ∗ (((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.loc (c : Thread nD τ) ↦[((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.set]{fullShare} f1)
        ∗ (((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.loc (c : Thread nD τ) ↦[((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.set]{fullShare} f1)
        ∗ (((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.loc (c : Thread nD τ) ↦[((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.set]{fullShare} f1)
        ∗ (((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.loc (c : Thread nD τ) ↦[((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.set]{fullShare} f1)
        ∗ (((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.loc (c : Thread nD τ) ↦[((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.set]{fullShare} f1)
        ∗ (((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.loc (c : Thread nD τ) ↦[((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.set]{fullShare} f1)
        ∗ (((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.loc (c : Thread nD τ) ↦[((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.set]{fullShare} f1)
        ∗ (((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.loc (c : Thread nD τ) ↦[((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.set]{fullShare} f1)
        ∗ (((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.loc (c : Thread nD τ) ↦[((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.set]{fullShare} f1)
        ∗ (((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.loc (c : Thread nD τ) ↦[((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.set]{fullShare} f1)
        ∗ (((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.loc (c : Thread nD τ) ↦[((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.set]{fullShare} f1)
        ∗ (((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.loc (c : Thread nD τ) ↦[((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.set]{fullShare} f1)
        ∗ (((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.loc (c : Thread nD τ) ↦[((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.set]{fullShare} f1)
        ∗ (((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.loc (c : Thread nD τ) ↦[((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.set]{fullShare} f1)
        ∗ (((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.loc (c : Thread nD τ) ↦[((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.set]{fullShare} f1)
        ∗ (((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.loc (c : Thread nD τ) ↦[((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.set]{fullShare} f1)
        ∗ (((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.loc (c : Thread nD τ) ↦[((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.set]{fullShare} f1)
        ∗ (((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.loc (c : Thread nD τ) ↦[((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.set]{fullShare} f1)
        ∗ (((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.loc (c : Thread nD τ) ↦[((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.set]{fullShare} f1)
        ∗ (((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.loc (c : Thread nD τ) ↦[((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.set]{fullShare} f1)
        ∗ (((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.loc (c : Thread nD τ) ↦[((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.set]{fullShare} f1)
        ∗ (((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.loc (c : Thread nD τ) ↦[((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.set]{fullShare} f1)
        ∗ (((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.loc (c : Thread nD τ) ↦[((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.set]{fullShare} f1)
        ∗ (((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.loc (c : Thread nD τ) ↦[((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.set]{fullShare} f1)
        ∗ (((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.loc (c : Thread nD τ) ↦[((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.set]{fullShare} f1)) :=
  (Entails.of_eq (pointsTo_family (rowSet c arg3) (rowSet_disjoint c arg3) (rowSet_cover c arg3) f1)).trans
    (Entails.of_eq (by rw [BI.bigSep_univ_eq_bigSepL (List.finRange 46) (by decide) (by decide)]; rfl))

/-- Windows written one by one join to the block held whole, at contents that are window `w`'s payload on row `w`. -/
theorem rows_join (c : Dev nD) (arg3 : Memref sig .tc .vmem S46x3x16x1000 .f32) (f1 : Buf (Elt F) (arg3.view.loc (c : Thread nD τ)))
    (p : Fin 46 → S3x16x1000.Idx → Elt F .f32) :
    (iprop((((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.loc (c : Thread nD τ) ↦[((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.set]{fullShare} ((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.writes (Elt F) f1 [⟨Rect.whole S3x16x1000, p 0⟩])
        ∗ (((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.loc (c : Thread nD τ) ↦[((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.set]{fullShare} ((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.writes (Elt F) f1 [⟨Rect.whole S3x16x1000, p 1⟩])
        ∗ (((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.loc (c : Thread nD τ) ↦[((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.set]{fullShare} ((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.writes (Elt F) f1 [⟨Rect.whole S3x16x1000, p 2⟩])
        ∗ (((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.loc (c : Thread nD τ) ↦[((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.set]{fullShare} ((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.writes (Elt F) f1 [⟨Rect.whole S3x16x1000, p 3⟩])
        ∗ (((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.loc (c : Thread nD τ) ↦[((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.set]{fullShare} ((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.writes (Elt F) f1 [⟨Rect.whole S3x16x1000, p 4⟩])
        ∗ (((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.loc (c : Thread nD τ) ↦[((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.set]{fullShare} ((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.writes (Elt F) f1 [⟨Rect.whole S3x16x1000, p 5⟩])
        ∗ (((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.loc (c : Thread nD τ) ↦[((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.set]{fullShare} ((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.writes (Elt F) f1 [⟨Rect.whole S3x16x1000, p 6⟩])
        ∗ (((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.loc (c : Thread nD τ) ↦[((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.set]{fullShare} ((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.writes (Elt F) f1 [⟨Rect.whole S3x16x1000, p 7⟩])
        ∗ (((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.loc (c : Thread nD τ) ↦[((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.set]{fullShare} ((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.writes (Elt F) f1 [⟨Rect.whole S3x16x1000, p 8⟩])
        ∗ (((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.loc (c : Thread nD τ) ↦[((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.set]{fullShare} ((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.writes (Elt F) f1 [⟨Rect.whole S3x16x1000, p 9⟩])
        ∗ (((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.loc (c : Thread nD τ) ↦[((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.set]{fullShare} ((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.writes (Elt F) f1 [⟨Rect.whole S3x16x1000, p 10⟩])
        ∗ (((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.loc (c : Thread nD τ) ↦[((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.set]{fullShare} ((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.writes (Elt F) f1 [⟨Rect.whole S3x16x1000, p 11⟩])
        ∗ (((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.loc (c : Thread nD τ) ↦[((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.set]{fullShare} ((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.writes (Elt F) f1 [⟨Rect.whole S3x16x1000, p 12⟩])
        ∗ (((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.loc (c : Thread nD τ) ↦[((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.set]{fullShare} ((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.writes (Elt F) f1 [⟨Rect.whole S3x16x1000, p 13⟩])
        ∗ (((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.loc (c : Thread nD τ) ↦[((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.set]{fullShare} ((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.writes (Elt F) f1 [⟨Rect.whole S3x16x1000, p 14⟩])
        ∗ (((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.loc (c : Thread nD τ) ↦[((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.set]{fullShare} ((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.writes (Elt F) f1 [⟨Rect.whole S3x16x1000, p 15⟩])
        ∗ (((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.loc (c : Thread nD τ) ↦[((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.set]{fullShare} ((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.writes (Elt F) f1 [⟨Rect.whole S3x16x1000, p 16⟩])
        ∗ (((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.loc (c : Thread nD τ) ↦[((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.set]{fullShare} ((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.writes (Elt F) f1 [⟨Rect.whole S3x16x1000, p 17⟩])
        ∗ (((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.loc (c : Thread nD τ) ↦[((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.set]{fullShare} ((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.writes (Elt F) f1 [⟨Rect.whole S3x16x1000, p 18⟩])
        ∗ (((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.loc (c : Thread nD τ) ↦[((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.set]{fullShare} ((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.writes (Elt F) f1 [⟨Rect.whole S3x16x1000, p 19⟩])
        ∗ (((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.loc (c : Thread nD τ) ↦[((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.set]{fullShare} ((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.writes (Elt F) f1 [⟨Rect.whole S3x16x1000, p 20⟩])
        ∗ (((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.loc (c : Thread nD τ) ↦[((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.set]{fullShare} ((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.writes (Elt F) f1 [⟨Rect.whole S3x16x1000, p 21⟩])
        ∗ (((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.loc (c : Thread nD τ) ↦[((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.set]{fullShare} ((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.writes (Elt F) f1 [⟨Rect.whole S3x16x1000, p 22⟩])
        ∗ (((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.loc (c : Thread nD τ) ↦[((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.set]{fullShare} ((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.writes (Elt F) f1 [⟨Rect.whole S3x16x1000, p 23⟩])
        ∗ (((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.loc (c : Thread nD τ) ↦[((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.set]{fullShare} ((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.writes (Elt F) f1 [⟨Rect.whole S3x16x1000, p 24⟩])
        ∗ (((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.loc (c : Thread nD τ) ↦[((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.set]{fullShare} ((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.writes (Elt F) f1 [⟨Rect.whole S3x16x1000, p 25⟩])
        ∗ (((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.loc (c : Thread nD τ) ↦[((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.set]{fullShare} ((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.writes (Elt F) f1 [⟨Rect.whole S3x16x1000, p 26⟩])
        ∗ (((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.loc (c : Thread nD τ) ↦[((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.set]{fullShare} ((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.writes (Elt F) f1 [⟨Rect.whole S3x16x1000, p 27⟩])
        ∗ (((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.loc (c : Thread nD τ) ↦[((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.set]{fullShare} ((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.writes (Elt F) f1 [⟨Rect.whole S3x16x1000, p 28⟩])
        ∗ (((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.loc (c : Thread nD τ) ↦[((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.set]{fullShare} ((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.writes (Elt F) f1 [⟨Rect.whole S3x16x1000, p 29⟩])
        ∗ (((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.loc (c : Thread nD τ) ↦[((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.set]{fullShare} ((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.writes (Elt F) f1 [⟨Rect.whole S3x16x1000, p 30⟩])
        ∗ (((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.loc (c : Thread nD τ) ↦[((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.set]{fullShare} ((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.writes (Elt F) f1 [⟨Rect.whole S3x16x1000, p 31⟩])
        ∗ (((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.loc (c : Thread nD τ) ↦[((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.set]{fullShare} ((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.writes (Elt F) f1 [⟨Rect.whole S3x16x1000, p 32⟩])
        ∗ (((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.loc (c : Thread nD τ) ↦[((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.set]{fullShare} ((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.writes (Elt F) f1 [⟨Rect.whole S3x16x1000, p 33⟩])
        ∗ (((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.loc (c : Thread nD τ) ↦[((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.set]{fullShare} ((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.writes (Elt F) f1 [⟨Rect.whole S3x16x1000, p 34⟩])
        ∗ (((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.loc (c : Thread nD τ) ↦[((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.set]{fullShare} ((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.writes (Elt F) f1 [⟨Rect.whole S3x16x1000, p 35⟩])
        ∗ (((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.loc (c : Thread nD τ) ↦[((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.set]{fullShare} ((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.writes (Elt F) f1 [⟨Rect.whole S3x16x1000, p 36⟩])
        ∗ (((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.loc (c : Thread nD τ) ↦[((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.set]{fullShare} ((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.writes (Elt F) f1 [⟨Rect.whole S3x16x1000, p 37⟩])
        ∗ (((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.loc (c : Thread nD τ) ↦[((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.set]{fullShare} ((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.writes (Elt F) f1 [⟨Rect.whole S3x16x1000, p 38⟩])
        ∗ (((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.loc (c : Thread nD τ) ↦[((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.set]{fullShare} ((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.writes (Elt F) f1 [⟨Rect.whole S3x16x1000, p 39⟩])
        ∗ (((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.loc (c : Thread nD τ) ↦[((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.set]{fullShare} ((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.writes (Elt F) f1 [⟨Rect.whole S3x16x1000, p 40⟩])
        ∗ (((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.loc (c : Thread nD τ) ↦[((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.set]{fullShare} ((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.writes (Elt F) f1 [⟨Rect.whole S3x16x1000, p 41⟩])
        ∗ (((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.loc (c : Thread nD τ) ↦[((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.set]{fullShare} ((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.writes (Elt F) f1 [⟨Rect.whole S3x16x1000, p 42⟩])
        ∗ (((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.loc (c : Thread nD τ) ↦[((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.set]{fullShare} ((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.writes (Elt F) f1 [⟨Rect.whole S3x16x1000, p 43⟩])
        ∗ (((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.loc (c : Thread nD τ) ↦[((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.set]{fullShare} ((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.writes (Elt F) f1 [⟨Rect.whole S3x16x1000, p 44⟩])
        ∗ (((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.loc (c : Thread nD τ) ↦[((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.set]{fullShare} ((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.writes (Elt F) f1 [⟨Rect.whole S3x16x1000, p 45⟩])) : sProp 𝕄)
      ⊢ iprop(∃ g : Buf (Elt F) (arg3.view.loc (c : Thread nD τ)), ⌜∀ w : Fin 46, (rowM arg3 w).view.read (Elt F) g = p w⌝
          ∗ arg3.view.loc (c : Thread nD τ) ↦[arg3.view.set]{fullShare} g) := by
  refine (show _ ⊢ (bigSep Finset.univ (fun w : Fin 46 => arg3.view.loc (c : Thread nD τ) ↦[rowSet c arg3 w]{fullShare} rowFill c arg3 f1 p w) : sProp 𝕄)
    from Entails.of_eq (by rw [BI.bigSep_univ_eq_bigSepL (List.finRange 46) (by decide) (by decide)]; rfl)).trans ?_
  refine (pointsTo_family_join (rowSet c arg3) (rowSet_disjoint c arg3) (rowSet_cover c arg3) (rowFill c arg3 f1 p) f1).trans ?_
  iintro ⟨%g, %hg, H⟩
  iexists g
  isplitr
  · ipureintro; intro w
    refine (View.read_congr (v := (rowM arg3 w).view) (f := g) (g := rowFill c arg3 f1 p w) (fun i hi => hg w i hi)).trans ?_
    unfold rowFill
    exact View.read_writes_whole _ _ _
  · iexact H

/-- The input row held whole is held as one remainder and fifty read shares, and back. -/
theorem toks_split (c : Dev nD) (arg2 : Memref sig .tc .vmem S1x3x16x10000 .f32) (f : Buf (Elt F) (arg2.view.loc (c : Thread nD τ))) :
    (arg2.view.loc (c : Thread nD τ) ↦[arg2.view.set]{fullShare} f : sProp 𝕄) ⊢ iprop((arg2.view.loc (c : Thread nD τ) ↦[arg2.view.set]{Transfers.shareDrop fullShare 50} f) ∗ (arg2.view.loc (c : Thread nD τ) ↦[arg2.view.set]{Transfers.shareTokN fullShare 0} f) ∗ (arg2.view.loc (c : Thread nD τ) ↦[arg2.view.set]{Transfers.shareTokN fullShare 1} f) ∗ (arg2.view.loc (c : Thread nD τ) ↦[arg2.view.set]{Transfers.shareTokN fullShare 2} f) ∗ (arg2.view.loc (c : Thread nD τ) ↦[arg2.view.set]{Transfers.shareTokN fullShare 3} f) ∗ (arg2.view.loc (c : Thread nD τ) ↦[arg2.view.set]{Transfers.shareTokN fullShare 4} f) ∗ (arg2.view.loc (c : Thread nD τ) ↦[arg2.view.set]{Transfers.shareTokN fullShare 5} f) ∗ (arg2.view.loc (c : Thread nD τ) ↦[arg2.view.set]{Transfers.shareTokN fullShare 6} f) ∗ (arg2.view.loc (c : Thread nD τ) ↦[arg2.view.set]{Transfers.shareTokN fullShare 7} f) ∗ (arg2.view.loc (c : Thread nD τ) ↦[arg2.view.set]{Transfers.shareTokN fullShare 8} f) ∗ (arg2.view.loc (c : Thread nD τ) ↦[arg2.view.set]{Transfers.shareTokN fullShare 9} f) ∗ (arg2.view.loc (c : Thread nD τ) ↦[arg2.view.set]{Transfers.shareTokN fullShare 10} f) ∗ (arg2.view.loc (c : Thread nD τ) ↦[arg2.view.set]{Transfers.shareTokN fullShare 11} f) ∗ (arg2.view.loc (c : Thread nD τ) ↦[arg2.view.set]{Transfers.shareTokN fullShare 12} f) ∗ (arg2.view.loc (c : Thread nD τ) ↦[arg2.view.set]{Transfers.shareTokN fullShare 13} f) ∗ (arg2.view.loc (c : Thread nD τ) ↦[arg2.view.set]{Transfers.shareTokN fullShare 14} f) ∗ (arg2.view.loc (c : Thread nD τ) ↦[arg2.view.set]{Transfers.shareTokN fullShare 15} f) ∗ (arg2.view.loc (c : Thread nD τ) ↦[arg2.view.set]{Transfers.shareTokN fullShare 16} f) ∗ (arg2.view.loc (c : Thread nD τ) ↦[arg2.view.set]{Transfers.shareTokN fullShare 17} f) ∗ (arg2.view.loc (c : Thread nD τ) ↦[arg2.view.set]{Transfers.shareTokN fullShare 18} f) ∗ (arg2.view.loc (c : Thread nD τ) ↦[arg2.view.set]{Transfers.shareTokN fullShare 19} f) ∗ (arg2.view.loc (c : Thread nD τ) ↦[arg2.view.set]{Transfers.shareTokN fullShare 20} f) ∗ (arg2.view.loc (c : Thread nD τ) ↦[arg2.view.set]{Transfers.shareTokN fullShare 21} f) ∗ (arg2.view.loc (c : Thread nD τ) ↦[arg2.view.set]{Transfers.shareTokN fullShare 22} f) ∗ (arg2.view.loc (c : Thread nD τ) ↦[arg2.view.set]{Transfers.shareTokN fullShare 23} f) ∗ (arg2.view.loc (c : Thread nD τ) ↦[arg2.view.set]{Transfers.shareTokN fullShare 24} f) ∗ (arg2.view.loc (c : Thread nD τ) ↦[arg2.view.set]{Transfers.shareTokN fullShare 25} f) ∗ (arg2.view.loc (c : Thread nD τ) ↦[arg2.view.set]{Transfers.shareTokN fullShare 26} f) ∗ (arg2.view.loc (c : Thread nD τ) ↦[arg2.view.set]{Transfers.shareTokN fullShare 27} f) ∗ (arg2.view.loc (c : Thread nD τ) ↦[arg2.view.set]{Transfers.shareTokN fullShare 28} f) ∗ (arg2.view.loc (c : Thread nD τ) ↦[arg2.view.set]{Transfers.shareTokN fullShare 29} f) ∗ (arg2.view.loc (c : Thread nD τ) ↦[arg2.view.set]{Transfers.shareTokN fullShare 30} f) ∗ (arg2.view.loc (c : Thread nD τ) ↦[arg2.view.set]{Transfers.shareTokN fullShare 31} f) ∗ (arg2.view.loc (c : Thread nD τ) ↦[arg2.view.set]{Transfers.shareTokN fullShare 32} f) ∗ (arg2.view.loc (c : Thread nD τ) ↦[arg2.view.set]{Transfers.shareTokN fullShare 33} f) ∗ (arg2.view.loc (c : Thread nD τ) ↦[arg2.view.set]{Transfers.shareTokN fullShare 34} f) ∗ (arg2.view.loc (c : Thread nD τ) ↦[arg2.view.set]{Transfers.shareTokN fullShare 35} f) ∗ (arg2.view.loc (c : Thread nD τ) ↦[arg2.view.set]{Transfers.shareTokN fullShare 36} f) ∗ (arg2.view.loc (c : Thread nD τ) ↦[arg2.view.set]{Transfers.shareTokN fullShare 37} f) ∗ (arg2.view.loc (c : Thread nD τ) ↦[arg2.view.set]{Transfers.shareTokN fullShare 38} f) ∗ (arg2.view.loc (c : Thread nD τ) ↦[arg2.view.set]{Transfers.shareTokN fullShare 39} f) ∗ (arg2.view.loc (c : Thread nD τ) ↦[arg2.view.set]{Transfers.shareTokN fullShare 40} f) ∗ (arg2.view.loc (c : Thread nD τ) ↦[arg2.view.set]{Transfers.shareTokN fullShare 41} f) ∗ (arg2.view.loc (c : Thread nD τ) ↦[arg2.view.set]{Transfers.shareTokN fullShare 42} f) ∗ (arg2.view.loc (c : Thread nD τ) ↦[arg2.view.set]{Transfers.shareTokN fullShare 43} f) ∗ (arg2.view.loc (c : Thread nD τ) ↦[arg2.view.set]{Transfers.shareTokN fullShare 44} f) ∗ (arg2.view.loc (c : Thread nD τ) ↦[arg2.view.set]{Transfers.shareTokN fullShare 45} f) ∗ (arg2.view.loc (c : Thread nD τ) ↦[arg2.view.set]{Transfers.shareTokN fullShare 46} f) ∗ (arg2.view.loc (c : Thread nD τ) ↦[arg2.view.set]{Transfers.shareTokN fullShare 47} f) ∗ (arg2.view.loc (c : Thread nD τ) ↦[arg2.view.set]{Transfers.shareTokN fullShare 48} f) ∗ (arg2.view.loc (c : Thread nD τ) ↦[arg2.view.set]{Transfers.shareTokN fullShare 49} f)) :=
  (Transfers.pointsTo_toks_range (Ix := Unit) (Name := ℕ) (U := Pipeline.UD sig nD τ) (Lvl := ℕ) fullShare 50).1.trans
    (Entails.of_eq (by rw [BI.bigSep_eq_bigSepL_of_eq (List.range 50) (by decide) (by decide)]; rfl))

theorem toks_join (c : Dev nD) (arg2 : Memref sig .tc .vmem S1x3x16x10000 .f32) (f : Buf (Elt F) (arg2.view.loc (c : Thread nD τ))) :
    (iprop((arg2.view.loc (c : Thread nD τ) ↦[arg2.view.set]{Transfers.shareDrop fullShare 50} f) ∗ (arg2.view.loc (c : Thread nD τ) ↦[arg2.view.set]{Transfers.shareTokN fullShare 0} f) ∗ (arg2.view.loc (c : Thread nD τ) ↦[arg2.view.set]{Transfers.shareTokN fullShare 1} f) ∗ (arg2.view.loc (c : Thread nD τ) ↦[arg2.view.set]{Transfers.shareTokN fullShare 2} f) ∗ (arg2.view.loc (c : Thread nD τ) ↦[arg2.view.set]{Transfers.shareTokN fullShare 3} f) ∗ (arg2.view.loc (c : Thread nD τ) ↦[arg2.view.set]{Transfers.shareTokN fullShare 4} f) ∗ (arg2.view.loc (c : Thread nD τ) ↦[arg2.view.set]{Transfers.shareTokN fullShare 5} f) ∗ (arg2.view.loc (c : Thread nD τ) ↦[arg2.view.set]{Transfers.shareTokN fullShare 6} f) ∗ (arg2.view.loc (c : Thread nD τ) ↦[arg2.view.set]{Transfers.shareTokN fullShare 7} f) ∗ (arg2.view.loc (c : Thread nD τ) ↦[arg2.view.set]{Transfers.shareTokN fullShare 8} f) ∗ (arg2.view.loc (c : Thread nD τ) ↦[arg2.view.set]{Transfers.shareTokN fullShare 9} f) ∗ (arg2.view.loc (c : Thread nD τ) ↦[arg2.view.set]{Transfers.shareTokN fullShare 10} f) ∗ (arg2.view.loc (c : Thread nD τ) ↦[arg2.view.set]{Transfers.shareTokN fullShare 11} f) ∗ (arg2.view.loc (c : Thread nD τ) ↦[arg2.view.set]{Transfers.shareTokN fullShare 12} f) ∗ (arg2.view.loc (c : Thread nD τ) ↦[arg2.view.set]{Transfers.shareTokN fullShare 13} f) ∗ (arg2.view.loc (c : Thread nD τ) ↦[arg2.view.set]{Transfers.shareTokN fullShare 14} f) ∗ (arg2.view.loc (c : Thread nD τ) ↦[arg2.view.set]{Transfers.shareTokN fullShare 15} f) ∗ (arg2.view.loc (c : Thread nD τ) ↦[arg2.view.set]{Transfers.shareTokN fullShare 16} f) ∗ (arg2.view.loc (c : Thread nD τ) ↦[arg2.view.set]{Transfers.shareTokN fullShare 17} f) ∗ (arg2.view.loc (c : Thread nD τ) ↦[arg2.view.set]{Transfers.shareTokN fullShare 18} f) ∗ (arg2.view.loc (c : Thread nD τ) ↦[arg2.view.set]{Transfers.shareTokN fullShare 19} f) ∗ (arg2.view.loc (c : Thread nD τ) ↦[arg2.view.set]{Transfers.shareTokN fullShare 20} f) ∗ (arg2.view.loc (c : Thread nD τ) ↦[arg2.view.set]{Transfers.shareTokN fullShare 21} f) ∗ (arg2.view.loc (c : Thread nD τ) ↦[arg2.view.set]{Transfers.shareTokN fullShare 22} f) ∗ (arg2.view.loc (c : Thread nD τ) ↦[arg2.view.set]{Transfers.shareTokN fullShare 23} f) ∗ (arg2.view.loc (c : Thread nD τ) ↦[arg2.view.set]{Transfers.shareTokN fullShare 24} f) ∗ (arg2.view.loc (c : Thread nD τ) ↦[arg2.view.set]{Transfers.shareTokN fullShare 25} f) ∗ (arg2.view.loc (c : Thread nD τ) ↦[arg2.view.set]{Transfers.shareTokN fullShare 26} f) ∗ (arg2.view.loc (c : Thread nD τ) ↦[arg2.view.set]{Transfers.shareTokN fullShare 27} f) ∗ (arg2.view.loc (c : Thread nD τ) ↦[arg2.view.set]{Transfers.shareTokN fullShare 28} f) ∗ (arg2.view.loc (c : Thread nD τ) ↦[arg2.view.set]{Transfers.shareTokN fullShare 29} f) ∗ (arg2.view.loc (c : Thread nD τ) ↦[arg2.view.set]{Transfers.shareTokN fullShare 30} f) ∗ (arg2.view.loc (c : Thread nD τ) ↦[arg2.view.set]{Transfers.shareTokN fullShare 31} f) ∗ (arg2.view.loc (c : Thread nD τ) ↦[arg2.view.set]{Transfers.shareTokN fullShare 32} f) ∗ (arg2.view.loc (c : Thread nD τ) ↦[arg2.view.set]{Transfers.shareTokN fullShare 33} f) ∗ (arg2.view.loc (c : Thread nD τ) ↦[arg2.view.set]{Transfers.shareTokN fullShare 34} f) ∗ (arg2.view.loc (c : Thread nD τ) ↦[arg2.view.set]{Transfers.shareTokN fullShare 35} f) ∗ (arg2.view.loc (c : Thread nD τ) ↦[arg2.view.set]{Transfers.shareTokN fullShare 36} f) ∗ (arg2.view.loc (c : Thread nD τ) ↦[arg2.view.set]{Transfers.shareTokN fullShare 37} f) ∗ (arg2.view.loc (c : Thread nD τ) ↦[arg2.view.set]{Transfers.shareTokN fullShare 38} f) ∗ (arg2.view.loc (c : Thread nD τ) ↦[arg2.view.set]{Transfers.shareTokN fullShare 39} f) ∗ (arg2.view.loc (c : Thread nD τ) ↦[arg2.view.set]{Transfers.shareTokN fullShare 40} f) ∗ (arg2.view.loc (c : Thread nD τ) ↦[arg2.view.set]{Transfers.shareTokN fullShare 41} f) ∗ (arg2.view.loc (c : Thread nD τ) ↦[arg2.view.set]{Transfers.shareTokN fullShare 42} f) ∗ (arg2.view.loc (c : Thread nD τ) ↦[arg2.view.set]{Transfers.shareTokN fullShare 43} f) ∗ (arg2.view.loc (c : Thread nD τ) ↦[arg2.view.set]{Transfers.shareTokN fullShare 44} f) ∗ (arg2.view.loc (c : Thread nD τ) ↦[arg2.view.set]{Transfers.shareTokN fullShare 45} f) ∗ (arg2.view.loc (c : Thread nD τ) ↦[arg2.view.set]{Transfers.shareTokN fullShare 46} f) ∗ (arg2.view.loc (c : Thread nD τ) ↦[arg2.view.set]{Transfers.shareTokN fullShare 47} f) ∗ (arg2.view.loc (c : Thread nD τ) ↦[arg2.view.set]{Transfers.shareTokN fullShare 48} f) ∗ (arg2.view.loc (c : Thread nD τ) ↦[arg2.view.set]{Transfers.shareTokN fullShare 49} f)) : sProp 𝕄) ⊢ (arg2.view.loc (c : Thread nD τ) ↦[arg2.view.set]{fullShare} f) :=
  (show _ ⊢ _ from Entails.of_eq (by rw [BI.bigSep_eq_bigSepL_of_eq (List.range 50) (by decide) (by decide)]; rfl)).trans
    (Transfers.pointsTo_toks_range (Ix := Unit) (Name := ℕ) (U := Pipeline.UD sig nD τ) (Lvl := ℕ) fullShare 50).2

end Cert.KernelIdeal.Gen

end
-- ==== Proof.WindowBlock.lean ====
/-
  The output block read whole, from its rows.

  The kernel's output block is [46, 3, 16, 1000]; row w of its leading axis is written by the transfer of window w,
  whose source is the rectangle of the input row [1, 3, 16, 10000] at (0, 0, 0, 200·w) of extent [1, 3, 16, 1000],
  its unit axis dropped. A rectangle of unit strides at offset o, its leading unit axis dropped, places its index
  (a, b, j) at the parent's index o + (0, a, b, j). So row w of the block at (a, b, j) is the block at (w, a, b, j), and
  window w of the input row at (a, b, j) is the input row at (0, a, b, 200·w + j). Hence a block whose row w reads
  window w of the input row, for every w, reads at (w, a, b, j) the input row's element (0, a, b, 200·w + j).
-/
import proofs.«108043_j57037165691079_2_alg».proof.Proof.WindowRows
import Idealize.ShloMosaic.Lib.ValueIdx
import Idealize.ShloMosaic.Lib.ValueLayout

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

/-- Window `w` of the input row starts at `(0, 0, 0, 200·w)`. -/
def winOff (w : Fin 46) : Fin 4 → ℕ := ![0, 0, 0, 200 * w.val]

theorem winOff_inb (w : Fin 46) : ∀ a, winOff w a + S1x3x16x1000.size a ≤ S1x3x16x10000.size a := by
  intro a
  have hw := w.isLt
  fin_cases a <;> simp [winOff] <;> omega

/-- The source memref of window `w`: the window sliced out of the input row and its unit axis dropped. -/
def srcM (arg2 : Memref sig .tc .vmem S1x3x16x10000 .f32) (w : Fin 46) : Memref sig .tc .vmem S3x16x1000 .f32 :=
  (arg2.slice (Rect.unit (s := S1x3x16x10000) (winOff w) S1x3x16x1000.size (winOff_inb w)) (fun _ => rfl)).squeeze S3x16x1000 squeezes_S1x3x16x1000_S3x16x1000

/-- What the transfer of window `w` moves: the window read off the input row's contents. -/
def winPay (arg2 : Memref sig .tc .vmem S1x3x16x10000 .f32) (harg2 : arg2.IsWhole) (x0 : Vec F S1x3x16x10000 .f32) (w : Fin 46) :
    S3x16x1000.Idx → Elt F .f32 :=
  (ReadAs.same : ReadAs (Elt F) S3x16x1000 .f32 S3x16x1000 .f32).apply ((srcM arg2 w).view.read (Elt F) (harg2.unread x0))

/-- Element `(w, a, b, j)` of the output block comes from element `(0, a, b, 200·w + j)` of the input row. -/
def blockIdx (y : S46x3x16x1000.Idx) : S1x3x16x10000.Idx := fun a => match a with
  | ⟨0, _⟩ => ⟨0, Nat.one_pos⟩
  | ⟨1, _⟩ => ⟨(y 1).val, (y 1).isLt⟩
  | ⟨2, _⟩ => ⟨(y 2).val, (y 2).isLt⟩
  | ⟨3, _⟩ => ⟨200 * (y 0).val + (y 3).val, by
      have h0 : (y 0).val < 46 := (y 0).isLt
      have h3 : (y 3).val < 1000 := (y 3).isLt
      show 200 * (y 0).val + (y 3).val < 10000; omega⟩

/-- The block the forty-six windows of the input row `x0` make up. -/
def blockOf (x0 : Vec F S1x3x16x10000 .f32) : Vec F S46x3x16x1000 .f32 := fun y => x0 (blockIdx y)

/-- Row `w` of the block places `(a, b, j)` at the block's `(w, a, b, j)`. -/
theorem rowM_emb (arg3 : Memref sig .tc .vmem S46x3x16x1000 .f32) (w : Fin 46) (a : Fin 3) (b : Fin 16) (j : Fin 1000) :
    (rowM arg3 w).view.emb (ix3 a b j) = arg3.view.emb (ix4 w a b j) := by
  show arg3.view.emb ((rowRect w).emb (Shape.reshapeEquiv _ (ix3 a b j))) = _
  refine congrArg arg3.view.emb ?_
  refine (congrArg (rowRect w).emb (reshapeEquiv_ix3_1abc _ a b j)).trans ?_
  funext q
  refine Fin.ext ?_
  match q with
  | ⟨0, _⟩ => show rowOff w 0 + 1 * 0 = w.val; simp [rowOff]
  | ⟨1, _⟩ => show rowOff w 1 + 1 * a.val = a.val; simp [rowOff]
  | ⟨2, _⟩ => show rowOff w 2 + 1 * b.val = b.val; simp [rowOff]
  | ⟨3, _⟩ => show rowOff w 3 + 1 * j.val = j.val; simp [rowOff]

/-- Window `w` of the input row places `(a, b, j)` at the row's `(0, a, b, 200·w + j)`. -/
theorem srcM_emb (arg2 : Memref sig .tc .vmem S1x3x16x10000 .f32) (w : Fin 46) (a : Fin 3) (b : Fin 16) (j : Fin 1000)
    (hj : 200 * w.val + j.val < 10000) :
    (srcM arg2 w).view.emb (ix3 a b j)
      = arg2.view.emb (ix4 (⟨0, Nat.one_pos⟩ : Fin 1) a b (⟨200 * w.val + j.val, hj⟩ : Fin 10000)) := by
  show arg2.view.emb ((Rect.unit (s := S1x3x16x10000) (winOff w) S1x3x16x1000.size (winOff_inb w)).emb
    (Shape.reshapeEquiv _ (ix3 a b j))) = _
  refine congrArg arg2.view.emb ?_
  refine (congrArg (Rect.unit (s := S1x3x16x10000) (winOff w) S1x3x16x1000.size (winOff_inb w)).emb
    (reshapeEquiv_ix3_1abc _ a b j)).trans ?_
  funext q
  refine Fin.ext ?_
  match q with
  | ⟨0, _⟩ => show winOff w 0 + 1 * 0 = 0; simp [winOff]
  | ⟨1, _⟩ => show winOff w 1 + 1 * a.val = a.val; simp [winOff]
  | ⟨2, _⟩ => show winOff w 2 + 1 * b.val = b.val; simp [winOff]
  | ⟨3, _⟩ => show winOff w 3 + 1 * j.val = 200 * w.val + j.val; simp [winOff]

/-- Row `w` of the block reads at `(a, b, j)` what the block reads at `(w, a, b, j)`. -/
theorem rowM_read (arg3 : Memref sig .tc .vmem S46x3x16x1000 .f32) (g : arg3.view.ty.Contents (Elt F))
    (w : Fin 46) (a : Fin 3) (b : Fin 16) (j : Fin 1000) :
    (rowM arg3 w).view.read (Elt F) g (ix3 a b j) = arg3.view.read (Elt F) g (ix4 w a b j) := by
  exact congrArg (fun z : arg3.view.ty.Idx => _root_.cast (congrArg (Elt F) arg3.view.elt_eq) (g z))
    (rowM_emb arg3 w a b j)

/-- Window `w` of the input row reads at `(a, b, j)` what the row reads at `(0, a, b, 200·w + j)`. -/
theorem srcM_read (arg2 : Memref sig .tc .vmem S1x3x16x10000 .f32) (f : arg2.view.ty.Contents (Elt F))
    (w : Fin 46) (a : Fin 3) (b : Fin 16) (j : Fin 1000) (hj : 200 * w.val + j.val < 10000) :
    (srcM arg2 w).view.read (Elt F) f (ix3 a b j)
      = arg2.view.read (Elt F) f (ix4 (⟨0, Nat.one_pos⟩ : Fin 1) a b (⟨200 * w.val + j.val, hj⟩ : Fin 10000)) := by
  exact congrArg (fun z : arg2.view.ty.Idx => _root_.cast (congrArg (Elt F) arg2.view.elt_eq) (f z))
    (srcM_emb arg2 w a b j hj)

/-- A block whose every row `w` reads window `w` of the input row reads the block the windows make up. -/
theorem block_read (arg2 : Memref sig .tc .vmem S1x3x16x10000 .f32) (harg2 : arg2.IsWhole)
    (arg3 : Memref sig .tc .vmem S46x3x16x1000 .f32)
    (x0 : Vec F S1x3x16x10000 .f32) (g : arg3.view.ty.Contents (Elt F))
    (hg : ∀ w : Fin 46, (rowM arg3 w).view.read (Elt F) g = winPay arg2 harg2 x0 w) :
    arg3.view.read (Elt F) g = blockOf x0 := by
  funext y
  have h0 : (y 0).val < 46 := (y 0).isLt
  have h3 : (y 3).val < 1000 := (y 3).isLt
  have hj : 200 * (y 0).val + (y 3).val < 10000 := by omega
  rw [show arg3.view.read (Elt F) g y = arg3.view.read (Elt F) g (ix4 (y 0) (y 1) (y 2) (y 3))
    from congrArg _ (eq_ix4 y)]
  rw [← rowM_read arg3 g (y 0) (y 1) (y 2) (y 3), hg (y 0)]
  unfold winPay
  rw [ReadAs.apply_same, srcM_read arg2 _ (y 0) (y 1) (y 2) (y 3) hj, Memref.IsWhole.read_unread]
  unfold blockOf
  refine congrArg x0 ?_
  funext q
  match q with
  | ⟨0, _⟩ => rfl
  | ⟨1, _⟩ => rfl
  | ⟨2, _⟩ => rfl
  | ⟨3, _⟩ => rfl

end Cert.KernelIdeal.Gen

end
-- ==== Proof.WindowCopies.lean ====
/-
  The kernel body, run. At a grid point the body starts forty-six copies — copy `w` from window `w` of the input
  row's staging buffer (positions `200·w … 200·w + 999` of its last axis) to row `w` of the output block's staging
  buffer, completing on cell `w` of the kernel's own semaphore array — and then waits for each in turn. The windows
  overlap, so the input row is lent to the copies as read shares, one per cell; the rows are disjoint, so each copy is
  lent the row it writes. After the last wait every share and every row is back: the input row is as it was and the
  output block reads, at `(w, a, b, j)`, the input row's `(0, a, b, 200·w + j)`.
-/
import proofs.«108043_j57037165691079_2_alg».proof.Proof.WindowBlock

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The forty-six rows, each written with its window, are the block held whole at the windows of the input row. -/
theorem rows_owns (c : Dev nD) (arg2 : Memref sig .tc .vmem S1x3x16x10000 .f32) (harg2 : arg2.IsWhole) (arg3 : Memref sig .tc .vmem S46x3x16x1000 .f32)
    (x0 : Vec F S1x3x16x10000 .f32) (f1 : Buf (Elt F) (arg3.view.loc (c : Thread nD τ))) :
    (iprop((((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.loc (c : Thread nD τ) ↦[((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.set]{fullShare} ((arg3.slice (Rect.unit (s := S46x3x16x1000) ![0, 0, 0, 0] S1x3x16x1000.size inb_S46x3x16x1000_S1x3x16x1000_0_0_0_0) (fun _ => rfl)).squeeze S3x16x1000 squeezes_S1x3x16x1000_S3x16x1000).view.writes (Elt F) f1 [⟨Rect.whole S3x16x1000, winPay arg2 harg2 x0 0⟩])
        ∗ (((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.loc (c : Thread nD τ) ↦[((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.set]{fullShare} ((arg3.slice (Rect.unit (s := S46x3x16x1000) ![1, 0, 0, 0] S1x3x16x1000.size inb_S46x3x16x1000_S1x3x16x1000_1_0_0_0) (fun _ => rfl)).squeeze S3x16x1000 squeezes_S1x3x16x1000_S3x16x1000).view.writes (Elt F) f1 [⟨Rect.whole S3x16x1000, winPay arg2 harg2 x0 1⟩])
        ∗ (((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.loc (c : Thread nD τ) ↦[((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.set]{fullShare} ((arg3.slice (Rect.unit (s := S46x3x16x1000) ![2, 0, 0, 0] S1x3x16x1000.size inb_S46x3x16x1000_S1x3x16x1000_2_0_0_0) (fun _ => rfl)).squeeze S3x16x1000 squeezes_S1x3x16x1000_S3x16x1000).view.writes (Elt F) f1 [⟨Rect.whole S3x16x1000, winPay arg2 harg2 x0 2⟩])
        ∗ (((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.loc (c : Thread nD τ) ↦[((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.set]{fullShare} ((arg3.slice (Rect.unit (s := S46x3x16x1000) ![3, 0, 0, 0] S1x3x16x1000.size inb_S46x3x16x1000_S1x3x16x1000_3_0_0_0) (fun _ => rfl)).squeeze S3x16x1000 squeezes_S1x3x16x1000_S3x16x1000).view.writes (Elt F) f1 [⟨Rect.whole S3x16x1000, winPay arg2 harg2 x0 3⟩])
        ∗ (((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.loc (c : Thread nD τ) ↦[((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.set]{fullShare} ((arg3.slice (Rect.unit (s := S46x3x16x1000) ![4, 0, 0, 0] S1x3x16x1000.size inb_S46x3x16x1000_S1x3x16x1000_4_0_0_0) (fun _ => rfl)).squeeze S3x16x1000 squeezes_S1x3x16x1000_S3x16x1000).view.writes (Elt F) f1 [⟨Rect.whole S3x16x1000, winPay arg2 harg2 x0 4⟩])
        ∗ (((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.loc (c : Thread nD τ) ↦[((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.set]{fullShare} ((arg3.slice (Rect.unit (s := S46x3x16x1000) ![5, 0, 0, 0] S1x3x16x1000.size inb_S46x3x16x1000_S1x3x16x1000_5_0_0_0) (fun _ => rfl)).squeeze S3x16x1000 squeezes_S1x3x16x1000_S3x16x1000).view.writes (Elt F) f1 [⟨Rect.whole S3x16x1000, winPay arg2 harg2 x0 5⟩])
        ∗ (((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.loc (c : Thread nD τ) ↦[((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.set]{fullShare} ((arg3.slice (Rect.unit (s := S46x3x16x1000) ![6, 0, 0, 0] S1x3x16x1000.size inb_S46x3x16x1000_S1x3x16x1000_6_0_0_0) (fun _ => rfl)).squeeze S3x16x1000 squeezes_S1x3x16x1000_S3x16x1000).view.writes (Elt F) f1 [⟨Rect.whole S3x16x1000, winPay arg2 harg2 x0 6⟩])
        ∗ (((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.loc (c : Thread nD τ) ↦[((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.set]{fullShare} ((arg3.slice (Rect.unit (s := S46x3x16x1000) ![7, 0, 0, 0] S1x3x16x1000.size inb_S46x3x16x1000_S1x3x16x1000_7_0_0_0) (fun _ => rfl)).squeeze S3x16x1000 squeezes_S1x3x16x1000_S3x16x1000).view.writes (Elt F) f1 [⟨Rect.whole S3x16x1000, winPay arg2 harg2 x0 7⟩])
        ∗ (((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.loc (c : Thread nD τ) ↦[((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.set]{fullShare} ((arg3.slice (Rect.unit (s := S46x3x16x1000) ![8, 0, 0, 0] S1x3x16x1000.size inb_S46x3x16x1000_S1x3x16x1000_8_0_0_0) (fun _ => rfl)).squeeze S3x16x1000 squeezes_S1x3x16x1000_S3x16x1000).view.writes (Elt F) f1 [⟨Rect.whole S3x16x1000, winPay arg2 harg2 x0 8⟩])
        ∗ (((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.loc (c : Thread nD τ) ↦[((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.set]{fullShare} ((arg3.slice (Rect.unit (s := S46x3x16x1000) ![9, 0, 0, 0] S1x3x16x1000.size inb_S46x3x16x1000_S1x3x16x1000_9_0_0_0) (fun _ => rfl)).squeeze S3x16x1000 squeezes_S1x3x16x1000_S3x16x1000).view.writes (Elt F) f1 [⟨Rect.whole S3x16x1000, winPay arg2 harg2 x0 9⟩])
        ∗ (((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.loc (c : Thread nD τ) ↦[((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.set]{fullShare} ((arg3.slice (Rect.unit (s := S46x3x16x1000) ![10, 0, 0, 0] S1x3x16x1000.size inb_S46x3x16x1000_S1x3x16x1000_10_0_0_0) (fun _ => rfl)).squeeze S3x16x1000 squeezes_S1x3x16x1000_S3x16x1000).view.writes (Elt F) f1 [⟨Rect.whole S3x16x1000, winPay arg2 harg2 x0 10⟩])
        ∗ (((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.loc (c : Thread nD τ) ↦[((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.set]{fullShare} ((arg3.slice (Rect.unit (s := S46x3x16x1000) ![11, 0, 0, 0] S1x3x16x1000.size inb_S46x3x16x1000_S1x3x16x1000_11_0_0_0) (fun _ => rfl)).squeeze S3x16x1000 squeezes_S1x3x16x1000_S3x16x1000).view.writes (Elt F) f1 [⟨Rect.whole S3x16x1000, winPay arg2 harg2 x0 11⟩])
        ∗ (((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.loc (c : Thread nD τ) ↦[((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.set]{fullShare} ((arg3.slice (Rect.unit (s := S46x3x16x1000) ![12, 0, 0, 0] S1x3x16x1000.size inb_S46x3x16x1000_S1x3x16x1000_12_0_0_0) (fun _ => rfl)).squeeze S3x16x1000 squeezes_S1x3x16x1000_S3x16x1000).view.writes (Elt F) f1 [⟨Rect.whole S3x16x1000, winPay arg2 harg2 x0 12⟩])
        ∗ (((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.loc (c : Thread nD τ) ↦[((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.set]{fullShare} ((arg3.slice (Rect.unit (s := S46x3x16x1000) ![13, 0, 0, 0] S1x3x16x1000.size inb_S46x3x16x1000_S1x3x16x1000_13_0_0_0) (fun _ => rfl)).squeeze S3x16x1000 squeezes_S1x3x16x1000_S3x16x1000).view.writes (Elt F) f1 [⟨Rect.whole S3x16x1000, winPay arg2 harg2 x0 13⟩])
        ∗ (((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.loc (c : Thread nD τ) ↦[((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.set]{fullShare} ((arg3.slice (Rect.unit (s := S46x3x16x1000) ![14, 0, 0, 0] S1x3x16x1000.size inb_S46x3x16x1000_S1x3x16x1000_14_0_0_0) (fun _ => rfl)).squeeze S3x16x1000 squeezes_S1x3x16x1000_S3x16x1000).view.writes (Elt F) f1 [⟨Rect.whole S3x16x1000, winPay arg2 harg2 x0 14⟩])
        ∗ (((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.loc (c : Thread nD τ) ↦[((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.set]{fullShare} ((arg3.slice (Rect.unit (s := S46x3x16x1000) ![15, 0, 0, 0] S1x3x16x1000.size inb_S46x3x16x1000_S1x3x16x1000_15_0_0_0) (fun _ => rfl)).squeeze S3x16x1000 squeezes_S1x3x16x1000_S3x16x1000).view.writes (Elt F) f1 [⟨Rect.whole S3x16x1000, winPay arg2 harg2 x0 15⟩])
        ∗ (((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.loc (c : Thread nD τ) ↦[((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.set]{fullShare} ((arg3.slice (Rect.unit (s := S46x3x16x1000) ![16, 0, 0, 0] S1x3x16x1000.size inb_S46x3x16x1000_S1x3x16x1000_16_0_0_0) (fun _ => rfl)).squeeze S3x16x1000 squeezes_S1x3x16x1000_S3x16x1000).view.writes (Elt F) f1 [⟨Rect.whole S3x16x1000, winPay arg2 harg2 x0 16⟩])
        ∗ (((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.loc (c : Thread nD τ) ↦[((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.set]{fullShare} ((arg3.slice (Rect.unit (s := S46x3x16x1000) ![17, 0, 0, 0] S1x3x16x1000.size inb_S46x3x16x1000_S1x3x16x1000_17_0_0_0) (fun _ => rfl)).squeeze S3x16x1000 squeezes_S1x3x16x1000_S3x16x1000).view.writes (Elt F) f1 [⟨Rect.whole S3x16x1000, winPay arg2 harg2 x0 17⟩])
        ∗ (((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.loc (c : Thread nD τ) ↦[((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.set]{fullShare} ((arg3.slice (Rect.unit (s := S46x3x16x1000) ![18, 0, 0, 0] S1x3x16x1000.size inb_S46x3x16x1000_S1x3x16x1000_18_0_0_0) (fun _ => rfl)).squeeze S3x16x1000 squeezes_S1x3x16x1000_S3x16x1000).view.writes (Elt F) f1 [⟨Rect.whole S3x16x1000, winPay arg2 harg2 x0 18⟩])
        ∗ (((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.loc (c : Thread nD τ) ↦[((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.set]{fullShare} ((arg3.slice (Rect.unit (s := S46x3x16x1000) ![19, 0, 0, 0] S1x3x16x1000.size inb_S46x3x16x1000_S1x3x16x1000_19_0_0_0) (fun _ => rfl)).squeeze S3x16x1000 squeezes_S1x3x16x1000_S3x16x1000).view.writes (Elt F) f1 [⟨Rect.whole S3x16x1000, winPay arg2 harg2 x0 19⟩])
        ∗ (((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.loc (c : Thread nD τ) ↦[((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.set]{fullShare} ((arg3.slice (Rect.unit (s := S46x3x16x1000) ![20, 0, 0, 0] S1x3x16x1000.size inb_S46x3x16x1000_S1x3x16x1000_20_0_0_0) (fun _ => rfl)).squeeze S3x16x1000 squeezes_S1x3x16x1000_S3x16x1000).view.writes (Elt F) f1 [⟨Rect.whole S3x16x1000, winPay arg2 harg2 x0 20⟩])
        ∗ (((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.loc (c : Thread nD τ) ↦[((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.set]{fullShare} ((arg3.slice (Rect.unit (s := S46x3x16x1000) ![21, 0, 0, 0] S1x3x16x1000.size inb_S46x3x16x1000_S1x3x16x1000_21_0_0_0) (fun _ => rfl)).squeeze S3x16x1000 squeezes_S1x3x16x1000_S3x16x1000).view.writes (Elt F) f1 [⟨Rect.whole S3x16x1000, winPay arg2 harg2 x0 21⟩])
        ∗ (((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.loc (c : Thread nD τ) ↦[((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.set]{fullShare} ((arg3.slice (Rect.unit (s := S46x3x16x1000) ![22, 0, 0, 0] S1x3x16x1000.size inb_S46x3x16x1000_S1x3x16x1000_22_0_0_0) (fun _ => rfl)).squeeze S3x16x1000 squeezes_S1x3x16x1000_S3x16x1000).view.writes (Elt F) f1 [⟨Rect.whole S3x16x1000, winPay arg2 harg2 x0 22⟩])
        ∗ (((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.loc (c : Thread nD τ) ↦[((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.set]{fullShare} ((arg3.slice (Rect.unit (s := S46x3x16x1000) ![23, 0, 0, 0] S1x3x16x1000.size inb_S46x3x16x1000_S1x3x16x1000_23_0_0_0) (fun _ => rfl)).squeeze S3x16x1000 squeezes_S1x3x16x1000_S3x16x1000).view.writes (Elt F) f1 [⟨Rect.whole S3x16x1000, winPay arg2 harg2 x0 23⟩])
        ∗ (((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.loc (c : Thread nD τ) ↦[((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.set]{fullShare} ((arg3.slice (Rect.unit (s := S46x3x16x1000) ![24, 0, 0, 0] S1x3x16x1000.size inb_S46x3x16x1000_S1x3x16x1000_24_0_0_0) (fun _ => rfl)).squeeze S3x16x1000 squeezes_S1x3x16x1000_S3x16x1000).view.writes (Elt F) f1 [⟨Rect.whole S3x16x1000, winPay arg2 harg2 x0 24⟩])
        ∗ (((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.loc (c : Thread nD τ) ↦[((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.set]{fullShare} ((arg3.slice (Rect.unit (s := S46x3x16x1000) ![25, 0, 0, 0] S1x3x16x1000.size inb_S46x3x16x1000_S1x3x16x1000_25_0_0_0) (fun _ => rfl)).squeeze S3x16x1000 squeezes_S1x3x16x1000_S3x16x1000).view.writes (Elt F) f1 [⟨Rect.whole S3x16x1000, winPay arg2 harg2 x0 25⟩])
        ∗ (((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.loc (c : Thread nD τ) ↦[((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.set]{fullShare} ((arg3.slice (Rect.unit (s := S46x3x16x1000) ![26, 0, 0, 0] S1x3x16x1000.size inb_S46x3x16x1000_S1x3x16x1000_26_0_0_0) (fun _ => rfl)).squeeze S3x16x1000 squeezes_S1x3x16x1000_S3x16x1000).view.writes (Elt F) f1 [⟨Rect.whole S3x16x1000, winPay arg2 harg2 x0 26⟩])
        ∗ (((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.loc (c : Thread nD τ) ↦[((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.set]{fullShare} ((arg3.slice (Rect.unit (s := S46x3x16x1000) ![27, 0, 0, 0] S1x3x16x1000.size inb_S46x3x16x1000_S1x3x16x1000_27_0_0_0) (fun _ => rfl)).squeeze S3x16x1000 squeezes_S1x3x16x1000_S3x16x1000).view.writes (Elt F) f1 [⟨Rect.whole S3x16x1000, winPay arg2 harg2 x0 27⟩])
        ∗ (((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.loc (c : Thread nD τ) ↦[((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.set]{fullShare} ((arg3.slice (Rect.unit (s := S46x3x16x1000) ![28, 0, 0, 0] S1x3x16x1000.size inb_S46x3x16x1000_S1x3x16x1000_28_0_0_0) (fun _ => rfl)).squeeze S3x16x1000 squeezes_S1x3x16x1000_S3x16x1000).view.writes (Elt F) f1 [⟨Rect.whole S3x16x1000, winPay arg2 harg2 x0 28⟩])
        ∗ (((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.loc (c : Thread nD τ) ↦[((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.set]{fullShare} ((arg3.slice (Rect.unit (s := S46x3x16x1000) ![29, 0, 0, 0] S1x3x16x1000.size inb_S46x3x16x1000_S1x3x16x1000_29_0_0_0) (fun _ => rfl)).squeeze S3x16x1000 squeezes_S1x3x16x1000_S3x16x1000).view.writes (Elt F) f1 [⟨Rect.whole S3x16x1000, winPay arg2 harg2 x0 29⟩])
        ∗ (((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.loc (c : Thread nD τ) ↦[((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.set]{fullShare} ((arg3.slice (Rect.unit (s := S46x3x16x1000) ![30, 0, 0, 0] S1x3x16x1000.size inb_S46x3x16x1000_S1x3x16x1000_30_0_0_0) (fun _ => rfl)).squeeze S3x16x1000 squeezes_S1x3x16x1000_S3x16x1000).view.writes (Elt F) f1 [⟨Rect.whole S3x16x1000, winPay arg2 harg2 x0 30⟩])
        ∗ (((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.loc (c : Thread nD τ) ↦[((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.set]{fullShare} ((arg3.slice (Rect.unit (s := S46x3x16x1000) ![31, 0, 0, 0] S1x3x16x1000.size inb_S46x3x16x1000_S1x3x16x1000_31_0_0_0) (fun _ => rfl)).squeeze S3x16x1000 squeezes_S1x3x16x1000_S3x16x1000).view.writes (Elt F) f1 [⟨Rect.whole S3x16x1000, winPay arg2 harg2 x0 31⟩])
        ∗ (((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.loc (c : Thread nD τ) ↦[((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.set]{fullShare} ((arg3.slice (Rect.unit (s := S46x3x16x1000) ![32, 0, 0, 0] S1x3x16x1000.size inb_S46x3x16x1000_S1x3x16x1000_32_0_0_0) (fun _ => rfl)).squeeze S3x16x1000 squeezes_S1x3x16x1000_S3x16x1000).view.writes (Elt F) f1 [⟨Rect.whole S3x16x1000, winPay arg2 harg2 x0 32⟩])
        ∗ (((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.loc (c : Thread nD τ) ↦[((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.set]{fullShare} ((arg3.slice (Rect.unit (s := S46x3x16x1000) ![33, 0, 0, 0] S1x3x16x1000.size inb_S46x3x16x1000_S1x3x16x1000_33_0_0_0) (fun _ => rfl)).squeeze S3x16x1000 squeezes_S1x3x16x1000_S3x16x1000).view.writes (Elt F) f1 [⟨Rect.whole S3x16x1000, winPay arg2 harg2 x0 33⟩])
        ∗ (((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.loc (c : Thread nD τ) ↦[((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.set]{fullShare} ((arg3.slice (Rect.unit (s := S46x3x16x1000) ![34, 0, 0, 0] S1x3x16x1000.size inb_S46x3x16x1000_S1x3x16x1000_34_0_0_0) (fun _ => rfl)).squeeze S3x16x1000 squeezes_S1x3x16x1000_S3x16x1000).view.writes (Elt F) f1 [⟨Rect.whole S3x16x1000, winPay arg2 harg2 x0 34⟩])
        ∗ (((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.loc (c : Thread nD τ) ↦[((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.set]{fullShare} ((arg3.slice (Rect.unit (s := S46x3x16x1000) ![35, 0, 0, 0] S1x3x16x1000.size inb_S46x3x16x1000_S1x3x16x1000_35_0_0_0) (fun _ => rfl)).squeeze S3x16x1000 squeezes_S1x3x16x1000_S3x16x1000).view.writes (Elt F) f1 [⟨Rect.whole S3x16x1000, winPay arg2 harg2 x0 35⟩])
        ∗ (((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.loc (c : Thread nD τ) ↦[((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.set]{fullShare} ((arg3.slice (Rect.unit (s := S46x3x16x1000) ![36, 0, 0, 0] S1x3x16x1000.size inb_S46x3x16x1000_S1x3x16x1000_36_0_0_0) (fun _ => rfl)).squeeze S3x16x1000 squeezes_S1x3x16x1000_S3x16x1000).view.writes (Elt F) f1 [⟨Rect.whole S3x16x1000, winPay arg2 harg2 x0 36⟩])
        ∗ (((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.loc (c : Thread nD τ) ↦[((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.set]{fullShare} ((arg3.slice (Rect.unit (s := S46x3x16x1000) ![37, 0, 0, 0] S1x3x16x1000.size inb_S46x3x16x1000_S1x3x16x1000_37_0_0_0) (fun _ => rfl)).squeeze S3x16x1000 squeezes_S1x3x16x1000_S3x16x1000).view.writes (Elt F) f1 [⟨Rect.whole S3x16x1000, winPay arg2 harg2 x0 37⟩])
        ∗ (((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.loc (c : Thread nD τ) ↦[((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.set]{fullShare} ((arg3.slice (Rect.unit (s := S46x3x16x1000) ![38, 0, 0, 0] S1x3x16x1000.size inb_S46x3x16x1000_S1x3x16x1000_38_0_0_0) (fun _ => rfl)).squeeze S3x16x1000 squeezes_S1x3x16x1000_S3x16x1000).view.writes (Elt F) f1 [⟨Rect.whole S3x16x1000, winPay arg2 harg2 x0 38⟩])
        ∗ (((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.loc (c : Thread nD τ) ↦[((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.set]{fullShare} ((arg3.slice (Rect.unit (s := S46x3x16x1000) ![39, 0, 0, 0] S1x3x16x1000.size inb_S46x3x16x1000_S1x3x16x1000_39_0_0_0) (fun _ => rfl)).squeeze S3x16x1000 squeezes_S1x3x16x1000_S3x16x1000).view.writes (Elt F) f1 [⟨Rect.whole S3x16x1000, winPay arg2 harg2 x0 39⟩])
        ∗ (((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.loc (c : Thread nD τ) ↦[((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.set]{fullShare} ((arg3.slice (Rect.unit (s := S46x3x16x1000) ![40, 0, 0, 0] S1x3x16x1000.size inb_S46x3x16x1000_S1x3x16x1000_40_0_0_0) (fun _ => rfl)).squeeze S3x16x1000 squeezes_S1x3x16x1000_S3x16x1000).view.writes (Elt F) f1 [⟨Rect.whole S3x16x1000, winPay arg2 harg2 x0 40⟩])
        ∗ (((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.loc (c : Thread nD τ) ↦[((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.set]{fullShare} ((arg3.slice (Rect.unit (s := S46x3x16x1000) ![41, 0, 0, 0] S1x3x16x1000.size inb_S46x3x16x1000_S1x3x16x1000_41_0_0_0) (fun _ => rfl)).squeeze S3x16x1000 squeezes_S1x3x16x1000_S3x16x1000).view.writes (Elt F) f1 [⟨Rect.whole S3x16x1000, winPay arg2 harg2 x0 41⟩])
        ∗ (((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.loc (c : Thread nD τ) ↦[((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.set]{fullShare} ((arg3.slice (Rect.unit (s := S46x3x16x1000) ![42, 0, 0, 0] S1x3x16x1000.size inb_S46x3x16x1000_S1x3x16x1000_42_0_0_0) (fun _ => rfl)).squeeze S3x16x1000 squeezes_S1x3x16x1000_S3x16x1000).view.writes (Elt F) f1 [⟨Rect.whole S3x16x1000, winPay arg2 harg2 x0 42⟩])
        ∗ (((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.loc (c : Thread nD τ) ↦[((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.set]{fullShare} ((arg3.slice (Rect.unit (s := S46x3x16x1000) ![43, 0, 0, 0] S1x3x16x1000.size inb_S46x3x16x1000_S1x3x16x1000_43_0_0_0) (fun _ => rfl)).squeeze S3x16x1000 squeezes_S1x3x16x1000_S3x16x1000).view.writes (Elt F) f1 [⟨Rect.whole S3x16x1000, winPay arg2 harg2 x0 43⟩])
        ∗ (((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.loc (c : Thread nD τ) ↦[((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.set]{fullShare} ((arg3.slice (Rect.unit (s := S46x3x16x1000) ![44, 0, 0, 0] S1x3x16x1000.size inb_S46x3x16x1000_S1x3x16x1000_44_0_0_0) (fun _ => rfl)).squeeze S3x16x1000 squeezes_S1x3x16x1000_S3x16x1000).view.writes (Elt F) f1 [⟨Rect.whole S3x16x1000, winPay arg2 harg2 x0 44⟩])
        ∗ (((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.loc (c : Thread nD τ) ↦[((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.set]{fullShare} ((arg3.slice (Rect.unit (s := S46x3x16x1000) ![45, 0, 0, 0] S1x3x16x1000.size inb_S46x3x16x1000_S1x3x16x1000_45_0_0_0) (fun _ => rfl)).squeeze S3x16x1000 squeezes_S1x3x16x1000_S3x16x1000).view.writes (Elt F) f1 [⟨Rect.whole S3x16x1000, winPay arg2 harg2 x0 45⟩])) : sProp 𝕄)
      ⊢ iprop(∃ f, ⌜arg3.view.read (Elt F) f = blockOf x0⌝ ∗ arg3.view.loc (c : Thread nD τ) ↦[arg3.view.set]{fullShare} f) := by
  refine (rows_join c arg3 f1 (winPay arg2 harg2 x0)).trans ?_
  iintro ⟨%g, %hg, H⟩
  iexists g
  isplitr
  · ipureintro; exact block_read arg2 harg2 arg3 x0 g hg
  · iexact H

set_option maxHeartbeats 4000000 in
/-- The kernel body on whole staging memrefs: from the input row at `x0`, the output block at anything, the forty-six
    cells at zero and the core's record of waits, it runs to the end with the input row as it was, the output block
    at the forty-six windows of `x0`, the cells at zero again and the waits recorded. Each transfer borrows the read
    share its cell's number names and the row of the block it writes; its wait gives both back. -/
theorem windows_run (c : Dev nD) (i : grid0.Coords) (arg2 : Memref sig .tc .vmem S1x3x16x10000 .f32) (harg2 : arg2.IsWhole) (arg3 : Memref sig .tc .vmem S46x3x16x1000 .f32) (harg3 : arg3.IsWhole)
    (x0 : Vec F S1x3x16x10000 .f32) (W : Waits sig Unit) (K : PUnit → sProp 𝕄) :
        iprop(owns (c : Thread nD τ) arg2 fullShare x0 ∗ (∃ d, owns (c : Thread nD τ) arg3 fullShare d) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ owes (c : Thread nD τ) 0 W
            ∗ (iprop(owns (c : Thread nD τ) arg2 fullShare x0 ∗ owns (c : Thread nD τ) arg3 fullShare (blockOf x0) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ (∃ W', owes (c : Thread nD τ) 0 W')) -∗ K ⟨⟩))
          ⊢ wp frame (wpE (defs₀ (F := F)) Variants.none c none) Set.univ (cc0__windows_kernel i arg2 harg2 arg3 harg3 cc0_scratch0) K := by
    simp only [cc0__windows_kernel_eq_skeleton]; unfold cc0__windows_kernel_skel
    unfold owns
    iintro ⟨⟨%f0, %hf0, H0⟩, ⟨%d1, %f1, -, H1⟩, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, HW, Hk⟩
    obtain rfl := harg2.eq_unread hf0
    ihave HT := (toks_split c arg2 (harg2.unread x0)) $$ H0
    icases HT with ⟨HR, T0, T1, T2, T3, T4, T5, T6, T7, T8, T9, T10, T11, T12, T13, T14, T15, T16, T17, T18, T19, T20, T21, T22, T23, T24, T25, T26, T27, T28, T29, T30, T31, T32, T33, T34, T35, T36, T37, T38, T39, T40, T41, T42, T43, T44, T45, T46, T47, T48, T49⟩
    ihave HD := (rows_split c arg3 f1) $$ H1
    icases HD with ⟨D0, D1, D2, D3, D4, D5, D6, D7, D8, D9, D10, D11, D12, D13, D14, D15, D16, D17, D18, D19, D20, D21, D22, D23, D24, D25, D26, D27, D28, D29, D30, D31, D32, D33, D34, D35, D36, D37, D38, D39, D40, D41, D42, D43, D44, D45⟩
    sl_exec
    sl_step
    iapply Hk
    isplitl [HR T0 T1 T2 T3 T4 T5 T6 T7 T8 T9 T10 T11 T12 T13 T14 T15 T16 T17 T18 T19 T20 T21 T22 T23 T24 T25 T26 T27 T28 T29 T30 T31 T32 T33 T34 T35 T36 T37 T38 T39 T40 T41 T42 T43 T44 T45 T46 T47 T48 T49]
    · iexists _; isplitr; · ipureintro; exact harg2.read_unread _
      iapply (toks_join c arg2 (harg2.unread x0))
      isplitl [HR]; · iexact HR
      isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      isplitl [T8]; · iexact T8
      isplitl [T9]; · iexact T9
      isplitl [T10]; · iexact T10
      isplitl [T11]; · iexact T11
      isplitl [T12]; · iexact T12
      isplitl [T13]; · iexact T13
      isplitl [T14]; · iexact T14
      isplitl [T15]; · iexact T15
      isplitl [T16]; · iexact T16
      isplitl [T17]; · iexact T17
      isplitl [T18]; · iexact T18
      isplitl [T19]; · iexact T19
      isplitl [T20]; · iexact T20
      isplitl [T21]; · iexact T21
      isplitl [T22]; · iexact T22
      isplitl [T23]; · iexact T23
      isplitl [T24]; · iexact T24
      isplitl [T25]; · iexact T25
      isplitl [T26]; · iexact T26
      isplitl [T27]; · iexact T27
      isplitl [T28]; · iexact T28
      isplitl [T29]; · iexact T29
      isplitl [T30]; · iexact T30
      isplitl [T31]; · iexact T31
      isplitl [T32]; · iexact T32
      isplitl [T33]; · iexact T33
      isplitl [T34]; · iexact T34
      isplitl [T35]; · iexact T35
      isplitl [T36]; · iexact T36
      isplitl [T37]; · iexact T37
      isplitl [T38]; · iexact T38
      isplitl [T39]; · iexact T39
      isplitl [T40]; · iexact T40
      isplitl [T41]; · iexact T41
      isplitl [T42]; · iexact T42
      isplitl [T43]; · iexact T43
      isplitl [T44]; · iexact T44
      isplitl [T45]; · iexact T45
      isplitl [T46]; · iexact T46
      isplitl [T47]; · iexact T47
      isplitl [T48]; · iexact T48
      iexact T49
    isplitl [D0 D1 D2 D3 D4 D5 D6 D7 D8 D9 D10 D11 D12 D13 D14 D15 D16 D17 D18 D19 D20 D21 D22 D23 D24 D25 D26 D27 D28 D29 D30 D31 D32 D33 D34 D35 D36 D37 D38 D39 D40 D41 D42 D43 D44 D45]
    · iapply (rows_owns c arg2 harg2 arg3 x0 f1)
      isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      isplitl [D11]; · iexact D11
      isplitl [D12]; · iexact D12
      isplitl [D13]; · iexact D13
      isplitl [D14]; · iexact D14
      isplitl [D15]; · iexact D15
      isplitl [D16]; · iexact D16
      isplitl [D17]; · iexact D17
      isplitl [D18]; · iexact D18
      isplitl [D19]; · iexact D19
      isplitl [D20]; · iexact D20
      isplitl [D21]; · iexact D21
      isplitl [D22]; · iexact D22
      isplitl [D23]; · iexact D23
      isplitl [D24]; · iexact D24
      isplitl [D25]; · iexact D25
      isplitl [D26]; · iexact D26
      isplitl [D27]; · iexact D27
      isplitl [D28]; · iexact D28
      isplitl [D29]; · iexact D29
      isplitl [D30]; · iexact D30
      isplitl [D31]; · iexact D31
      isplitl [D32]; · iexact D32
      isplitl [D33]; · iexact D33
      isplitl [D34]; · iexact D34
      isplitl [D35]; · iexact D35
      isplitl [D36]; · iexact D36
      isplitl [D37]; · iexact D37
      isplitl [D38]; · iexact D38
      isplitl [D39]; · iexact D39
      isplitl [D40]; · iexact D40
      isplitl [D41]; · iexact D41
      isplitl [D42]; · iexact D42
      isplitl [D43]; · iexact D43
      isplitl [D44]; · iexact D44
      iexact D45
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    iexists _; iexact HW

end Cert.KernelIdeal.Gen

end
-- ==== Proof.WindowFrame.lean ====
/-
  The frame of the program: every weakly fair execution terminates without a fault and leaves the argument arrays
  unchanged. The pipeline stages one input row `[1, 3, 16, 10000]` and one output block `[46, 3, 16, 1000]` per grid
  point `(n, h)` of the `16 × 4` grid; the body (run elsewhere) leaves the input's staging buffer at its block and the
  output's at the forty-six windows of that block. The region's invariant is the same at every point: the kernel's
  forty-six semaphore cells at zero (every copy a point starts it also waits for), the generator register, nothing
  else. After the region two host operations repeat the labels; they write no array of the pipeline.
-/
import proofs.«108043_j57037165691079_2_alg».proof.Proof.WindowCopies
import Idealize.ShloMosaic.Lib.Pipeline.FrameSuffix

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own semaphore cells -/

/-- The forty-six cells of the kernel's semaphore array: numbers 4 … 49 of the core's DMA semaphores (the four before
    them are the staging buffers'). -/
abbrev osem0 : Fin 46 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49] : Fin 46 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0) := by
  rw [Pipeline.ownSems0_eq_of_list c osem0 (List.finRange 46) (by decide) (by decide)]; rfl

/-- The region invariant, conjunct by conjunct: no scoped buffer besides the staging buffers, the generator register,
    the forty-six cells at zero, and no array the kernel moves itself. -/
theorem PhiD0_eq (c : Dev nD) :
    (Pipeline.ΦD osem0 spec0 ∅ (V m) c : sProp 𝕄)
      = iprop((BI.emp : sProp 𝕄) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0) ∗ (BI.emp : sProp 𝕄)) := by
  rw [Pipeline.ΦD_eq, scopedRest0_eq, ownSems00_eq, BI.bigSep_empty]

/-! ## @main around the region, with the transfers' counters beside the pipeline's algebra -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines after the region touch the pipeline's arrays and the bypassing buffers only. -/
theorem sfx_subD : ∀ ops ∈ ([hostOps1] : List (List (HloOp τ sig (Elt F)))), ∀ op ∈ ops,
    op.bufs ⊆ Pipeline.tailRefsBut sig Pipeline.Prefetch.none spec0 ∅ := by
  rw [Pipeline.tailRefsBut_empty]; exact sfx_sub

/-- No host operation after the region writes `main_arg1`: it ends as launched. -/
theorem W_main_arg1D (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The input window's staging buffer holds its block at every point. -/
theorem before0_0D {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run's: the input array by the library's `Dat.arrAt_in`, the labels by the
    run's second clause. -/
theorem frame_ofD (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1D m dats c))⟩) h

/-! ## The proof data -/

/-- Each window's current staging memref at point `t`, as the pipeline passes it, and its wholeness. -/
abbrev ms0_0 (t : Fin cfg0.N) : Memref sig .tc .vmem S1x3x16x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S46x3x16x1000 .f32 := win0_1.stage (cfg0.slots t 1)
abbrev hs0_1 (t : Fin cfg0.N) : (ms0_1 t).IsWhole := hstage0_1 ((cfg0.slots t 1).cast nbuf0_1)

/-- What the output's staging buffer holds after the body at point `t`: the forty-six windows of the point's input
    row. -/
def outsAt0 (c : Dev nD) (t : Fin cfg0.N) : Vec F S46x3x16x1000 .f32 := blockOf (iblk m c 0 t)

/-- The proof data of the pipeline on core `c`: the arrays as the region finds them; after the body at point `t` the
    input's buffer at its block and the output's at the block's windows; the invariant above; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outsAt0 m c t
  Φ _ := Pipeline.ΦD osem0 spec0 ∅ (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outsAt0 m c t := by dsimp only [dats]
theorem before0_0 (c : Dev nD) (t : Fin cfg0.N) (d) : (dats m 0 c).before 0 t d = iblk m c 0 t :=
  before0_0D m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at any point: the invariant hands it the cells at zero and takes them back at zero; the input's buffer
    goes in and comes back at its block; the output's buffer comes back at the block's windows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl, after0_0, after0_1]
  rw [show (dats m 0 c).Φ t.castSucc = Pipeline.ΦD osem0 spec0 ∅ (V m) c from rfl, PhiD0_eq]
  unfold Dat.owesAt Pipeline.owesWithin
  rw [show (dats m 0 c).owed t.castSucc = 0 from rfl, show (dats m 0 c).owed t.succ = 0 from rfl]
  unfold outsAt0
  iintro ⟨⟨HE0, Hg, ⟨Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49⟩, HE1⟩, ⟨%W, -, HW⟩, ⟨%d0, H0⟩, ⟨%d1, H1⟩⟩
  iapply (windows_run c (grid0.coords t) _ _ _ _ (iblk m c 0 t) W _)
  isplitl [H0]; · iexact H0
  isplitl [H1]; · iexists _; iexact H1
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  isplitl [Hq45]; · iexact Hq45
  isplitl [Hq46]; · iexact Hq46
  isplitl [Hq47]; · iexact Hq47
  isplitl [Hq48]; · iexact Hq48
  isplitl [Hq49]; · iexact Hq49
  isplitl [HW]; · iexact HW
  iintro ⟨H0, H1, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, ⟨%W', HW'⟩⟩
  isplitl [HE0 Hg Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49 HE1]
  · isplitl [HE0]; · iexact HE0
    isplitl [Hg]; · iexact Hg
    isplitl [Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47 Hq48 Hq49]
    · isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      isplitl [Hq40]; · iexact Hq40
      isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      iexact Hq49
    iexact HE1
  isplitl [HW']
  · iexists W'; isplitr; · ipureintro; exact fun _ _ => Or.inl trivial
    iexact HW'
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the pipeline's arrays end at what the library computes from the
    proof data, and every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 ∅ (Finset.empty_subset _) m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m Variants.none) (hA := A_eq m)
    (hin := fun _ => .rfl) (hout := fun _ => .rfl)

/-- The frame: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_ofD m ρ (dats m) (A_eq m) (run_main m ρ)

end Cert.KernelIdeal.Gen

end
-- ==== Proof.WindowSpec.lean ====
/-
  Sliding windows along the last axis, as one function of the argument arrays.

  The input is x : [16, 3, 64, 10000]; a window is 1000 consecutive positions of the last axis, and window w
  starts at position 200·w, for w = 0 … 45 (the last window ends at 9000 + 1000 = 10000). The result stacks the
  windows of sample n, in window order, as rows 46·n … 46·n + 45 of an array [736, 3, 64, 1000]:

      result[46·n + w, c, h, j] = x[n, c, h, 200·w + j].

  Read from the result's side, row r belongs to sample r / 46 and is its window r % 46. The labels are repeated
  alike: label[r] = labels[r / 46]. Nothing is computed on the elements: both maps only re-index.
-/
import Idealize.ShloMosaic.PureOps.Ideal
import Idealize.ShloMosaic.Lib.ValueIdx

namespace Cert.Windows

open Idealize.ShloMosaic

/-- The input's shape, the result's, the labels' and the repeated labels'. -/
abbrev SX : Shape := ⟨4, ![16, 3, 64, 10000]⟩
abbrev SO : Shape := ⟨4, ![736, 3, 64, 1000]⟩
abbrev SL : Shape := ⟨1, ![16]⟩
abbrev SR : Shape := ⟨1, ![736]⟩

/-- Where result element `i = (r, c, h, j)` comes from: sample `r / 46`, channel `c`, row `h`, position
    `200·(r % 46) + j` — inside the input because `200·45 + 999 < 10000`. -/
def srcIdx (i : SO.Idx) : SX.Idx := fun a => match a with
  | ⟨0, _⟩ => ⟨(i 0).val / 46, by have h0 : (i 0).val < 736 := (i 0).isLt; show (i 0).val / 46 < 16; omega⟩
  | ⟨1, _⟩ => ⟨(i 1).val, (i 1).isLt⟩
  | ⟨2, _⟩ => ⟨(i 2).val, (i 2).isLt⟩
  | ⟨3, _⟩ => ⟨(i 0).val % 46 * 200 + (i 3).val, by
      have h3 : (i 3).val < 1000 := (i 3).isLt
      show (i 0).val % 46 * 200 + (i 3).val < 10000; omega⟩

/-- The stacked windows of `x`. -/
def windows {α : Type} (x : SX.Idx → α) : SO.Idx → α := fun i => x (srcIdx i)

/-- Row `r` carries the label of sample `r / 46`. -/
def labelIdx (i : SR.Idx) : SL.Idx := fun a => match a with
  | ⟨0, _⟩ => ⟨(i 0).val / 46, by have h0 : (i 0).val < 736 := (i 0).isLt; show (i 0).val / 46 < 16; omega⟩

/-- Each label repeated once per window of its sample. -/
def repeated {α : Type} (l : SL.Idx → α) : SR.Idx → α := fun i => l (labelIdx i)

end Cert.Windows
-- ==== Proof.RefWindows.lean ====
/-
  The reference program is the windows function.

  The reference takes x : [16, 3, 64, 10000] and labels : [16]. It builds the integer array
  idx[w, j] = 200·w + j (w < 46, j < 1000) from two iotas, a product with the constant 200 and a sum, replaces
  idx by idx + 10000 wherever idx is negative (the wrap of a negative index), and gathers x along its last axis
  at idx: g[n, c, h, w, j] = x[n, c, h, clamp(idx[w, j])], the start index read signed and clamped into
  [0, 9999]. A transposition puts the window axis next to the sample axis, [16, 46, 3, 64, 1000], and a reshape
  merges the two into rows r = 46·n + w. The labels are broadcast to [16, 46] and reshaped to [736] alike.

  Every word 200·w + j is at most 200·45 + 999 = 9999 < 2³¹: as a 32-bit word it does not wrap, it is not
  negative, so the select keeps it, and the clamp leaves it. Element (r, c, h, j) of the reshaped array is
  position ((r·3 + c)·64 + h)·1000 + j in row-major order, whose coordinates in [16, 46, 3, 64, 1000] are
  (r / 46, r % 46, c, h, j). Hence element (r, c, h, j) of the result is x[r / 46, c, h, 200·(r % 46) + j], which is
  the stacked windows of x; and element r of the second result is labels[r / 46], each label repeated once per
  window. Nothing is computed on the elements, so both hold at every float instance.
-/
import proofs.«108043_j57037165691079_2_alg».proof.Proof.Gen.ReferenceIdeal.Read
import proofs.«108043_j57037165691079_2_alg».proof.Proof.WindowSpec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx

variable {F : FTy → Type} [FloatOps F]

/-! ## The position word `200·w + j` -/

/-- For `w < 46` and `j < 1000` the 32-bit word `w · 200 + j` does not wrap: it is the natural number
    `200·w + j ≤ 9999`. -/
theorem word_toNat (w j : Nat) (hw : w < 46) (hj : j < 1000) :
    (BitVec.ofNat 32 w * 200#32 + BitVec.ofNat 32 j).toNat = w * 200 + j := by
  simp [BitVec.toNat_add, BitVec.toNat_mul, BitVec.toNat_ofNat]
  omega

/-- Read as a signed integer the word is the same number: it is below `2³¹`. -/
theorem word_toInt (w j : Nat) (hw : w < 46) (hj : j < 1000) :
    (BitVec.ofNat 32 w * 200#32 + BitVec.ofNat 32 j).toInt = ((w * 200 + j : Nat) : Int) := by
  rw [BitVec.toInt_eq_toNat_of_lt (by rw [word_toNat w j hw hj]; omega), word_toNat w j hw hj]

/-- The word is not negative: the signed comparison with `0` is the bit `0`. -/
theorem word_slt (w j : Nat) (hw : w < 46) (hj : j < 1000) :
    IntOp.cmpi .slt (BitVec.ofNat 32 w * 200#32 + BitVec.ofNat 32 j) 0#32 = 0#1 := by
  show BitVec.ofBool ((BitVec.ofNat 32 w * 200#32 + BitVec.ofNat 32 j).slt 0#32) = 0#1
  have h : (BitVec.ofNat 32 w * 200#32 + BitVec.ofNat 32 j).slt 0#32 = false := by
    rw [BitVec.slt, word_toInt w j hw hj]
    simp
    omega
  rw [h]; rfl

/-! ## The start indices -/

/-- The sum of the two broadcast iotas at `(w, j)` is the word `w · 200 + j`. -/
theorem v8_apply (k : S46x1000.Idx) :
    val_main_v8 (F := F) k = BitVec.ofNat 32 (k 0).val * 200#32 + BitVec.ofNat 32 (k 1).val := by
  rw [val_main_v8_apply, val_main_v6_apply, val_main_v7_apply, val_main_v3_apply, val_main_v5_apply,
    val_main_v1_apply, val_main_v2_apply, val_main_v0_apply, val_main_v4_apply, val_main_c_apply]
  rfl

/-- The wrap of negative indices changes nothing: the word is not negative, so the select keeps it. -/
theorem v13_apply (k : S46x1000.Idx) :
    val_main_v13 (F := F) k = BitVec.ofNat 32 (k 0).val * 200#32 + BitVec.ofNat 32 (k 1).val := by
  have h0 : (k 0).val < 46 := (k 0).isLt
  have h1 : (k 1).val < 1000 := (k 1).isLt
  rw [val_main_v13_apply, val_main_v10_apply, v8_apply, val_main_v9_apply, val_main_c_0_apply,
    word_slt _ _ h0 h1, select_zero]

/-! ## The gather at an index

The operand has four axes, the first three offset axes (slice sizes 16, 3, 64: the whole axis, start 0) and the
last collapsed (slice size 1) and the one the start index names; the start indices are `[46, 1000, 1]`, the last
axis the index vector's. Result element `(n, c, h, w, j)` reads the operand at `(n, c, h, s)`, `s` the start
index at `(w, j, 0)` read signed and clamped into `[0, 10000 − 1]`. -/

local notation "gd" => gather_S16x3x64x10000_S46x1000x1_S16x3x64x46x1000_012_3_n_n_3_2_163641

/-- The start-indices index `(w, j, 0)` of result index `(n, c, h, w, j)`. -/
abbrev startIdx (j : S16x3x64x46x1000.Idx) : S46x1000x1.Idx := fun a => match a with
  | ⟨0, _⟩ => ⟨(j 3).val, (j 3).isLt⟩
  | ⟨1, _⟩ => ⟨(j 4).val, (j 4).isLt⟩
  | ⟨2, _⟩ => ⟨0, Nat.one_pos⟩

/-- The operand index result index `(n, c, h, w, j)` reads: `(n, c, h, clamp idx[w, j, 0])`. -/
abbrev gatherSrc {w : Nat} (idx : IVec S46x1000x1 w) (j : S16x3x64x46x1000.Idx) : S16x3x64x10000.Idx :=
  fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨min (idx (startIdx j)).toInt.toNat 9999, by
      show min (idx (startIdx j)).toInt.toNat 9999 < 10000; omega⟩

/-- The one component of a start index is read at `(w, j, 0)`: the result's two batch coordinates, and `0` on
    the index vector's axis, whose size is one. -/
theorem siIdx_eq (j : S16x3x64x46x1000.Idx) (c : Fin (GatherDims.startIndexMap gd).length) :
    GatherDims.siIdx gd j c = startIdx j := by
  funext b
  refine Fin.ext ?_
  match b with
  | ⟨0, _⟩ => rfl
  | ⟨1, _⟩ => rfl
  | ⟨2, _⟩ =>
    show c.val = 0
    have hc : c.val < 1 := c.isLt
    omega

/-- THE GATHER READ AT `(n, c, h, w, j)`: axis by axis, the clamped start plus the batching coordinate (none
    here) plus the offset coordinate. On the offset axes the start is `0` and the offset coordinate the result's;
    on the collapsed axis the offset coordinate is `0` and the start the clamped start index. -/
theorem gather_apply {α : Type} {w : Nat} (x : S16x3x64x10000.Idx → α) (idx : IVec S46x1000x1 w)
    (j : S16x3x64x46x1000.Idx) :
    Host.gather gd x idx j = x (gatherSrc idx j) := by
  unfold Host.gather
  congr 1
  funext a
  refine Fin.ext ?_
  show GatherDims.start _ j idx a + GatherDims.batchCoord _ j a + GatherDims.offCoord _ j a = _
  rw [GatherDims.batchCoord_eq_zero _ _ _ List.not_mem_nil]
  simp only [Nat.add_zero]
  match a with
  | ⟨0, _⟩ =>
    show GatherDims.start gd j idx (0 : Fin 4) + GatherDims.offCoord gd j (0 : Fin 4) = (j 0).val
    unfold GatherDims.start GatherDims.offCoord
    rw [dif_neg (by decide), dif_pos (by decide), Nat.zero_add]
    rfl
  | ⟨1, _⟩ =>
    show GatherDims.start gd j idx (1 : Fin 4) + GatherDims.offCoord gd j (1 : Fin 4) = (j 1).val
    unfold GatherDims.start GatherDims.offCoord
    rw [dif_neg (by decide), dif_pos (by decide), Nat.zero_add]
    rfl
  | ⟨2, _⟩ =>
    show GatherDims.start gd j idx (2 : Fin 4) + GatherDims.offCoord gd j (2 : Fin 4) = (j 2).val
    unfold GatherDims.start GatherDims.offCoord
    rw [dif_neg (by decide), dif_pos (by decide), Nat.zero_add]
    rfl
  | ⟨3, _⟩ =>
    show GatherDims.start gd j idx (3 : Fin 4) + GatherDims.offCoord gd j (3 : Fin 4)
      = min (idx (startIdx j)).toInt.toNat 9999
    rw [GatherDims.offCoord_eq_zero _ _ _ (by decide)]
    unfold GatherDims.start
    rw [dif_pos (by decide), siIdx_eq]
    rfl

/-! ## The reference's two results -/

/-- The first result is the stacked windows of `x`: element `(r, c, h, j)` is row-major position
    `p = ((r·3 + c)·64 + h)·1000 + j`, whose coordinates in `[16, 46, 3, 64, 1000]` are
    `(r / 46, r % 46, c, h, j)`; the transposition and the gather read `x` at
    `(r / 46, c, h, 200·(r % 46) + j)`, the start index unchanged by the sign test and the clamp. -/
theorem samples_eq (x0 : (⟨S16x3x64x10000, .f32⟩ : BufTy).Contents (Elt F)) :
    val_main_v17 (F := F) x0 = Cert.Windows.windows x0 := by
  funext i
  rw [val_main_v17_apply, val_main_v16_apply]
  unfold val_main_v15
  rw [gather_apply]
  unfold Cert.Windows.windows
  congr 1
  funext a
  refine Fin.ext ?_
  have h0 : (i 0).val < 736 := (i 0).isLt
  have h1 : (i 1).val < 3 := (i 1).isLt
  have h2 : (i 2).val < 64 := (i 2).isLt
  have h3 : (i 3).val < 1000 := (i 3).isLt
  match a with
  | ⟨0, _⟩ =>
    show ((((i 0).val * 3 + (i 1).val) * 64 + (i 2).val) * 1000 + (i 3).val) / 8832000 = (i 0).val / 46
    omega
  | ⟨1, _⟩ =>
    show ((((i 0).val * 3 + (i 1).val) * 64 + (i 2).val) * 1000 + (i 3).val) / 64000 % 3 = (i 1).val
    omega
  | ⟨2, _⟩ =>
    show ((((i 0).val * 3 + (i 1).val) * 64 + (i 2).val) * 1000 + (i 3).val) / 1000 % 64 = (i 2).val
    omega
  | ⟨3, _⟩ =>
    show min (val_main_v14 (F := F) (startIdx (idx_main_v16 (idx_main_v17 i)))).toInt.toNat 9999
      = (i 0).val % 46 * 200 + (i 3).val
    rw [val_main_v14_apply, v13_apply]
    show min (BitVec.ofNat 32 (((((i 0).val * 3 + (i 1).val) * 64 + (i 2).val) * 1000 + (i 3).val) / 192000 % 46) * 200#32
        + BitVec.ofNat 32 (((((i 0).val * 3 + (i 1).val) * 64 + (i 2).val) * 1000 + (i 3).val) % 1000)).toInt.toNat 9999
      = (i 0).val % 46 * 200 + (i 3).val
    rw [word_toInt _ _ (by omega) (by omega), Int.toNat_natCast]
    omega

/-- The second result repeats each label once per window: element `r` of the reshaped `[16, 46]` broadcast is
    at `(r / 46, r % 46)`, which reads `labels[r / 46]`. -/
theorem labels_eq (x1 : (⟨S16, .f32⟩ : BufTy).Contents (Elt F)) :
    val_main_v19 (F := F) x1 = Cert.Windows.repeated x1 := by
  funext i
  rw [val_main_v19_apply, val_main_v18_apply]
  unfold Cert.Windows.repeated
  exact congrArg x1 (funext fun a => match a with
    | ⟨0, _⟩ => rfl)

end Cert.ReferenceIdeal.RefValue

end
-- ==== Proof.WindowValue.lean ====
/-
  The kernel computes the windows function, and so does the reference.

  The pallas_call runs on the 16 × 4 grid. At point (n, h) it stages the input row x[n, :, 16h … 16h + 15, :], a block
  [1, 3, 16, 10000] of the input [16, 3, 64, 10000] at block index (n, 0, h, 0), and writes back the block
  [46, 3, 16, 1000] of the result [736, 3, 64, 1000] at block index (n, 0, h, 0): rows 46n … 46n + 45 and positions
  16h … 16h + 15 of the third axis. The body leaves in that block, at (w, a, b, j), the staged row's element
  (0, a, b, 200·w + j): that is x[n, a, 16h + b, 200·w + j], and with r = 46n + w, r / 46 = n and r % 46 = w, it is the
  windows function of x at (r, a, 16h + b, j) — the block of the windows function the point is to write. Every index
  (r, a, k, j) of the result lies in the block of the point (r / 46, k / 16), and every point writes its block back, so
  the result array ends at the windows function of x. The two host operations after the region broadcast the labels
  [16] to [16, 46] and reshape to [736]: element r is labels[r / 46]. The reference computes the same two functions
  of the same arguments, so the two programs end with equal results.
-/
import proofs.«108043_j57037165691079_2_alg».proof.Defs
import proofs.«108043_j57037165691079_2_alg».proof.Proof.WindowFrame
import proofs.«108043_j57037165691079_2_alg».proof.Proof.WindowSpec
import proofs.«108043_j57037165691079_2_alg».proof.Proof.RefWindows
import proofs.«108043_j57037165691079_2_alg».proof.Proof.Gen.Pre_finite_inputs
import Idealize.ShloMosaic.Lib.Pipeline.Value
import Idealize.ShloMosaic.Lib.StableHlo.Run
import Idealize.ShloMosaic.Lib.ValueIdx

set_option maxRecDepth 16384

noncomputable section

namespace Cert.KernelIdeal.WinValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The result array -/

/-- The two index maps, decided over the grid: at every point the input's block index and the result's agree on the
    sample axis and on the third axis, are 0 on the other two, and stay in their ranges. -/
theorem idx_facts : ∀ t : Fin cfg0.N, win0_0.index t (0 : Fin 4) = win0_1.index t (0 : Fin 4)
    ∧ win0_0.index t (1 : Fin 4) = 0 ∧ win0_1.index t (1 : Fin 4) = 0
    ∧ win0_0.index t (2 : Fin 4) = win0_1.index t (2 : Fin 4)
    ∧ win0_0.index t (3 : Fin 4) = 0 ∧ win0_1.index t (3 : Fin 4) = 0
    ∧ win0_1.index t (0 : Fin 4) ≤ 15 ∧ win0_1.index t (2 : Fin 4) ≤ 3 :=
  (by decide +kernel : ∀ t : Fin grid0.N, _)

/-- Every block index `(q0, 0, q2, 0)` with `q0 < 16`, `q2 < 4` is some point's. -/
theorem idx_onto : ∀ (q0 : Fin 16) (q2 : Fin 4), ∃ t : Fin cfg0.N, win0_1.index t = ![q0.val, 0, q2.val, 0] :=
  (by decide +kernel : ∀ (q0 : Fin 16) (q2 : Fin 4), ∃ t : Fin grid0.N, win0_1.index t = ![q0.val, 0, q2.val, 0])

/-- WHAT POINT `t` WRITES BACK is block `t` of the windows function of the input array: the body's block at
    `(w, a, b, j)` is the staged row at `(0, a, b, 200·w + j)`, the row is block `(n, 0, h, 0)` of the input, and
    row `46·n + w` of the result is window `w` of sample `n`. -/
theorem flushed_eq (c : Dev nD) (t : Fin cfg0.N) :
    (dats m 0 c).flushed 1 t = ((cfg0.win 1).blk t).view.read (Elt F) (Cert.Windows.windows (V m c main_arg0)) := by
  show (cfg0.win 1).cut (grid0.coords t) ((dats m 0 c).after 1 t) = _
  rw [after0_1]
  unfold outsAt0 blockOf iblk
  obtain ⟨e0, e1, e2, e3, e4, e5, e6, e7⟩ := idx_facts t
  funext j
  show V m c main_arg0 (((cfg0.win 0).blk t).view.emb (blockIdx j))
    = V m c main_arg0 (Cert.Windows.srcIdx (((cfg0.win 1).blk t).view.emb j))
  refine congrArg (V m c main_arg0) ?_
  have hj0 : (j 0).val < 46 := (j 0).isLt
  have hj1 : (j 1).val < 3 := (j 1).isLt
  have hj2 : (j 2).val < 16 := (j 2).isLt
  have hj3 : (j 3).val < 1000 := (j 3).isLt
  funext a; apply Fin.ext
  match a with
  | ⟨0, _⟩ =>
    show win0_0.index t (0 : Fin 4) * 1 + 1 * 0 = (win0_1.index t (0 : Fin 4) * 46 + 1 * (j 0).val) / 46
    omega
  | ⟨1, _⟩ =>
    show win0_0.index t (1 : Fin 4) * 3 + 1 * (j 1).val = win0_1.index t (1 : Fin 4) * 3 + 1 * (j 1).val
    omega
  | ⟨2, _⟩ =>
    show win0_0.index t (2 : Fin 4) * 16 + 1 * (j 2).val = win0_1.index t (2 : Fin 4) * 16 + 1 * (j 2).val
    omega
  | ⟨3, _⟩ =>
    show win0_0.index t (3 : Fin 4) * 10000 + 1 * (200 * (j 0).val + (j 3).val)
      = (win0_1.index t (0 : Fin 4) * 46 + 1 * (j 0).val) % 46 * 200 + (win0_1.index t (3 : Fin 4) * 1000 + 1 * (j 3).val)
    omega

/-- An index of the result array is in point `t`'s block iff each coordinate is in the block's range on its axis. -/
theorem mem_blk (t : Fin cfg0.N) (i : S736x3x64x1000.Idx) :
    i ∈ ((cfg0.win 1).blk t).view.set ↔ ∀ a : Fin 4, win0_1.index t a * S46x3x16x1000.size a ≤ (i a).val
      ∧ (i a).val < win0_1.index t a * S46x3x16x1000.size a + S46x3x16x1000.size a := by
  show i ∈ ((View.whole main_v0).slice (win0_1.rect t)).set ↔ _
  rw [View.set_slice_whole, Rect.mem_set_unit]
  exact Iff.rfl

/-- THE BLOCKS COVER THE ARRAY: index `(r, a, k, j)` lies in the block of the point with block index
    `(r / 46, 0, k / 16, 0)`, and every point writes its block back. -/
theorem cover (i : S736x3x64x1000.Idx) :
    ∃ t : Fin cfg0.N, (cfg0.win 1).flush t = true ∧ i ∈ ((cfg0.win 1).blk t).view.set := by
  have hi0 : (i 0).val < 736 := (i 0).isLt
  have hi1 : (i 1).val < 3 := (i 1).isLt
  have hi2 : (i 2).val < 64 := (i 2).isLt
  have hi3 : (i 3).val < 1000 := (i 3).isLt
  obtain ⟨t, ht⟩ := idx_onto ⟨(i 0).val / 46, by omega⟩ ⟨(i 2).val / 16, by omega⟩
  have q0 : win0_1.index t (0 : Fin 4) = (i 0).val / 46 := congrFun ht 0
  have q1 : win0_1.index t (1 : Fin 4) = 0 := congrFun ht 1
  have q2 : win0_1.index t (2 : Fin 4) = (i 2).val / 16 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 46 ≤ (i 0).val ∧ (i 0).val < win0_1.index t (0 : Fin 4) * 46 + 46; omega
  | ⟨1, _⟩ => show win0_1.index t (1 : Fin 4) * 3 ≤ (i 1).val ∧ (i 1).val < win0_1.index t (1 : Fin 4) * 3 + 3; omega
  | ⟨2, _⟩ => show win0_1.index t (2 : Fin 4) * 16 ≤ (i 2).val ∧ (i 2).val < win0_1.index t (2 : Fin 4) * 16 + 16; omega
  | ⟨3, _⟩ => show win0_1.index t (3 : Fin 4) * 1000 ≤ (i 3).val ∧ (i 3).val < win0_1.index t (3 : Fin 4) * 1000 + 1000; omega

/-- THE RESULT ARRAY after the run is the windows function of the input array as launched. -/
theorem final (c : Dev nD) :
    (dats m 0 c).arrAt 1 cfg0.N = Cert.Windows.windows (m ((c : Thread nD τ).loc main_arg0)) := by
  rw [← V_main_arg0 m c]
  exact (dats m 0 c).arrAt_eq_of_cover 1 _ (fun t _ => flushed_eq m c t) cover

/-! ## The repeated labels -/

/-- Where element `r` of the reshaped array sits in the broadcast `[16, 46]`: at `(r / 46, r % 46)`. -/
abbrev pairIdx (i : S736.Idx) : S16x46.Idx := fun a => match a with
  | ⟨0, _⟩ => ⟨(i 0).val / 46, by have h0 : (i 0).val < 736 := (i 0).isLt; show (i 0).val / 46 < 16; omega⟩
  | ⟨1, _⟩ => ⟨(i 0).val % 46, by show (i 0).val % 46 < 46; omega⟩

/-- The two host operations' composed term is the repeated labels: element `r` of the reshape is element
    `(r / 46, r % 46)` of the broadcast, which is label `r / 46`. -/
theorem repeat_eq (x1 : (⟨S16, .f32⟩ : BufTy).Contents (Elt F)) :
    shapeCast _ (broadcastInDim S16x46 ![0] bcast_S16_S16x46_0 x1) shapeCasts_S16x46_S736 = Cert.Windows.repeated x1 := by
  funext i
  have h0 : (i 0).val < 736 := (i 0).isLt
  rw [shapeCast_apply _ shapeCasts_S16x46_S736 i (pairIdx i) (by
    rewrite [Shape.rowMajor_val_two, Shape.rowMajor_val_one]
    show (i 0).val / 46 * 46 + (i 0).val % 46 = (i 0).val; omega)]
  rw [broadcastInDim_apply _ bcast_S16_S16x46_0 x1 (pairIdx i) (Cert.Windows.labelIdx i) (fun a => match a with
    | ⟨0, _⟩ => by show (i 0).val / 46 = if (16 : Nat) = 1 then 0 else (i 0).val / 46; rw [if_neg (by decide)])]
  rfl

/-- THE SECOND RESULT after the host operations that follow the region is the repeated labels: the operations read
    the labels' array, which is no array of the pipeline and holds what it held at launch. -/
theorem labels_after (c : Dev nD) :
    Pipeline.afterTail₀ cfgs (dats m) 0 (V0 m) [hostOps1] c main_v2
      = Cert.Windows.repeated (m ((c : Thread nD τ).loc main_arg1)) := by
  unfold Pipeline.afterTail₀
  show StableHlo.after hostOps1 _ (Proc.devRef .tc main_v2) = _
  after_results
  rw [Pipeline.withArrays_of_ne _ c (V0 m c) _ main_arg1 (by exact (by decide : ∀ w, Pipeline.arrRef spec0 w ≠ main_arg1))]
  exact repeat_eq (V m c main_arg1)

/-! ## The run, read -/

/-- Every weakly fair execution of the kernel's program terminates with the first result at the windows function of
    the input, the second at the repeated labels, and the arguments unchanged. -/
theorem run : θ_run defs (onTc (τ := τ) (main (F := F))) ⟨m, fun _ => 0, ρ⟩ (fun r => ∀ c : Dev nD,
      r.2.mem ((c.tc : Thread nD τ).loc main_v0) = Cert.Windows.windows (m ((c.tc : Thread nD τ).loc main_arg0))
      ∧ r.2.mem ((c.tc : Thread nD τ).loc main_v2) = Cert.Windows.repeated (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 1).trans (final m c),
      ((h c).2 main_v2 (Pipeline.mem_restRefs_of main_v2 (by decide) (by decide))).trans (labels_after m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1D m (dats m) c)⟩)
    (run_main m ρ)

end Cert.KernelIdeal.WinValue

/-! ## The two programs end with equal results -/

namespace Cert.Proof.Windows

open Idealize.ShloMosaic Idealize.ShloMosaic.TcCoe Idealize.SL.Sem

/-- From memories that agree on the two arguments, the kernel's program and the reference both run; the kernel's
    results are the windows function of its input and the repeated labels (the value leg above), the reference's
    composed terms are the same two functions of its own arguments (the reference read at an index), and the
    arguments agree: the results are equal, and both programs leave their arguments unchanged. -/
theorem algebraic : Cert.algebraic_KernelIdeal_ReferenceIdeal := by
  intro m ρ m' ρ' _ hagree
  refine ⟨fun c => Cert.Windows.windows (m ((c.tc : Thread Cert.KernelIdeal.nD Cert.KernelIdeal.τ).loc Cert.KernelIdeal.main_arg0)),
    fun c => Cert.Windows.repeated (m ((c.tc : Thread Cert.KernelIdeal.nD Cert.KernelIdeal.τ).loc Cert.KernelIdeal.main_arg1)),
    Cert.KernelIdeal.WinValue.run (F := Ideal) m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v17_eq, Cert.ReferenceIdeal.RefValue.samples_eq, (hagree c).1]
  · rw [(h c).2.1, Cert.ReferenceIdeal.Read.val_main_v19_eq, Cert.ReferenceIdeal.RefValue.labels_eq, (hagree c).2]

end Cert.Proof.Windows

end
-- ==== Proof.lean ====
/-
  Sliding windows by copies, against a gather.

  The kernel walks a `16 × 4` grid: at point `(n, h)` it has sample `n`'s rows `16·h … 16·h + 15` of all three
  channels, full width `10000`, in a staging buffer, and copies window `w` of that row — positions `200·w … 200·w + 999`
  — into row `w` of an output block `[46, 3, 16, 1000]`, for `w = 0 … 45`, by forty-six copies in flight at once, each
  on a semaphore of its own, all waited for before the point ends. The block is written back as rows
  `46·n … 46·n + 45`, height rows `16·h … 16·h + 15` of the result `[736, 3, 64, 1000]`. So the result at
  `(46·n + w, c, y, j)` is the input at `(n, c, y, 200·w + j)`. The reference computes the same array by gathering the
  input's last axis at the integer positions `200·w + j`, transposing the window axis next to the sample axis and
  merging the two. Both programs repeat each of the sixteen labels forty-six times by the same two host operations.
  Nothing is computed on the elements, so the two results agree element by element at every float instance; the
  precondition (finite inputs) is never opened.

  The three frames: each kernel program by the frame run of its pipeline (the body's forty-six copies are run once,
  generically in the float instance, and read at the word-level instance for the kernel as printed and at the ideal
  instance for its idealization); the reference by its run with the results dropped. The idealization rewrote no
  operation, so there is nothing to preserve.
-/
import proofs.«108043_j57037165691079_2_alg».proof.Defs
import proofs.«108043_j57037165691079_2_alg».proof.Proof.Gen.Kernel
import proofs.«108043_j57037165691079_2_alg».proof.Proof.Gen.KernelIdeal
import proofs.«108043_j57037165691079_2_alg».proof.Proof.Gen.ReferenceIdeal
import proofs.«108043_j57037165691079_2_alg».proof.Proof.Gen.ReferenceIdeal.Run
import proofs.«108043_j57037165691079_2_alg».proof.Proof.Gen.Pre_finite_inputs
import proofs.«108043_j57037165691079_2_alg».proof.Proof.WindowFrameBits
import proofs.«108043_j57037165691079_2_alg».proof.Proof.WindowFrame
import proofs.«108043_j57037165691079_2_alg».proof.Proof.WindowValue
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Gen.frame (F := Bits) m ρ

/-- So does its idealization. -/
theorem frame_kernelIdeal : Cert.frame_KernelIdeal := fun m ρ _ => Cert.KernelIdeal.Gen.frame (F := Ideal) m ρ

/-- The reference is host operations only: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Windows.algebraic⟩

end Cert.Proof

end
